-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x25x512x512 : Shape := ⟨4, ![16, 25, 512, 512]⟩
abbrev S16x1x512x512 : Shape := ⟨4, ![16, 1, 512, 512]⟩
abbrev S_ : Shape := ⟨0, ![]⟩

class Facts : Prop where
  bcast_S_S16x25x512x512 : S_.BroadcastsInDim S16x25x512x512 (![] : Fin 0 → Fin S16x25x512x512.rank)
  reducesTo_S16x25x512x512_S_d0_1_2_3 : S16x25x512x512.ReducesTo [0, 1, 2, 3] S_
  h_S_ : 0 < S_.numel
  bcast_S_S16x1x512x512 : S_.BroadcastsInDim S16x1x512x512 (![] : Fin 0 → Fin S16x1x512x512.rank)
  reducesTo_S16x1x512x512_S_d0_1_2_3 : S16x1x512x512.ReducesTo [0, 1, 2, 3] S_

variable [Facts]

def fn {F : FTy → Type} [FloatOps F] (main_arg0 : FVec F S16x25x512x512 .f32) (main_arg1 : FVec F S16x1x512x512 .f32) : IVec S_ 1 :=
  let main_v0 : FVec F S16x25x512x512 .f32 := Host.absf main_arg0
  let main_cst : FVec F S_ .f32 := constant S_ .f32 0x7F800000#32
  let main_v1 : FVec F S16x25x512x512 .f32 := broadcastInDim S16x25x512x512 ![] bcast_S_S16x25x512x512 main_cst
  let main_v2 : IVec S16x25x512x512 1 := cmpf .olt main_v0 main_v1
  let main_c : IVec S_ 1 := constantI S_ 1 1#1
  let main_v3 : IVec S_ 1 := (fun x v => Host.reduce IntOp.andi x v reducesTo_S16x25x512x512_S_d0_1_2_3 h_S_) main_v2 main_c
  let main_v4 : FVec F S16x1x512x512 .f32 := Host.absf main_arg1
  let main_cst_0 : FVec F S_ .f32 := constant S_ .f32 0x7F800000#32
  let main_v5 : FVec F S16x1x512x512 .f32 := broadcastInDim S16x1x512x512 ![] bcast_S_S16x1x512x512 main_cst_0
  let main_v6 : IVec S16x1x512x512 1 := cmpf .olt main_v4 main_v5
  let main_c_1 : IVec S_ 1 := constantI S_ 1 1#1
  let main_v7 : IVec S_ 1 := (fun x v => Host.reduce IntOp.andi x v reducesTo_S16x1x512x512_S_d0_1_2_3 h_S_) main_v6 main_c_1
  let main_v8 : IVec S_ 1 := andi main_v3 main_v7
  main_v8
-- ==== Kernel.lean ====
abbrev S16x25x512x512 : Shape := ⟨4, ![16, 25, 512, 512]⟩
abbrev S16x1x512x512 : Shape := ⟨4, ![16, 1, 512, 512]⟩
abbrev S16x512x512 : Shape := ⟨3, ![16, 512, 512]⟩
abbrev S1x25x256x512 : Shape := ⟨4, ![1, 25, 256, 512]⟩
abbrev S1x512x512 : Shape := ⟨3, ![1, 512, 512]⟩
abbrev S1x256x512 : Shape := ⟨3, ![1, 256, 512]⟩
abbrev S516x516 : Shape := ⟨2, ![516, 516]⟩
abbrev S512x512 : Shape := ⟨2, ![512, 512]⟩
abbrev S512x2 : Shape := ⟨2, ![512, 2]⟩
abbrev S512x516 : Shape := ⟨2, ![512, 516]⟩
abbrev S2x516 : Shape := ⟨2, ![2, 516]⟩
abbrev S260x516 : Shape := ⟨2, ![260, 516]⟩
abbrev S256x512 : Shape := ⟨2, ![256, 512]⟩
abbrev S1x1x256x512 : Shape := ⟨4, ![1, 1, 256, 512]⟩
abbrev S1x16x512x512 : Shape := ⟨4, ![1, 16, 512, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x25x512x512, .f32⟩
  | .hbm, ⟨1, _⟩ => ⟨S16x1x512x512, .f32⟩
  | .hbm, ⟨2, _⟩ => ⟨S16x512x512, .f32⟩
  | .hbm, ⟨3, _⟩ => ⟨S16x512x512, .f32⟩
  | .hbm, ⟨4, _⟩ => ⟨S1x16x512x512, .f32⟩
  | .local _ .vmem, ⟨0, _⟩ => ⟨S1x25x256x512, .f32⟩
  | .local _ .vmem, ⟨1, _⟩ => ⟨S1x25x256x512, .f32⟩
  | .local _ .vmem, ⟨2, _⟩ => ⟨S1x512x512, .f32⟩
  | .local _ .vmem, ⟨3, _⟩ => ⟨S1x512x512, .f32⟩
  | .local _ .vmem, ⟨4, _⟩ => ⟨S1x256x512, .f32⟩
  | .local _ .vmem, ⟨5, _⟩ => ⟨S1x256x512, .f32⟩
  | .local _ .vmem, ⟨6, _⟩ => ⟨S516x516, .f32⟩
  | _, _ => ⟨S16x25x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v11 : Index := Scalar.indexCast v1
  let c0_5 : Index := 0#32
  ![v11.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x25x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x1x512x512_S16x512x512 : S16x1x512x512.ShapeCasts S16x512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  concatenates_S512x2_S512x512_S512x2_S512x516_d1 : Shape.Concatenates [S512x2, S512x512, S512x2] S512x516 1
  concatenates_S2x516_S512x516_S2x516_S516x516_d0 : Shape.Concatenates [S2x516, S512x516, S2x516] S516x516 0
  inb_S516x516_S516x516_0_0 : ∀ a, (![0, 0] : Fin 2 → Nat) a + S516x516.size a ≤ S516x516.size a
  h_S516x516 : 0 < S516x516.numel
  shapeCasts_S516x516_S516x516 : S516x516.ShapeCasts S516x516
  h_S260x516 : 0 < S260x516.numel
  inb_S1x25x256x512_S1x1x256x512_0_0_0_0 : ∀ a, (![0, 0, 0, 0] : Fin 4 → Nat) a + S1x1x256x512.size a ≤ S1x25x256x512.size a
  h_S1x1x256x512 : 0 < S1x1x256x512.numel
  shapeCasts_S1x1x256x512_S256x512 : S1x1x256x512.ShapeCasts S256x512
  slices_S260x516_o0_0_S256x512 : S260x516.Slices ![0, 0] S256x512
  inb_S1x25x256x512_S1x1x256x512_0_1_0_0 : ∀ a, (![0, 1, 0, 0] : Fin 4 → Nat) a + S1x1x256x512.size a ≤ S1x25x256x512.size a
  slices_S260x516_o1_0_S256x512 : S260x516.Slices ![1, 0] S256x512
  inb_S1x25x256x512_S1x1x256x512_0_2_0_0 : ∀ a, (![0, 2, 0, 0] : Fin 4 → Nat) a + S1x1x256x512.size a ≤ S1x25x256x512.size a
  slices_S260x516_o2_0_S256x512 : S260x516.Slices ![2, 0] S256x512
  inb_S1x25x256x512_S1x1x256x512_0_3_0_0 : ∀ a, (![0, 3, 0, 0] : Fin 4 → Nat) a + S1x1x256x512.size a ≤ S1x25x256x512.size a
  slices_S260x516_o3_0_S256x512 : S260x516.Slices ![3, 0] S256x512
  inb_S1x25x256x512_S1x1x256x512_0_4_0_0 : ∀ a, (![0, 4, 0, 0] : Fin 4 → Nat) a + S1x1x256x512.size a ≤ S1x25x256x512.size a
  slices_S260x516_o4_0_S256x512 : S260x516.Slices ![4, 0] S256x512
  inb_S1x25x256x512_S1x1x256x512_0_5_0_0 : ∀ a, (![0, 5, 0, 0] : Fin 4 → Nat) a + S1x1x256x512.size a ≤ S1x25x256x512.size a
  slices_S260x516_o0_1_S256x512 : S260x516.Slices ![0, 1] S256x512
  inb_S1x25x256x512_S1x1x256x512_0_6_0_0 : ∀ a, (![0, 6, 0, 0] : Fin 4 → Nat) a + S1x1x256x512.size a ≤ S1x25x256x512.size a
  slices_S260x516_o1_1_S256x512 : S260x516.Slices ![1, 1] S256x512
  inb_S1x25x256x512_S1x1x256x512_0_7_0_0 : ∀ a, (![0, 7, 0, 0] : Fin 4 → Nat) a + S1x1x256x512.size a ≤ S1x25x256x512.size a
  slices_S260x516_o2_1_S256x512 : S260x516.Slices ![2, 1] S256x512
  inb_S1x25x256x512_S1x1x256x512_0_8_0_0 : ∀ a, (![0, 8, 0, 0] : Fin 4 → Nat) a + S1x1x256x512.size a ≤ S1x25x256x512.size a
  slices_S260x516_o3_1_S256x512 : S260x516.Slices ![3, 1] S256x512
  inb_S1x25x256x512_S1x1x256x512_0_9_0_0 : ∀ a, (![0, 9, 0, 0] : Fin 4 → Nat) a + S1x1x256x512.size a ≤ S1x25x256x512.size a
  slices_S260x516_o4_1_S256x512 : S260x516.Slices ![4, 1] S256x512
  inb_S1x25x256x512_S1x1x256x512_0_10_0_0 : ∀ a, (![0, 10, 0, 0] : Fin 4 → Nat) a + S1x1x256x512.size a ≤ S1x25x256x512.size a
  slices_S260x516_o0_2_S256x512 : S260x516.Slices ![0, 2] S256x512
  inb_S1x25x256x512_S1x1x256x512_0_11_0_0 : ∀ a, (![0, 11, 0, 0] : Fin 4 → Nat) a + S1x1x256x512.size a ≤ S1x25x256x512.size a
  slices_S260x516_o1_2_S256x512 : S260x516.Slices ![1, 2] S256x512
  inb_S1x25x256x512_S1x1x256x512_0_12_0_0 : ∀ a, (![0, 12, 0, 0] : Fin 4 → Nat) a + S1x1x256x512.size a ≤ S1x25x256x512.size a
  slices_S260x516_o2_2_S256x512 : S260x516.Slices ![2, 2] S256x512
  inb_S1x25x256x512_S1x1x256x512_0_13_0_0 : ∀ a, (![0, 13, 0, 0] : Fin 4 → Nat) a + S1x1x256x512.size a ≤ S1x25x256x512.size a
  slices_S260x516_o3_2_S256x512 : S260x516.Slices ![3, 2] S256x512
  inb_S1x25x256x512_S1x1x256x512_0_14_0_0 : ∀ a, (![0, 14, 0, 0] : Fin 4 → Nat) a + S1x1x256x512.size a ≤ S1x25x256x512.size a
  slices_S260x516_o4_2_S256x512 : S260x516.Slices ![4, 2] S256x512
  inb_S1x25x256x512_S1x1x256x512_0_15_0_0 : ∀ a, (![0, 15, 0, 0] : Fin 4 → Nat) a + S1x1x256x512.size a ≤ S1x25x256x512.size a
  slices_S260x516_o0_3_S256x512 : S260x516.Slices ![0, 3] S256x512
  inb_S1x25x256x512_S1x1x256x512_0_16_0_0 : ∀ a, (![0, 16, 0, 0] : Fin 4 → Nat) a + S1x1x256x512.size a ≤ S1x25x256x512.size a
  slices_S260x516_o1_3_S256x512 : S260x516.Slices ![1, 3] S256x512
  inb_S1x25x256x512_S1x1x256x512_0_17_0_0 : ∀ a, (![0, 17, 0, 0] : Fin 4 → Nat) a + S1x1x256x512.size a ≤ S1x25x256x512.size a
  slices_S260x516_o2_3_S256x512 : S260x516.Slices ![2, 3] S256x512
  inb_S1x25x256x512_S1x1x256x512_0_18_0_0 : ∀ a, (![0, 18, 0, 0] : Fin 4 → Nat) a + S1x1x256x512.size a ≤ S1x25x256x512.size a
  slices_S260x516_o3_3_S256x512 : S260x516.Slices ![3, 3] S256x512
  inb_S1x25x256x512_S1x1x256x512_0_19_0_0 : ∀ a, (![0, 19, 0, 0] : Fin 4 → Nat) a + S1x1x256x512.size a ≤ S1x25x256x512.size a
  slices_S260x516_o4_3_S256x512 : S260x516.Slices ![4, 3] S256x512
  inb_S1x25x256x512_S1x1x256x512_0_20_0_0 : ∀ a, (![0, 20, 0, 0] : Fin 4 → Nat) a + S1x1x256x512.size a ≤ S1x25x256x512.size a
  slices_S260x516_o0_4_S256x512 : S260x516.Slices ![0, 4] S256x512
  inb_S1x25x256x512_S1x1x256x512_0_21_0_0 : ∀ a, (![0, 21, 0, 0] : Fin 4 → Nat) a + S1x1x256x512.size a ≤ S1x25x256x512.size a
  slices_S260x516_o1_4_S256x512 : S260x516.Slices ![1, 4] S256x512
  inb_S1x25x256x512_S1x1x256x512_0_22_0_0 : ∀ a, (![0, 22, 0, 0] : Fin 4 → Nat) a + S1x1x256x512.size a ≤ S1x25x256x512.size a
  slices_S260x516_o2_4_S256x512 : S260x516.Slices ![2, 4] S256x512
  inb_S1x25x256x512_S1x1x256x512_0_23_0_0 : ∀ a, (![0, 23, 0, 0] : Fin 4 → Nat) a + S1x1x256x512.size a ≤ S1x25x256x512.size a
  slices_S260x516_o3_4_S256x512 : S260x516.Slices ![3, 4] S256x512
  inb_S1x25x256x512_S1x1x256x512_0_24_0_0 : ∀ a, (![0, 24, 0, 0] : Fin 4 → Nat) a + S1x1x256x512.size a ≤ S1x25x256x512.size a
  slices_S260x516_o4_4_S256x512 : S260x516.Slices ![4, 4] S256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  bcast_S16x512x512_S1x16x512x512_1_2_3 : S16x512x512.BroadcastsInDim S1x16x512x512 (![1, 2, 3] : Fin 3 → Fin S1x16x512x512.rank)
  hrank0 : 0 < grid0.rank
  k0_mult1_dvd : ∀ i : grid0.Coords, 256 ∣ (k0_mult1 i).toNat
  k0_off1_inb : ∀ i : grid0.Coords, ∀ a, (k0_off1 i) a + S260x516.size a ≤ S516x516.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x25x256x512.size a ≤ S16x25x512x512.size a
  hwx0_0 : ∀ i : grid0.Coords, EltTy.bits .f32 = 32 ∨ (Rect.block (s := S16x25x512x512) S1x25x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S16x512x512.size a
  hwx0_1 : ∀ i : grid0.Coords, EltTy.bits .f32 = 32 ∨ (Rect.block (s := S16x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S16x512x512.size a
  hwx0_2 : ∀ i : grid0.Coords, EltTy.bits .f32 = 32 ∨ (Rect.block (s := S16x512x512) S1x256x512.size (cc0_transform_2 i) (hinb0_2 i)).WholeWords (EltTy.packing .f32)

variable [Facts₀]

abbrev win0_0 : Pipeline.Window sig grid0 :=
  Pipeline.Window.ofSpec (Memref.whole main_arg0) S1x25x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x25x512x512 : Shape := ⟨4, ![16, 25, 512, 512]⟩
abbrev S16x1x512x512 : Shape := ⟨4, ![16, 1, 512, 512]⟩
abbrev S16x512x512 : Shape := ⟨3, ![16, 512, 512]⟩
abbrev S_ : Shape := ⟨0, ![]⟩
abbrev S16x516x516 : Shape := ⟨3, ![16, 516, 516]⟩
abbrev S1x16x512x512 : Shape := ⟨4, ![1, 16, 512, 512]⟩

abbrev nBuf : Space → Nat
  | .hbm => 134
  | .vmem => 0
  | .smem => 0
  | _ => 0

abbrev hbmTy0_0 (i : Nat) : BufTy := match i % 128 with
  | 0 => ⟨S16x25x512x512, .f32⟩
  | 1 => ⟨S16x1x512x512, .f32⟩
  | 2 => ⟨S16x512x512, .f32⟩
  | 3 => ⟨S_, .i32⟩
  | 4 => ⟨S_, .f32⟩
  | 5 => ⟨S16x516x516, .f32⟩
  | 6 => ⟨S_, .f32⟩
  | 7 => ⟨S16x512x512, .f32⟩
  | 8 => ⟨S16x512x512, .f32⟩
  | 9 => ⟨S16x1x512x512, .f32⟩
  | 10 => ⟨S16x512x512, .f32⟩
  | 11 => ⟨S16x512x512, .f32⟩
  | 12 => ⟨S16x512x512, .f32⟩
  | 13 => ⟨S16x512x512, .f32⟩
  | 14 => ⟨S16x1x512x512, .f32⟩
  | 15 => ⟨S16x512x512, .f32⟩
  | 16 => ⟨S16x512x512, .f32⟩
  | 17 => ⟨S16x512x512, .f32⟩
  | 18 => ⟨S16x512x512, .f32⟩
  | 19 => ⟨S16x1x512x512, .f32⟩
  | 20 => ⟨S16x512x512, .f32⟩
  | 21 => ⟨S16x512x512, .f32⟩
  | 22 => ⟨S16x512x512, .f32⟩
  | 23 => ⟨S16x512x512, .f32⟩
  | 24 => ⟨S16x1x512x512, .f32⟩
  | 25 => ⟨S16x512x512, .f32⟩
  | 26 => ⟨S16x512x512, .f32⟩
  | 27 => ⟨S16x512x512, .f32⟩
  | 28 => ⟨S16x512x512, .f32⟩
  | 29 => ⟨S16x1x512x512, .f32⟩
  | 30 => ⟨S16x512x512, .f32⟩
  | 31 => ⟨S16x512x512, .f32⟩
  | 32 => ⟨S16x512x512, .f32⟩
  | 33 => ⟨S16x512x512, .f32⟩
  | 34 => ⟨S16x1x512x512, .f32⟩
  | 35 => ⟨S16x512x512, .f32⟩
  | 36 => ⟨S16x512x512, .f32⟩
  | 37 => ⟨S16x512x512, .f32⟩
  | 38 => ⟨S16x512x512, .f32⟩
  | 39 => ⟨S16x1x512x512, .f32⟩
  | 40 => ⟨S16x512x512, .f32⟩
  | 41 => ⟨S16x512x512, .f32⟩
  | 42 => ⟨S16x512x512, .f32⟩
  | 43 => ⟨S16x512x512, .f32⟩
  | 44 => ⟨S16x1x512x512, .f32⟩
  | 45 => ⟨S16x512x512, .f32⟩
  | 46 => ⟨S16x512x512, .f32⟩
  | 47 => ⟨S16x512x512, .f32⟩
  | 48 => ⟨S16x512x512, .f32⟩
  | 49 => ⟨S16x1x512x512, .f32⟩
  | 50 => ⟨S16x512x512, .f32⟩
  | 51 => ⟨S16x512x512, .f32⟩
  | 52 => ⟨S16x512x512, .f32⟩
  | 53 => ⟨S16x512x512, .f32⟩
  | 54 => ⟨S16x1x512x512, .f32⟩
  | 55 => ⟨S16x512x512, .f32⟩
  | 56 => ⟨S16x512x512, .f32⟩
  | 57 => ⟨S16x512x512, .f32⟩
  | 58 => ⟨S16x512x512, .f32⟩
  | 59 => ⟨S16x1x512x512, .f32⟩
  | 60 => ⟨S16x512x512, .f32⟩
  | 61 => ⟨S16x512x512, .f32⟩
  | 62 => ⟨S16x512x512, .f32⟩
  | 63 => ⟨S16x512x512, .f32⟩
  | 64 => ⟨S16x1x512x512, .f32⟩
  | 65 => ⟨S16x512x512, .f32⟩
  | 66 => ⟨S16x512x512, .f32⟩
  | 67 => ⟨S16x512x512, .f32⟩
  | 68 => ⟨S16x512x512, .f32⟩
  | 69 => ⟨S16x1x512x512, .f32⟩
  | 70 => ⟨S16x512x512, .f32⟩
  | 71 => ⟨S16x512x512, .f32⟩
  | 72 => ⟨S16x512x512, .f32⟩
  | 73 => ⟨S16x512x512, .f32⟩
  | 74 => ⟨S16x1x512x512, .f32⟩
  | 75 => ⟨S16x512x512, .f32⟩
  | 76 => ⟨S16x512x512, .f32⟩
  | 77 => ⟨S16x512x512, .f32⟩
  | 78 => ⟨S16x512x512, .f32⟩
  | 79 => ⟨S16x1x512x512, .f32⟩
  | 80 => ⟨S16x512x512, .f32⟩
  | 81 => ⟨S16x512x512, .f32⟩
  | 82 => ⟨S16x512x512, .f32⟩
  | 83 => ⟨S16x512x512, .f32⟩
  | 84 => ⟨S16x1x512x512, .f32⟩
  | 85 => ⟨S16x512x512, .f32⟩
  | 86 => ⟨S16x512x512, .f32⟩
  | 87 => ⟨S16x512x512, .f32⟩
  | 88 => ⟨S16x512x512, .f32⟩
  | 89 => ⟨S16x1x512x512, .f32⟩
  | 90 => ⟨S16x512x512, .f32⟩
  | 91 => ⟨S16x512x512, .f32⟩
  | 92 => ⟨S16x512x512, .f32⟩
  | 93 => ⟨S16x512x512, .f32⟩
  | 94 => ⟨S16x1x512x512, .f32⟩
  | 95 => ⟨S16x512x512, .f32⟩
  | 96 => ⟨S16x512x512, .f32⟩
  | 97 => ⟨S16x512x512, .f32⟩
  | 98 => ⟨S16x512x512, .f32⟩
  | 99 => ⟨S16x1x512x512, .f32⟩
  | 100 => ⟨S16x512x512, .f32⟩
  | 101 => ⟨S16x512x512, .f32⟩
  | 102 => ⟨S16x512x512, .f32⟩
  | 103 => ⟨S16x512x512, .f32⟩
  | 104 => ⟨S16x1x512x512, .f32⟩
  | 105 => ⟨S16x512x512, .f32⟩
  | 106 => ⟨S16x512x512, .f32⟩
  | 107 => ⟨S16x512x512, .f32⟩
  | 108 => ⟨S16x512x512, .f32⟩
  | 109 => ⟨S16x1x512x512, .f32⟩
  | 110 => ⟨S16x512x512, .f32⟩
  | 111 => ⟨S16x512x512, .f32⟩
  | 112 => ⟨S16x512x512, .f32⟩
  | 113 => ⟨S16x512x512, .f32⟩
  | 114 => ⟨S16x1x512x512, .f32⟩
  | 115 => ⟨S16x512x512, .f32⟩
  | 116 => ⟨S16x512x512, .f32⟩
  | 117 => ⟨S16x512x512, .f32⟩
  | 118 => ⟨S16x512x512, .f32⟩
  | 119 => ⟨S16x1x512x512, .f32⟩
  | 120 => ⟨S16x512x512, .f32⟩
  | 121 => ⟨S16x512x512, .f32⟩
  | 122 => ⟨S16x512x512, .f32⟩
  | 123 => ⟨S16x512x512, .f32⟩
  | 124 => ⟨S16x1x512x512, .f32⟩
  | 125 => ⟨S16x512x512, .f32⟩
  | 126 => ⟨S16x512x512, .f32⟩
  | 127 => ⟨S16x512x512, .f32⟩
  | _ => ⟨S16x25x512x512, .f32⟩

abbrev hbmTy0_1 (i : Nat) : BufTy := match i % 128 with
  | 0 => ⟨S16x512x512, .f32⟩
  | 1 => ⟨S16x1x512x512, .f32⟩
  | 2 => ⟨S16x512x512, .f32⟩
  | 3 => ⟨S16x512x512, .f32⟩
  | 4 => ⟨S16x512x512, .f32⟩
  | 5 => ⟨S1x16x512x512, .f32⟩
  | _ => ⟨S16x25x512x512, .f32⟩

abbrev hbmTy (i : Nat) : BufTy := match i / 128 with
  | 0 => hbmTy0_0 i
  | 1 => hbmTy0_1 i
  | _ => ⟨S16x25x512x512, .f32⟩

abbrev bufTy : (tb : Table) → Fin (tcTables nBuf tb) → BufTy
  | .hbm, ⟨i, _⟩ => hbmTy i
  | _, _ => ⟨S16x25x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩

abbrev nD : Nat := 1
abbrev τ : Topo := Topo.v7x

variable {F : FTy → Type} [FloatOps F]

class Facts₀ : Prop where
  shapeCasts_S16x1x512x512_S16x512x512 : S16x1x512x512.ShapeCasts S16x512x512
  pads_S16x512x512_S16x516x516_000_220_220 : S16x512x512.Pads (![0, 2, 2] : Fin 3 → Nat) ![0, 2, 2] ![0, 0, 0] S16x516x516
  h_S_ : 0 < S_.numel
  bcast_S_S16x512x512 : S_.BroadcastsInDim S16x512x512 (![] : Fin 0 → Fin S16x512x512.rank)
  slices_S16x516x516_S16x512x512_0_0_0 : S16x516x516.Slices ![0, 0, 0] S16x512x512
  slices_S16x25x512x512_S16x1x512x512_0_0_0_0 : S16x25x512x512.Slices ![0, 0, 0, 0] S16x1x512x512
  slices_S16x516x516_S16x512x512_0_1_0 : S16x516x516.Slices ![0, 1, 0] S16x512x512
  slices_S16x25x512x512_S16x1x512x512_0_1_0_0 : S16x25x512x512.Slices ![0, 1, 0, 0] S16x1x512x512
  slices_S16x516x516_S16x512x512_0_2_0 : S16x516x516.Slices ![0, 2, 0] S16x512x512
  slices_S16x25x512x512_S16x1x512x512_0_2_0_0 : S16x25x512x512.Slices ![0, 2, 0, 0] S16x1x512x512
  slices_S16x516x516_S16x512x512_0_3_0 : S16x516x516.Slices ![0, 3, 0] S16x512x512
  slices_S16x25x512x512_S16x1x512x512_0_3_0_0 : S16x25x512x512.Slices ![0, 3, 0, 0] S16x1x512x512
  slices_S16x516x516_S16x512x512_0_4_0 : S16x516x516.Slices ![0, 4, 0] S16x512x512
  slices_S16x25x512x512_S16x1x512x512_0_4_0_0 : S16x25x512x512.Slices ![0, 4, 0, 0] S16x1x512x512
  slices_S16x516x516_S16x512x512_0_0_1 : S16x516x516.Slices ![0, 0, 1] S16x512x512
  slices_S16x25x512x512_S16x1x512x512_0_5_0_0 : S16x25x512x512.Slices ![0, 5, 0, 0] S16x1x512x512
  slices_S16x516x516_S16x512x512_0_1_1 : S16x516x516.Slices ![0, 1, 1] S16x512x512
  slices_S16x25x512x512_S16x1x512x512_0_6_0_0 : S16x25x512x512.Slices ![0, 6, 0, 0] S16x1x512x512
  slices_S16x516x516_S16x512x512_0_2_1 : S16x516x516.Slices ![0, 2, 1] S16x512x512
  slices_S16x25x512x512_S16x1x512x512_0_7_0_0 : S16x25x512x512.Slices ![0, 7, 0, 0] S16x1x512x512
  slices_S16x516x516_S16x512x512_0_3_1 : S16x516x516.Slices ![0, 3, 1] S16x512x512
  slices_S16x25x512x512_S16x1x512x512_0_8_0_0 : S16x25x512x512.Slices ![0, 8, 0, 0] S16x1x512x512
  slices_S16x516x516_S16x512x512_0_4_1 : S16x516x516.Slices ![0, 4, 1] S16x512x512
  slices_S16x25x512x512_S16x1x512x512_0_9_0_0 : S16x25x512x512.Slices ![0, 9, 0, 0] S16x1x512x512
  slices_S16x516x516_S16x512x512_0_0_2 : S16x516x516.Slices ![0, 0, 2] S16x512x512
  slices_S16x25x512x512_S16x1x512x512_0_10_0_0 : S16x25x512x512.Slices ![0, 10, 0, 0] S16x1x512x512
  slices_S16x516x516_S16x512x512_0_1_2 : S16x516x516.Slices ![0, 1, 2] S16x512x512
  slices_S16x25x512x512_S16x1x512x512_0_11_0_0 : S16x25x512x512.Slices ![0, 11, 0, 0] S16x1x512x512
  slices_S16x516x516_S16x512x512_0_2_2 : S16x516x516.Slices ![0, 2, 2] S16x512x512
  slices_S16x25x512x512_S16x1x512x512_0_12_0_0 : S16x25x512x512.Slices ![0, 12, 0, 0] S16x1x512x512
  slices_S16x516x516_S16x512x512_0_3_2 : S16x516x516.Slices ![0, 3, 2] S16x512x512
  slices_S16x25x512x512_S16x1x512x512_0_13_0_0 : S16x25x512x512.Slices ![0, 13, 0, 0] S16x1x512x512
  slices_S16x516x516_S16x512x512_0_4_2 : S16x516x516.Slices ![0, 4, 2] S16x512x512
  slices_S16x25x512x512_S16x1x512x512_0_14_0_0 : S16x25x512x512.Slices ![0, 14, 0, 0] S16x1x512x512
  slices_S16x516x516_S16x512x512_0_0_3 : S16x516x516.Slices ![0, 0, 3] S16x512x512
  slices_S16x25x512x512_S16x1x512x512_0_15_0_0 : S16x25x512x512.Slices ![0, 15, 0, 0] S16x1x512x512
  slices_S16x516x516_S16x512x512_0_1_3 : S16x516x516.Slices ![0, 1, 3] S16x512x512
  slices_S16x25x512x512_S16x1x512x512_0_16_0_0 : S16x25x512x512.Slices ![0, 16, 0, 0] S16x1x512x512
  slices_S16x516x516_S16x512x512_0_2_3 : S16x516x516.Slices ![0, 2, 3] S16x512x512
  slices_S16x25x512x512_S16x1x512x512_0_17_0_0 : S16x25x512x512.Slices ![0, 17, 0, 0] S16x1x512x512
  slices_S16x516x516_S16x512x512_0_3_3 : S16x516x516.Slices ![0, 3, 3] S16x512x512
  slices_S16x25x512x512_S16x1x512x512_0_18_0_0 : S16x25x512x512.Slices ![0, 18, 0, 0] S16x1x512x512
  slices_S16x516x516_S16x512x512_0_4_3 : S16x516x516.Slices ![0, 4, 3] S16x512x512
  slices_S16x25x512x512_S16x1x512x512_0_19_0_0 : S16x25x512x512.Slices ![0, 19, 0, 0] S16x1x512x512
  slices_S16x516x516_S16x512x512_0_0_4 : S16x516x516.Slices ![0, 0, 4] S16x512x512
  slices_S16x25x512x512_S16x1x512x512_0_20_0_0 : S16x25x512x512.Slices ![0, 20, 0, 0] S16x1x512x512
  slices_S16x516x516_S16x512x512_0_1_4 : S16x516x516.Slices ![0, 1, 4] S16x512x512
  slices_S16x25x512x512_S16x1x512x512_0_21_0_0 : S16x25x512x512.Slices ![0, 21, 0, 0] S16x1x512x512
  slices_S16x516x516_S16x512x512_0_2_4 : S16x516x516.Slices ![0, 2, 4] S16x512x512
  slices_S16x25x512x512_S16x1x512x512_0_22_0_0 : S16x25x512x512.Slices ![0, 22, 0, 0] S16x1x512x512
  slices_S16x516x516_S16x512x512_0_3_4 : S16x516x516.Slices ![0, 3, 4] S16x512x512
  slices_S16x25x512x512_S16x1x512x512_0_23_0_0 : S16x25x512x512.Slices ![0, 23, 0, 0] S16x1x512x512
  slices_S16x516x516_S16x512x512_0_4_4 : S16x516x516.Slices ![0, 4, 4] S16x512x512
  slices_S16x25x512x512_S16x1x512x512_0_24_0_0 : S16x25x512x512.Slices ![0, 24, 0, 0] S16x1x512x512
  bcast_S16x512x512_S1x16x512x512_1_2_3 : S16x512x512.BroadcastsInDim S1x16x512x512 (![1, 2, 3] : Fin 3 → Fin S1x16x512x512.rank)

variable [Facts₀]

class Facts : Prop extends Facts₀ where

variable [Facts]
-- ==== Proof.KBody.lean ====
/-
  What one grid point's body leaves in its output block, as one pure term of the point's two input blocks.

  The body frames the image block with zeros, keeps rows `256·h … 256·h + 259` of the framed image as a tile
  (`h` the point's second coordinate), and folds the twenty-five multiply-adds over the tile and the planes of
  weights.  Its one store covers the output block, and every load reads either an input block or the framed
  image the body itself has just stored, so the block it leaves is the fold's value.
-/
import proofs.«151069_j76373108457968_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The tile of the framed image the point's taps read: 260 rows from row `256·h`, all 516 columns. -/
def tile (i : grid0.Coords) (x1 : Vec F S1x512x512 .f32) : Vec F S260x516 .f32 :=
  View.ld (k0_pay2 x1) (Rect.unit (s := S516x516) (k0_off1 i) S260x516.size (k0_off1_inb i))

/-- One plane of the block of weights. -/
abbrev plane (x0 : Vec F S1x25x256x512 .f32) (off : Fin 4 → Nat)
    (inb : ∀ a, off a + S1x1x256x512.size a ≤ S1x25x256x512.size a) : Vec F S1x1x256x512 .f32 :=
  View.ld x0 (Rect.unit (s := S1x25x256x512) off S1x1x256x512.size inb)

/-- The fold after taps 0–2, 0–9, 0–16, 0–22, and the block the body stores (all 25 taps). -/
def fold3 (i : grid0.Coords) (x0 : Vec F S1x25x256x512 .f32) (x1 : Vec F S1x512x512 .f32) : FVec F S256x512 .f32 :=
  k0_pay3 (tile i x1) (plane x0 ![0, 0, 0, 0] inb_S1x25x256x512_S1x1x256x512_0_0_0_0) (plane x0 ![0, 1, 0, 0] inb_S1x25x256x512_S1x1x256x512_0_1_0_0) (plane x0 ![0, 2, 0, 0] inb_S1x25x256x512_S1x1x256x512_0_2_0_0)
def fold10 (i : grid0.Coords) (x0 : Vec F S1x25x256x512 .f32) (x1 : Vec F S1x512x512 .f32) : FVec F S256x512 .f32 :=
  k0_pay5 (tile i x1) (fold3 i x0 x1) (k0_pay4 (plane x0 ![0, 3, 0, 0] inb_S1x25x256x512_S1x1x256x512_0_3_0_0)) (plane x0 ![0, 4, 0, 0] inb_S1x25x256x512_S1x1x256x512_0_4_0_0) (plane x0 ![0, 5, 0, 0] inb_S1x25x256x512_S1x1x256x512_0_5_0_0) (plane x0 ![0, 6, 0, 0] inb_S1x25x256x512_S1x1x256x512_0_6_0_0) (plane x0 ![0, 7, 0, 0] inb_S1x25x256x512_S1x1x256x512_0_7_0_0) (plane x0 ![0, 8, 0, 0] inb_S1x25x256x512_S1x1x256x512_0_8_0_0) (plane x0 ![0, 9, 0, 0] inb_S1x25x256x512_S1x1x256x512_0_9_0_0)
def fold17 (i : grid0.Coords) (x0 : Vec F S1x25x256x512 .f32) (x1 : Vec F S1x512x512 .f32) : FVec F S256x512 .f32 :=
  k0_pay6 (tile i x1) (fold10 i x0 x1) (plane x0 ![0, 10, 0, 0] inb_S1x25x256x512_S1x1x256x512_0_10_0_0) (plane x0 ![0, 11, 0, 0] inb_S1x25x256x512_S1x1x256x512_0_11_0_0) (plane x0 ![0, 12, 0, 0] inb_S1x25x256x512_S1x1x256x512_0_12_0_0) (plane x0 ![0, 13, 0, 0] inb_S1x25x256x512_S1x1x256x512_0_13_0_0) (plane x0 ![0, 14, 0, 0] inb_S1x25x256x512_S1x1x256x512_0_14_0_0) (plane x0 ![0, 15, 0, 0] inb_S1x25x256x512_S1x1x256x512_0_15_0_0) (plane x0 ![0, 16, 0, 0] inb_S1x25x256x512_S1x1x256x512_0_16_0_0)
def fold23 (i : grid0.Coords) (x0 : Vec F S1x25x256x512 .f32) (x1 : Vec F S1x512x512 .f32) : FVec F S256x512 .f32 :=
  k0_pay7 (tile i x1) (fold17 i x0 x1) (plane x0 ![0, 17, 0, 0] inb_S1x25x256x512_S1x1x256x512_0_17_0_0) (plane x0 ![0, 18, 0, 0] inb_S1x25x256x512_S1x1x256x512_0_18_0_0) (plane x0 ![0, 19, 0, 0] inb_S1x25x256x512_S1x1x256x512_0_19_0_0) (plane x0 ![0, 20, 0, 0] inb_S1x25x256x512_S1x1x256x512_0_20_0_0) (plane x0 ![0, 21, 0, 0] inb_S1x25x256x512_S1x1x256x512_0_21_0_0) (plane x0 ![0, 22, 0, 0] inb_S1x25x256x512_S1x1x256x512_0_22_0_0)
def bodyVal (i : grid0.Coords) (x0 : Vec F S1x25x256x512 .f32) (x1 : Vec F S1x512x512 .f32) : FVec F S1x256x512 .f32 :=
  k0_pay1 (tile i x1) (fold23 i x0 x1) (k0_pay8 (plane x0 ![0, 23, 0, 0] inb_S1x25x256x512_S1x1x256x512_0_23_0_0)) (plane x0 ![0, 24, 0, 0] inb_S1x25x256x512_S1x1x256x512_0_24_0_0)

/-- The body's output block is the fold's value: its one store covers the block; the tile is a load of the
    framed image the body stored just before (a whole-buffer store read back through a rectangle), every other
    load reads an input block. -/
theorem out_A (c : Dev nD) (i : grid0.Coords) (arg2 : Memref sig .tc .vmem S1x25x256x512 .f32) (harg2 : arg2.IsWhole)
    (arg3 : Memref sig .tc .vmem S1x512x512 .f32) (harg3 : arg3.IsWhole) (arg4 : Memref sig .tc .vmem S1x256x512 .f32) (harg4 : arg4.IsWhole)
    (arg5 : Memref sig .tc .vmem S516x516 .f32) (harg5 : arg5.IsWhole)
    (x0 : Vec F S1x25x256x512 .f32) (x1 : Vec F S1x512x512 .f32) :
    out0_A_2 c i arg2 harg2 arg3 harg3 arg4 harg4 arg5 harg5 x0 x1 = bodyVal i x0 x1 := by
  unfold out0_A_2
  rw [View.read_writes_eq_canon _ _ _ (cover0_A_2 c i arg2 harg2 arg3 harg3 arg4 harg4 arg5 harg5 x0 x1)]
  unfold kernelRun0_A
  dsimp only
  sl_unfold_words
  rw [View.canon_unit_zero hz3]
  simp only [View.readAt_writes_junk_eq_canon, View.canon_unit_zero (S := S516x516) hz2, View.readAt_eq_ld, harg2.read_unread,
    harg3.read_unread, View.ld_unit_zero (S := S1x512x512) hz3]
  unfold bodyVal fold23 fold17 fold10 fold3 tile k0_off1
  rfl

end Cert.KernelIdeal.Body

end
-- ==== Proof.Spec.lean ====
/-
  The per-pixel 5×5 filter, stated once for both programs.

  Every output pixel is a sum of twenty-five products taken in a fixed order, tap `n` (`n = 0 … 24`) pairing
  the weight plane `n` at the pixel with the zero-padded image at the pixel shifted down by `n % 5` rows and
  right by `n / 5` columns; the running total starts at zero and adds one product per tap.  Both programs
  compute this same left-to-right total, so no law of the extended reals beyond reflexivity is needed: the two
  sides are the same expression once each is read at an index.
-/
import Idealize.ShloMosaic.PureOps.Ideal
import Idealize.ShloMosaic.Lib.ValueIdx

noncomputable section

namespace Cert.PerPixel

open Idealize.ShloMosaic Idealize.ShloMosaic.ValueIdx

/-- The running total after the first `n` taps: tap `n` multiplies the weight `kf n` with the padded image read
    `n % 5` rows down and `n / 5` columns right of the pixel, `pf (n % 5) (n / 5)`. -/
def acc (kf : ℕ → EReal) (pf : ℕ → ℕ → EReal) : ℕ → EReal
  | 0 => 0
  | n + 1 => acc kf pf n + kf n * pf (n % 5) (n / 5)

theorem acc_zero (kf : ℕ → EReal) (pf : ℕ → ℕ → EReal) : acc kf pf 0 = 0 := rfl

theorem acc_succ (kf : ℕ → EReal) (pf : ℕ → ℕ → EReal) (n : ℕ) :
    acc kf pf (n + 1) = acc kf pf n + kf n * pf (n % 5) (n / 5) := rfl

/-- The total depends only on the weights and image reads of the taps taken. -/
theorem acc_congr {kf kf' : ℕ → EReal} {pf pf' : ℕ → ℕ → EReal} (N : ℕ)
    (hk : ∀ n, n < N → kf n = kf' n) (hp : ∀ n, n < N → pf (n % 5) (n / 5) = pf' (n % 5) (n / 5)) :
    acc kf pf N = acc kf' pf' N := by
  induction N with
  | zero => rfl
  | succ n ih =>
    rw [acc_succ, acc_succ, ih (fun k hk' => hk k (Nat.lt_succ_of_lt hk')) (fun k hk' => hp k (Nat.lt_succ_of_lt hk')),
      hk n (Nat.lt_succ_self n), hp n (Nat.lt_succ_self n)]

/-- The weight of tap `n` at pixel `(h, w)` of image `b` (zero beyond the twenty-five planes, which no tap reads). -/
def kAt (K : (⟨4, ![16, 25, 512, 512]⟩ : Shape).Idx → EReal) (b : Fin 16) (h w : Fin 512) (n : ℕ) : EReal :=
  if hn : n < 25 then K (ix4 b ⟨n, hn⟩ h w) else 0

/-- Image `b` padded by two zero rows and columns on every side, read at padded coordinates `(R, C)`. -/
def imgAt (I : (⟨4, ![16, 1, 512, 512]⟩ : Shape).Idx → EReal) (b : Fin 16) (R C : ℕ) : EReal :=
  if h : 2 ≤ R ∧ R < 514 ∧ 2 ≤ C ∧ C < 514 then
    I (ix4 b (0 : Fin 1) ⟨R - 2, by omega⟩ ⟨C - 2, by omega⟩) else 0

/-- The filter's result: at `(0, b, h, w)` the twenty-five taps' total. -/
def conv (K : (⟨4, ![16, 25, 512, 512]⟩ : Shape).Idx → EReal) (I : (⟨4, ![16, 1, 512, 512]⟩ : Shape).Idx → EReal) :
    (⟨4, ![1, 16, 512, 512]⟩ : Shape).Idx → EReal :=
  fun j => acc (kAt K (j 1) (j 2) (j 3)) (fun kh kw => imgAt I (j 1) ((j 2).val + kh) ((j 3).val + kw)) 25

/-- The same weight read off one block of the weights: plane `n` at row `r`, column `w` of the block. -/
def kBlk (x0 : (⟨4, ![1, 25, 256, 512]⟩ : Shape).Idx → EReal) (r : Fin 256) (w : Fin 512) (n : ℕ) : EReal :=
  if hn : n < 25 then x0 (ix4 (0 : Fin 1) ⟨n, hn⟩ r w) else 0

/-- The padded image read off one image's block `[1, 512, 512]`. -/
def imgBlk (x1 : (⟨3, ![1, 512, 512]⟩ : Shape).Idx → EReal) (R C : ℕ) : EReal :=
  if h : 2 ≤ R ∧ R < 514 ∧ 2 ≤ C ∧ C < 514 then
    x1 (ix3 (0 : Fin 1) ⟨R - 2, by omega⟩ ⟨C - 2, by omega⟩) else 0

/-- What one grid point leaves in its output block: rows `256·hh … 256·hh + 255` of the filter's result, from the
    point's block of weights and its image. -/
def convBlk (hh : ℕ) (x0 : (⟨4, ![1, 25, 256, 512]⟩ : Shape).Idx → EReal) (x1 : (⟨3, ![1, 512, 512]⟩ : Shape).Idx → EReal) :
    (⟨3, ![1, 256, 512]⟩ : Shape).Idx → EReal :=
  fun j => acc (kBlk x0 (j 1) (j 2)) (fun kh kw => imgBlk x1 (256 * hh + (j 1).val + kh) ((j 2).val + kw)) 25

end Cert.PerPixel

end
-- ==== Proof.KStep.lean ====
/-
  Two facts about vectors read at an index, over the extended reals, that the filter's body is made of.

  `tap_at`: one multiply-add of the body — the running total plus a plane of weights times a window of the padded
  tile shifted by `(kh, kw)` — read at pixel `(r, w)`.
  `padded_at`: the image block framed by two zero rows and two zero columns on every side, read at padded
  coordinates: the image inside the frame, zero on it.
-/
import Idealize.ShloMosaic.PureOps.Ideal
import Idealize.ShloMosaic.Lib.ValueIdx
import Idealize.ShloMosaic.Lib.Pipeline.Value

noncomputable section

namespace Cert.PerPixel

open Idealize.ShloMosaic Idealize.ShloMosaic.ValueIdx

/-- One tap of the body at pixel `(r, w)`: the total so far plus the weight at the pixel times the tile `kh` rows
    down and `kw` columns right. -/
theorem tap_at (A : FVec Ideal ⟨2, ![256, 512]⟩ .f32) (kv : FVec Ideal ⟨4, ![1, 1, 256, 512]⟩ .f32)
    (win : FVec Ideal ⟨2, ![260, 516]⟩ .f32) (kh kw : ℕ) (hkh : kh < 5) (hkw : kw < 5)
    (hs : (⟨2, ![260, 516]⟩ : Shape).Slices ![kh, kw] ⟨2, ![256, 512]⟩)
    (hc : (⟨4, ![1, 1, 256, 512]⟩ : Shape).ShapeCasts ⟨2, ![256, 512]⟩) (r : Fin 256) (w : Fin 512) :
    addf (F := Ideal) (φ := .f32) A (mulf (F := Ideal) (φ := .f32) (shapeCast (s := ⟨4, ![1, 1, 256, 512]⟩) ⟨2, ![256, 512]⟩ kv hc)
        (extractStridedSlice (s := ⟨2, ![260, 516]⟩) ⟨2, ![256, 512]⟩ ![kh, kw] win hs)) (ix2 r w)
      = (A (ix2 r w) + kv (ix4 (0 : Fin 1) (0 : Fin 1) r w)
          * win (ix2 (⟨r.val + kh, by omega⟩ : Fin 260) (⟨w.val + kw, by omega⟩ : Fin 516)) : EReal) := by
  have e1 : shapeCast (s := ⟨4, ![1, 1, 256, 512]⟩) (⟨2, ![256, 512]⟩ : Shape) kv hc (ix2 r w) = kv (ix4 (0 : Fin 1) (0 : Fin 1) r w) :=
    shapeCast_apply kv hc (ix2 r w) (ix4 (0 : Fin 1) (0 : Fin 1) r w) (by
      rw [Shape.rowMajor_val_four, Shape.rowMajor_val_two]
      show (((0 : ℕ) * 1 + 0) * 256 + r.val) * 512 + w.val = r.val * 512 + w.val
      omega)
  have e2 : extractStridedSlice (s := ⟨2, ![260, 516]⟩) (⟨2, ![256, 512]⟩ : Shape) ![kh, kw] win hs (ix2 r w)
      = win (ix2 (⟨r.val + kh, by omega⟩ : Fin 260) (⟨w.val + kw, by omega⟩ : Fin 516)) :=
    extractStridedSlice_apply (s := ⟨2, ![260, 516]⟩) ![kh, kw] win hs (ix2 r w) _ (fun a => match a with
      | ⟨0, _⟩ => by show r.val + kh = kh + r.val; omega
      | ⟨1, _⟩ => by show w.val + kw = kw + w.val; omega)
  show FloatOps.addf (A (ix2 r w)) (FloatOps.mulf (shapeCast (s := ⟨4, ![1, 1, 256, 512]⟩) (⟨2, ![256, 512]⟩ : Shape) kv hc (ix2 r w))
      (extractStridedSlice (s := ⟨2, ![260, 516]⟩) (⟨2, ![256, 512]⟩ : Shape) ![kh, kw] win hs (ix2 r w))) = _
  rw [e1, e2]
  rfl

/-- The same when the weights arrive already as a `[256, 512]` plane. -/
theorem tap_at' (A B : FVec Ideal ⟨2, ![256, 512]⟩ .f32)
    (win : FVec Ideal ⟨2, ![260, 516]⟩ .f32) (kh kw : ℕ) (hkh : kh < 5) (hkw : kw < 5)
    (hs : (⟨2, ![260, 516]⟩ : Shape).Slices ![kh, kw] ⟨2, ![256, 512]⟩) (r : Fin 256) (w : Fin 512) :
    addf (F := Ideal) (φ := .f32) A (mulf (F := Ideal) (φ := .f32) B
        (extractStridedSlice (s := ⟨2, ![260, 516]⟩) ⟨2, ![256, 512]⟩ ![kh, kw] win hs)) (ix2 r w)
      = (A (ix2 r w) + B (ix2 r w)
          * win (ix2 (⟨r.val + kh, by omega⟩ : Fin 260) (⟨w.val + kw, by omega⟩ : Fin 516)) : EReal) := by
  have e2 : extractStridedSlice (s := ⟨2, ![260, 516]⟩) (⟨2, ![256, 512]⟩ : Shape) ![kh, kw] win hs (ix2 r w)
      = win (ix2 (⟨r.val + kh, by omega⟩ : Fin 260) (⟨w.val + kw, by omega⟩ : Fin 516)) :=
    extractStridedSlice_apply (s := ⟨2, ![260, 516]⟩) ![kh, kw] win hs (ix2 r w) _ (fun a => match a with
      | ⟨0, _⟩ => by show r.val + kh = kh + r.val; omega
      | ⟨1, _⟩ => by show w.val + kw = kw + w.val; omega)
  show FloatOps.addf (A (ix2 r w)) (FloatOps.mulf (B (ix2 r w))
      (extractStridedSlice (s := ⟨2, ![260, 516]⟩) (⟨2, ![256, 512]⟩ : Shape) ![kh, kw] win hs (ix2 r w))) = _
  rw [e2]
  rfl

/-- A plane of weights `[1, 1, 256, 512]` seen as `[256, 512]`, read at `(r, w)`. -/
theorem plane_at (kv : FVec Ideal ⟨4, ![1, 1, 256, 512]⟩ .f32)
    (hc : (⟨4, ![1, 1, 256, 512]⟩ : Shape).ShapeCasts ⟨2, ![256, 512]⟩) (r : Fin 256) (w : Fin 512) :
    shapeCast (s := ⟨4, ![1, 1, 256, 512]⟩) (⟨2, ![256, 512]⟩ : Shape) kv hc (ix2 r w)
      = kv (ix4 (0 : Fin 1) (0 : Fin 1) r w) :=
  shapeCast_apply kv hc (ix2 r w) (ix4 (0 : Fin 1) (0 : Fin 1) r w) (by
    rw [Shape.rowMajor_val_four, Shape.rowMajor_val_two]
    show (((0 : ℕ) * 1 + 0) * 256 + r.val) * 512 + w.val = r.val * 512 + w.val
    omega)

/-- The total `[256, 512]` seen as the output block `[1, 256, 512]`, read at `(0, r, w)`. -/
theorem block_at (A : FVec Ideal ⟨2, ![256, 512]⟩ .f32)
    (hc : (⟨2, ![256, 512]⟩ : Shape).ShapeCasts ⟨3, ![1, 256, 512]⟩) (r : Fin 256) (w : Fin 512) :
    shapeCast (s := ⟨2, ![256, 512]⟩) (⟨3, ![1, 256, 512]⟩ : Shape) A hc (ix3 (0 : Fin 1) r w) = A (ix2 r w) :=
  shapeCast_apply A hc (ix3 (0 : Fin 1) r w) (ix2 r w) (by
    rw [Shape.rowMajor_val_three, Shape.rowMajor_val_two]
    show r.val * 512 + w.val = ((0 : ℕ) * 256 + r.val) * 512 + w.val
    omega)

/-- An image row block with two columns of `z` on either side, as the list of pieces laid side by side. -/
abbrev rowPieces (x1 : FVec Ideal ⟨3, ![1, 512, 512]⟩ .f32) (z : EReal)
    (hc : (⟨3, ![1, 512, 512]⟩ : Shape).ShapeCasts ⟨2, ![512, 512]⟩) : List ((s : Shape) × (s.Idx → EReal)) :=
  [⟨(⟨2, ![512, 2]⟩ : Shape), broadcast _ z⟩,
   ⟨(⟨2, ![512, 512]⟩ : Shape), shapeCast (s := ⟨3, ![1, 512, 512]⟩) ⟨2, ![512, 512]⟩ x1 hc⟩,
   ⟨(⟨2, ![512, 2]⟩ : Shape), broadcast _ z⟩]

/-- Those rows with two rows of `z` above and below, as the list of pieces stacked. -/
abbrev framePieces (x1 : FVec Ideal ⟨3, ![1, 512, 512]⟩ .f32) (z : EReal)
    (hc : (⟨3, ![1, 512, 512]⟩ : Shape).ShapeCasts ⟨2, ![512, 512]⟩)
    (h1 : Shape.Concatenates [(⟨2, ![512, 2]⟩ : Shape), ⟨2, ![512, 512]⟩, ⟨2, ![512, 2]⟩] ⟨2, ![512, 516]⟩ 1) :
    List ((s : Shape) × (s.Idx → EReal)) :=
  [⟨(⟨2, ![2, 516]⟩ : Shape), broadcast _ z⟩,
   ⟨(⟨2, ![512, 516]⟩ : Shape), concatenate (α := EReal) (⟨2, ![512, 516]⟩ : Shape) 1 (rowPieces x1 z hc) h1⟩,
   ⟨(⟨2, ![2, 516]⟩ : Shape), broadcast _ z⟩]

/-- The image block framed by zeros — two columns left and right, then two rows above and below — read at padded
    coordinates `(R, C)`: the image at `(R - 2, C - 2)` inside the frame, the frame's value `z` on it. -/
theorem padded_at (x1 : FVec Ideal ⟨3, ![1, 512, 512]⟩ .f32) (z : EReal)
    (hc : (⟨3, ![1, 512, 512]⟩ : Shape).ShapeCasts ⟨2, ![512, 512]⟩)
    (h1 : Shape.Concatenates [(⟨2, ![512, 2]⟩ : Shape), ⟨2, ![512, 512]⟩, ⟨2, ![512, 2]⟩] ⟨2, ![512, 516]⟩ 1)
    (h0 : Shape.Concatenates [(⟨2, ![2, 516]⟩ : Shape), ⟨2, ![512, 516]⟩, ⟨2, ![2, 516]⟩] ⟨2, ![516, 516]⟩ 0)
    (R C : Fin 516) :
    concatenate (α := EReal) (⟨2, ![516, 516]⟩ : Shape) 0
        [⟨(⟨2, ![2, 516]⟩ : Shape), broadcast _ z⟩,
         ⟨(⟨2, ![512, 516]⟩ : Shape), concatenate (α := EReal) (⟨2, ![512, 516]⟩ : Shape) 1
            [⟨(⟨2, ![512, 2]⟩ : Shape), broadcast _ z⟩,
             ⟨(⟨2, ![512, 512]⟩ : Shape), shapeCast (s := ⟨3, ![1, 512, 512]⟩) ⟨2, ![512, 512]⟩ x1 hc⟩,
             ⟨(⟨2, ![512, 2]⟩ : Shape), broadcast _ z⟩] h1⟩,
         ⟨(⟨2, ![2, 516]⟩ : Shape), broadcast _ z⟩] h0 (ix2 R C)
      = if h : 2 ≤ R.val ∧ R.val < 514 ∧ 2 ≤ C.val ∧ C.val < 514 then
          x1 (ix3 (0 : Fin 1) ⟨R.val - 2, by omega⟩ ⟨C.val - 2, by omega⟩) else z := by
  have hR := R.isLt
  have hC := C.isLt
  by_cases hlo : R.val < 2
  · -- the two rows above the image
    rw [dif_neg (by omega)]
    exact concatenate_apply_piece (α := EReal) (t := ⟨2, ![516, 516]⟩) 0 (framePieces x1 z hc h1) h0 (ix2 R C) 0 (by show (_ : ℕ) < 3; omega) ⟨2, ![2, 516]⟩ _ rfl rfl 0 rfl
      (ix2 (⟨R.val, hlo⟩ : Fin 2) C) (fun b hb => match b with
        | ⟨0, _⟩ => absurd rfl hb
        | ⟨1, _⟩ => rfl) (by show 0 + R.val = R.val; omega)
  · by_cases hhi : 514 ≤ R.val
    · -- the two rows below it
      rw [dif_neg (by omega)]
      exact concatenate_apply_piece (α := EReal) (t := ⟨2, ![516, 516]⟩) 0 (framePieces x1 z hc h1) h0 (ix2 R C) 2 (by show (_ : ℕ) < 3; omega) ⟨2, ![2, 516]⟩ _ rfl rfl 514 rfl
        (ix2 (⟨R.val - 514, by omega⟩ : Fin 2) C) (fun b hb => match b with
          | ⟨0, _⟩ => absurd rfl hb
          | ⟨1, _⟩ => rfl) (by show 514 + (R.val - 514) = R.val; omega)
    · -- an image row: the row framed by two zero columns on either side
      refine (concatenate_apply_piece (α := EReal) (t := ⟨2, ![516, 516]⟩) 0 (framePieces x1 z hc h1) h0 (ix2 R C) 1 (by show (_ : ℕ) < 3; omega) ⟨2, ![512, 516]⟩ _ rfl rfl 2 rfl
        (ix2 (⟨R.val - 2, by omega⟩ : Fin 512) C) (fun b hb => match b with
          | ⟨0, _⟩ => absurd rfl hb
          | ⟨1, _⟩ => rfl) (by show 2 + (R.val - 2) = R.val; omega)).trans ?_
      by_cases clo : C.val < 2
      · rw [dif_neg (by omega)]
        exact concatenate_apply_piece (α := EReal) (t := ⟨2, ![512, 516]⟩) 1 (rowPieces x1 z hc) h1 (ix2 (⟨R.val - 2, by omega⟩ : Fin 512) C) 0 (by show (_ : ℕ) < 3; omega) ⟨2, ![512, 2]⟩ _ rfl rfl 0 rfl
          (ix2 (⟨R.val - 2, by omega⟩ : Fin 512) (⟨C.val, clo⟩ : Fin 2)) (fun b hb => match b with
            | ⟨0, _⟩ => rfl
            | ⟨1, _⟩ => absurd rfl hb) (by show 0 + C.val = C.val; omega)
      · by_cases chi : 514 ≤ C.val
        · rw [dif_neg (by omega)]
          exact concatenate_apply_piece (α := EReal) (t := ⟨2, ![512, 516]⟩) 1 (rowPieces x1 z hc) h1 (ix2 (⟨R.val - 2, by omega⟩ : Fin 512) C) 2 (by show (_ : ℕ) < 3; omega) ⟨2, ![512, 2]⟩ _ rfl rfl 514 rfl
            (ix2 (⟨R.val - 2, by omega⟩ : Fin 512) (⟨C.val - 514, by omega⟩ : Fin 2)) (fun b hb => match b with
              | ⟨0, _⟩ => rfl
              | ⟨1, _⟩ => absurd rfl hb) (by show 514 + (C.val - 514) = C.val; omega)
        · rw [dif_pos (by omega)]
          refine (concatenate_apply_piece (α := EReal) (t := ⟨2, ![512, 516]⟩) 1 (rowPieces x1 z hc) h1 (ix2 (⟨R.val - 2, by omega⟩ : Fin 512) C) 1 (by show (_ : ℕ) < 3; omega) ⟨2, ![512, 512]⟩ _ rfl rfl 2 rfl
            (ix2 (⟨R.val - 2, by omega⟩ : Fin 512) (⟨C.val - 2, by omega⟩ : Fin 512)) (fun b hb => match b with
              | ⟨0, _⟩ => rfl
              | ⟨1, _⟩ => absurd rfl hb) (by show 2 + (C.val - 2) = C.val; omega)).trans ?_
          exact shapeCast_apply x1 hc _ (ix3 (0 : Fin 1) ⟨R.val - 2, by omega⟩ ⟨C.val - 2, by omega⟩) (by
            rw [Shape.rowMajor_val_three, Shape.rowMajor_val_two]
            show ((0 : ℕ) * 512 + (R.val - 2)) * 512 + (C.val - 2) = (R.val - 2) * 512 + (C.val - 2)
            omega)

end Cert.PerPixel

end
-- ==== Proof.KFold.lean ====
/-
  The body's fold read at a pixel.

  Each of the body's intermediate totals, read at pixel `(r, w)` of the block, is the running total `acc` of the
  taps taken so far — given that plane `n` of the weights reads `kf n` at the pixel and that the tile reads
  `pf kh kw` at the pixel shifted by `(kh, kw)`.  Tap `n` shifts by `(n % 5, n / 5)`.
-/
import proofs.«151069_j76373108457968_2_alg».proof.Proof.Gen.KernelIdeal.Skeleton
import proofs.«151069_j76373108457968_2_alg».proof.Proof.Spec
import proofs.«151069_j76373108457968_2_alg».proof.Proof.KStep
import Idealize.ShloMosaic.PureOps.Ideal.Laws

noncomputable section

open Idealize.ShloMosaic Idealize.ShloMosaic.ValueIdx

namespace Cert.KernelIdeal.Fold

open Cert.KernelIdeal Cert.KernelIdeal.Gen Cert.PerPixel

/-- One more tap: the total after `n` taps plus tap `n`'s product is the total after `n + 1`. -/
theorem acc_step (kf : ℕ → EReal) (pf : ℕ → ℕ → EReal) (n kh kw : ℕ) (hkh : n % 5 = kh) (hkw : n / 5 = kw)
    (a : EReal) (ha : a = acc kf pf n) : a + kf n * pf kh kw = acc kf pf (n + 1) := by
  rw [acc_succ, ha, hkh, hkw]

variable (T : FVec Ideal S260x516 .f32) (kf : ℕ → EReal) (pf : ℕ → ℕ → EReal) (r : Fin 256) (w : Fin 512)
  (hT : ∀ (kh kw : ℕ) (hkh : kh < 5) (hkw : kw < 5),
    T (ix2 (⟨r.val + kh, by omega⟩ : Fin 260) (⟨w.val + kw, by omega⟩ : Fin 516)) = pf kh kw)

include hT

/-- Taps 0–2, from a zero total. -/
theorem pay3_at (p0 p1 p2 : FVec Ideal S1x1x256x512 .f32)
    (h0 : p0 (ix4 (0 : Fin 1) (0 : Fin 1) r w) = kf 0)
    (h1 : p1 (ix4 (0 : Fin 1) (0 : Fin 1) r w) = kf 1)
    (h2 : p2 (ix4 (0 : Fin 1) (0 : Fin 1) r w) = kf 2) :
    k0_pay3 (F := Ideal) T p0 p1 p2 (ix2 r w) = acc kf pf 3 := by
  unfold k0_pay3
  refine (tap_at _ _ T 2 0 (by omega) (by omega) _ _ r w).trans ?_
  rw [h2, hT 2 0 (by omega) (by omega)]
  refine acc_step kf pf 2 2 0 rfl rfl _ ?_
  refine (tap_at _ _ T 1 0 (by omega) (by omega) _ _ r w).trans ?_
  rw [h1, hT 1 0 (by omega) (by omega)]
  refine acc_step kf pf 1 1 0 rfl rfl _ ?_
  refine (tap_at _ _ T 0 0 (by omega) (by omega) _ _ r w).trans ?_
  rw [h0, hT 0 0 (by omega) (by omega)]
  refine acc_step kf pf 0 0 0 rfl rfl _ ?_
  exact Ideal.ofBits_zero_f32

/-- Taps 3–9. -/
theorem pay5_at (v28 v30 : FVec Ideal S256x512 .f32) (p4 p5 p6 p7 p8 p9 : FVec Ideal S1x1x256x512 .f32)
    (hv28 : v28 (ix2 r w) = acc kf pf 3) (h3 : v30 (ix2 r w) = kf 3)
    (h4 : p4 (ix4 (0 : Fin 1) (0 : Fin 1) r w) = kf 4)
    (h5 : p5 (ix4 (0 : Fin 1) (0 : Fin 1) r w) = kf 5)
    (h6 : p6 (ix4 (0 : Fin 1) (0 : Fin 1) r w) = kf 6)
    (h7 : p7 (ix4 (0 : Fin 1) (0 : Fin 1) r w) = kf 7)
    (h8 : p8 (ix4 (0 : Fin 1) (0 : Fin 1) r w) = kf 8)
    (h9 : p9 (ix4 (0 : Fin 1) (0 : Fin 1) r w) = kf 9) :
    k0_pay5 (F := Ideal) T v28 v30 p4 p5 p6 p7 p8 p9 (ix2 r w) = acc kf pf 10 := by
  unfold k0_pay5
  refine (tap_at _ _ T 4 1 (by omega) (by omega) _ _ r w).trans ?_
  rw [h9, hT 4 1 (by omega) (by omega)]
  refine acc_step kf pf 9 4 1 rfl rfl _ ?_
  refine (tap_at _ _ T 3 1 (by omega) (by omega) _ _ r w).trans ?_
  rw [h8, hT 3 1 (by omega) (by omega)]
  refine acc_step kf pf 8 3 1 rfl rfl _ ?_
  refine (tap_at _ _ T 2 1 (by omega) (by omega) _ _ r w).trans ?_
  rw [h7, hT 2 1 (by omega) (by omega)]
  refine acc_step kf pf 7 2 1 rfl rfl _ ?_
  refine (tap_at _ _ T 1 1 (by omega) (by omega) _ _ r w).trans ?_
  rw [h6, hT 1 1 (by omega) (by omega)]
  refine acc_step kf pf 6 1 1 rfl rfl _ ?_
  refine (tap_at _ _ T 0 1 (by omega) (by omega) _ _ r w).trans ?_
  rw [h5, hT 0 1 (by omega) (by omega)]
  refine acc_step kf pf 5 0 1 rfl rfl _ ?_
  refine (tap_at _ _ T 4 0 (by omega) (by omega) _ _ r w).trans ?_
  rw [h4, hT 4 0 (by omega) (by omega)]
  refine acc_step kf pf 4 4 0 rfl rfl _ ?_
  refine (tap_at' _ _ T 3 0 (by omega) (by omega) _ r w).trans ?_
  rw [h3, hT 3 0 (by omega) (by omega)]
  refine acc_step kf pf 3 3 0 rfl rfl _ ?_
  exact hv28

/-- Taps 10–16. -/
theorem pay6_at (v63 : FVec Ideal S256x512 .f32) (p10 p11 p12 p13 p14 p15 p16 : FVec Ideal S1x1x256x512 .f32)
    (hv63 : v63 (ix2 r w) = acc kf pf 10)
    (h10 : p10 (ix4 (0 : Fin 1) (0 : Fin 1) r w) = kf 10)
    (h11 : p11 (ix4 (0 : Fin 1) (0 : Fin 1) r w) = kf 11)
    (h12 : p12 (ix4 (0 : Fin 1) (0 : Fin 1) r w) = kf 12)
    (h13 : p13 (ix4 (0 : Fin 1) (0 : Fin 1) r w) = kf 13)
    (h14 : p14 (ix4 (0 : Fin 1) (0 : Fin 1) r w) = kf 14)
    (h15 : p15 (ix4 (0 : Fin 1) (0 : Fin 1) r w) = kf 15)
    (h16 : p16 (ix4 (0 : Fin 1) (0 : Fin 1) r w) = kf 16) :
    k0_pay6 (F := Ideal) T v63 p10 p11 p12 p13 p14 p15 p16 (ix2 r w) = acc kf pf 17 := by
  unfold k0_pay6
  refine (tap_at _ _ T 1 3 (by omega) (by omega) _ _ r w).trans ?_
  rw [h16, hT 1 3 (by omega) (by omega)]
  refine acc_step kf pf 16 1 3 rfl rfl _ ?_
  refine (tap_at _ _ T 0 3 (by omega) (by omega) _ _ r w).trans ?_
  rw [h15, hT 0 3 (by omega) (by omega)]
  refine acc_step kf pf 15 0 3 rfl rfl _ ?_
  refine (tap_at _ _ T 4 2 (by omega) (by omega) _ _ r w).trans ?_
  rw [h14, hT 4 2 (by omega) (by omega)]
  refine acc_step kf pf 14 4 2 rfl rfl _ ?_
  refine (tap_at _ _ T 3 2 (by omega) (by omega) _ _ r w).trans ?_
  rw [h13, hT 3 2 (by omega) (by omega)]
  refine acc_step kf pf 13 3 2 rfl rfl _ ?_
  refine (tap_at _ _ T 2 2 (by omega) (by omega) _ _ r w).trans ?_
  rw [h12, hT 2 2 (by omega) (by omega)]
  refine acc_step kf pf 12 2 2 rfl rfl _ ?_
  refine (tap_at _ _ T 1 2 (by omega) (by omega) _ _ r w).trans ?_
  rw [h11, hT 1 2 (by omega) (by omega)]
  refine acc_step kf pf 11 1 2 rfl rfl _ ?_
  refine (tap_at _ _ T 0 2 (by omega) (by omega) _ _ r w).trans ?_
  rw [h10, hT 0 2 (by omega) (by omega)]
  refine acc_step kf pf 10 0 2 rfl rfl _ ?_
  exact hv63

/-- Taps 17–22. -/
theorem pay7_at (v98 : FVec Ideal S256x512 .f32) (p17 p18 p19 p20 p21 p22 : FVec Ideal S1x1x256x512 .f32)
    (hv98 : v98 (ix2 r w) = acc kf pf 17)
    (h17 : p17 (ix4 (0 : Fin 1) (0 : Fin 1) r w) = kf 17)
    (h18 : p18 (ix4 (0 : Fin 1) (0 : Fin 1) r w) = kf 18)
    (h19 : p19 (ix4 (0 : Fin 1) (0 : Fin 1) r w) = kf 19)
    (h20 : p20 (ix4 (0 : Fin 1) (0 : Fin 1) r w) = kf 20)
    (h21 : p21 (ix4 (0 : Fin 1) (0 : Fin 1) r w) = kf 21)
    (h22 : p22 (ix4 (0 : Fin 1) (0 : Fin 1) r w) = kf 22) :
    k0_pay7 (F := Ideal) T v98 p17 p18 p19 p20 p21 p22 (ix2 r w) = acc kf pf 23 := by
  unfold k0_pay7
  refine (tap_at _ _ T 2 4 (by omega) (by omega) _ _ r w).trans ?_
  rw [h22, hT 2 4 (by omega) (by omega)]
  refine acc_step kf pf 22 2 4 rfl rfl _ ?_
  refine (tap_at _ _ T 1 4 (by omega) (by omega) _ _ r w).trans ?_
  rw [h21, hT 1 4 (by omega) (by omega)]
  refine acc_step kf pf 21 1 4 rfl rfl _ ?_
  refine (tap_at _ _ T 0 4 (by omega) (by omega) _ _ r w).trans ?_
  rw [h20, hT 0 4 (by omega) (by omega)]
  refine acc_step kf pf 20 0 4 rfl rfl _ ?_
  refine (tap_at _ _ T 4 3 (by omega) (by omega) _ _ r w).trans ?_
  rw [h19, hT 4 3 (by omega) (by omega)]
  refine acc_step kf pf 19 4 3 rfl rfl _ ?_
  refine (tap_at _ _ T 3 3 (by omega) (by omega) _ _ r w).trans ?_
  rw [h18, hT 3 3 (by omega) (by omega)]
  refine acc_step kf pf 18 3 3 rfl rfl _ ?_
  refine (tap_at _ _ T 2 3 (by omega) (by omega) _ _ r w).trans ?_
  rw [h17, hT 2 3 (by omega) (by omega)]
  refine acc_step kf pf 17 2 3 rfl rfl _ ?_
  exact hv98

/-- Taps 23 and 24, and the block the body stores, read at `(0, r, w)`. -/
theorem pay1_at (v128 v130 : FVec Ideal S256x512 .f32) (p24 : FVec Ideal S1x1x256x512 .f32)
    (hv128 : v128 (ix2 r w) = acc kf pf 23) (h23 : v130 (ix2 r w) = kf 23)
    (h24 : p24 (ix4 (0 : Fin 1) (0 : Fin 1) r w) = kf 24) :
    k0_pay1 (F := Ideal) T v128 v130 p24 (ix3 (0 : Fin 1) r w) = acc kf pf 25 := by
  unfold k0_pay1
  refine (block_at _ _ r w).trans ?_
  refine (tap_at _ _ T 4 4 (by omega) (by omega) _ _ r w).trans ?_
  rw [h24, hT 4 4 (by omega) (by omega)]
  refine acc_step kf pf 24 4 4 rfl rfl _ ?_
  refine (tap_at' _ _ T 3 4 (by omega) (by omega) _ r w).trans ?_
  rw [h23, hT 3 4 (by omega) (by omega)]
  refine acc_step kf pf 23 3 4 rfl rfl _ ?_
  exact hv128

omit hT

/-- A plane of the weights seen as `[256, 512]` (the weights of taps 3 and 23 reach the fold this way). -/
theorem pay4_at (p : FVec Ideal S1x1x256x512 .f32) : k0_pay4 (F := Ideal) p (ix2 r w) = p (ix4 (0 : Fin 1) (0 : Fin 1) r w) := by
  unfold k0_pay4
  exact plane_at _ _ r w

theorem pay8_at (p : FVec Ideal S1x1x256x512 .f32) : k0_pay8 (F := Ideal) p (ix2 r w) = p (ix4 (0 : Fin 1) (0 : Fin 1) r w) := by
  unfold k0_pay8
  exact plane_at _ _ r w

end Cert.KernelIdeal.Fold

end
-- ==== Proof.KPoint.lean ====
/-
  One grid point's output block is the filter's block.

  At grid point `(b, h)` the body reads plane `n` of its block of weights at the pixel, and its tile at the pixel
  shifted by `(kh, kw)` is the zero-framed image at row `256·h + r + kh`, column `w + kw`; so the fold it
  stores is `convBlk h` of the point's two input blocks.
-/
import proofs.«151069_j76373108457968_2_alg».proof.Proof.KBody
import proofs.«151069_j76373108457968_2_alg».proof.Proof.KFold

noncomputable section

open Idealize.ShloMosaic Idealize.ShloMosaic.ValueIdx Idealize.ShloMosaic.TcCoe Idealize.SL.Sem

namespace Cert.KernelIdeal.Body

open Cert.KernelIdeal Cert.KernelIdeal.Gen Cert.KernelIdeal.Fold Cert.PerPixel

/-- Plane `n` of the block of weights, read at the pixel. -/
theorem plane_blk (x0 : Vec Ideal S1x25x256x512 .f32) (n : ℕ) (hn : n < 25)
    (inb : ∀ a, (![0, n, 0, 0] : Fin 4 → Nat) a + S1x1x256x512.size a ≤ S1x25x256x512.size a) (r : Fin 256) (w : Fin 512) :
    plane x0 ![0, n, 0, 0] inb (ix4 (0 : Fin 1) (0 : Fin 1) r w) = kBlk x0 r w n := by
  unfold kBlk
  rw [dif_pos hn]
  show x0 ((Rect.unit (s := S1x25x256x512) ![0, n, 0, 0] S1x1x256x512.size inb).idx (ix4 (0 : Fin 1) (0 : Fin 1) r w)) = _
  refine congrArg x0 (funext fun a => Fin.ext ?_)
  match a with
  | ⟨0, _⟩ => rfl
  | ⟨1, _⟩ => show n + 1 * 0 = n; omega
  | ⟨2, _⟩ => show 0 + 1 * r.val = r.val; omega
  | ⟨3, _⟩ => show 0 + 1 * w.val = w.val; omega

/-- The tile at the pixel shifted by `(kh, kw)` is the zero-framed image at row `256·h + r + kh`, column
    `w + kw`. -/
theorem tile_at (i : grid0.Coords) (x1 : Vec Ideal S1x512x512 .f32) (r : Fin 256) (w : Fin 512)
    (kh kw : ℕ) (hkh : kh < 5) (hkw : kw < 5) :
    tile (F := Ideal) i x1 (ix2 (⟨r.val + kh, by omega⟩ : Fin 260) (⟨w.val + kw, by omega⟩ : Fin 516))
      = imgBlk x1 (256 * (i 1).val + r.val + kh) (w.val + kw) := by
  have hi : (i 1).val < 2 := (i 1).isLt
  have e : (Rect.unit (s := S516x516) (k0_off1 i) S260x516.size (k0_off1_inb i)).idx
        (ix2 (⟨r.val + kh, by omega⟩ : Fin 260) (⟨w.val + kw, by omega⟩ : Fin 516))
      = ix2 (⟨256 * (i 1).val + r.val + kh, by omega⟩ : Fin 516) (⟨w.val + kw, by omega⟩ : Fin 516) := by
    funext a
    apply Fin.ext
    match a with
    | ⟨0, _⟩ =>
      show k0_off1 i 0 + 1 * (r.val + kh) = 256 * (i 1).val + r.val + kh
      rw [k0_off1_eq i]; show 256 * (i 1).val + 1 * (r.val + kh) = _; omega
    | ⟨1, _⟩ =>
      show k0_off1 i 1 + 1 * (w.val + kw) = w.val + kw
      rw [k0_off1_eq i]; show 0 + 1 * (w.val + kw) = _; omega
  show k0_pay2 (F := Ideal) x1 ((Rect.unit (s := S516x516) (k0_off1 i) S260x516.size (k0_off1_inb i)).idx _) = _
  rw [e]
  unfold k0_pay2
  dsimp only
  rw [shapeCast_self]
  refine (padded_at x1 (Ideal.ofBits .f32 0x00000000#32) _ _ _ ⟨256 * (i 1).val + r.val + kh, by omega⟩ ⟨w.val + kw, by omega⟩).trans ?_
  unfold imgBlk
  rw [Ideal.ofBits_zero_f32]

/-- The block the body stores, read at `(0, r, w)`: the twenty-five taps' total. -/
theorem bodyVal_at (i : grid0.Coords) (x0 : Vec Ideal S1x25x256x512 .f32) (x1 : Vec Ideal S1x512x512 .f32)
    (r : Fin 256) (w : Fin 512) :
    bodyVal (F := Ideal) i x0 x1 (ix3 (0 : Fin 1) r w) = convBlk (i 1).val x0 x1 (ix3 (0 : Fin 1) r w) := by
  unfold bodyVal fold23 fold17 fold10 fold3
  show _ = acc (kBlk x0 r w) (fun kh kw => imgBlk x1 (256 * (i 1).val + r.val + kh) (w.val + kw)) 25
  have hT : ∀ (kh kw : ℕ) (hkh : kh < 5) (hkw : kw < 5),
      tile (F := Ideal) i x1 (ix2 (⟨r.val + kh, by omega⟩ : Fin 260) (⟨w.val + kw, by omega⟩ : Fin 516))
        = (fun kh kw => imgBlk x1 (256 * (i 1).val + r.val + kh) (w.val + kw)) kh kw :=
    fun kh kw hkh hkw => tile_at i x1 r w kh kw hkh hkw
  have h3 := pay3_at (tile (F := Ideal) i x1) (kBlk x0 r w) _ r w hT _ _ _ (plane_blk x0 0 (by omega) inb_S1x25x256x512_S1x1x256x512_0_0_0_0 r w) (plane_blk x0 1 (by omega) inb_S1x25x256x512_S1x1x256x512_0_1_0_0 r w) (plane_blk x0 2 (by omega) inb_S1x25x256x512_S1x1x256x512_0_2_0_0 r w)
  have h10 := pay5_at (tile (F := Ideal) i x1) (kBlk x0 r w) _ r w hT _ _ _ _ _ _ _ _ h3
    ((pay4_at r w _).trans (plane_blk x0 3 (by omega) inb_S1x25x256x512_S1x1x256x512_0_3_0_0 r w)) (plane_blk x0 4 (by omega) inb_S1x25x256x512_S1x1x256x512_0_4_0_0 r w) (plane_blk x0 5 (by omega) inb_S1x25x256x512_S1x1x256x512_0_5_0_0 r w) (plane_blk x0 6 (by omega) inb_S1x25x256x512_S1x1x256x512_0_6_0_0 r w) (plane_blk x0 7 (by omega) inb_S1x25x256x512_S1x1x256x512_0_7_0_0 r w) (plane_blk x0 8 (by omega) inb_S1x25x256x512_S1x1x256x512_0_8_0_0 r w) (plane_blk x0 9 (by omega) inb_S1x25x256x512_S1x1x256x512_0_9_0_0 r w)
  have h17 := pay6_at (tile (F := Ideal) i x1) (kBlk x0 r w) _ r w hT _ _ _ _ _ _ _ _ h10 (plane_blk x0 10 (by omega) inb_S1x25x256x512_S1x1x256x512_0_10_0_0 r w) (plane_blk x0 11 (by omega) inb_S1x25x256x512_S1x1x256x512_0_11_0_0 r w) (plane_blk x0 12 (by omega) inb_S1x25x256x512_S1x1x256x512_0_12_0_0 r w) (plane_blk x0 13 (by omega) inb_S1x25x256x512_S1x1x256x512_0_13_0_0 r w) (plane_blk x0 14 (by omega) inb_S1x25x256x512_S1x1x256x512_0_14_0_0 r w) (plane_blk x0 15 (by omega) inb_S1x25x256x512_S1x1x256x512_0_15_0_0 r w) (plane_blk x0 16 (by omega) inb_S1x25x256x512_S1x1x256x512_0_16_0_0 r w)
  have h23 := pay7_at (tile (F := Ideal) i x1) (kBlk x0 r w) _ r w hT _ _ _ _ _ _ _ h17 (plane_blk x0 17 (by omega) inb_S1x25x256x512_S1x1x256x512_0_17_0_0 r w) (plane_blk x0 18 (by omega) inb_S1x25x256x512_S1x1x256x512_0_18_0_0 r w) (plane_blk x0 19 (by omega) inb_S1x25x256x512_S1x1x256x512_0_19_0_0 r w) (plane_blk x0 20 (by omega) inb_S1x25x256x512_S1x1x256x512_0_20_0_0 r w) (plane_blk x0 21 (by omega) inb_S1x25x256x512_S1x1x256x512_0_21_0_0 r w) (plane_blk x0 22 (by omega) inb_S1x25x256x512_S1x1x256x512_0_22_0_0 r w)
  exact pay1_at (tile (F := Ideal) i x1) (kBlk x0 r w) _ r w hT _ _ _ h23
    ((pay8_at r w _).trans (plane_blk x0 23 (by omega) inb_S1x25x256x512_S1x1x256x512_0_23_0_0 r w)) (plane_blk x0 24 (by omega) inb_S1x25x256x512_S1x1x256x512_0_24_0_0 r w)

end Cert.KernelIdeal.Body

end
-- ==== Proof.KArray.lean ====
/-
  From blocks to the array, and the kernel's run.

  Grid point `(b, h)` reads block `(b, 0, h, 0)` of the weights and image `b` whole, and writes block `(b, h, 0)`
  of the region's output: rows `256·h … 256·h + 255` of image `b`'s result.  What it writes is that block of the
  filter's result, the thirty-two blocks tile the output, and the host then only adds a leading unit axis.
-/
import proofs.«151069_j76373108457968_2_alg».proof.Proof.KPoint
import Idealize.ShloMosaic.Lib.Pipeline.Value
import Idealize.ShloMosaic.Lib.StableHlo.Run
import Idealize.ShloMosaic.Lib.Tactic

noncomputable section

open Idealize.ShloMosaic Idealize.ShloMosaic.ValueIdx Idealize.ShloMosaic.TcCoe Idealize.SL.Sem
open Idealize.ShloMosaic.Pipeline (Dat)

namespace Cert.KernelIdeal.Whole

open Cert.KernelIdeal Cert.KernelIdeal.Gen Cert.KernelIdeal.Body Cert.PerPixel

/-- The filter's result as the region's output array `[16, 512, 512]`. -/
def convArr (K : S16x25x512x512.Idx → EReal) (I : S16x1x512x512.Idx → EReal) : S16x512x512.Idx → EReal :=
  fun j => conv K I (ix4 (0 : Fin 1) (j 0) (j 1) (j 2))

/-- The zero-framed image read off an image's block is the zero-framed image of the array. -/
theorem imgBlk_eq (x1 : Vec Ideal S1x512x512 .f32) (I : S16x1x512x512.Idx → EReal) (b : Fin 16)
    (hx1 : ∀ R C : Fin 512, x1 (ix3 (0 : Fin 1) R C) = I (ix4 b (0 : Fin 1) R C)) (R C : ℕ) :
    imgBlk x1 R C = imgAt I b R C := by
  unfold imgBlk imgAt
  by_cases h : 2 ≤ R ∧ R < 514 ∧ 2 ≤ C ∧ C < 514
  · rw [dif_pos h, dif_pos h]; exact hx1 _ _
  · rw [dif_neg h, dif_neg h]

/-- One point's block, from blocks that are the arrays' blocks: the rows `256·h + r` of image `b`'s result. -/
theorem point_eq (gi : grid0.Coords) (x0 : Vec Ideal S1x25x256x512 .f32) (x1 : Vec Ideal S1x512x512 .f32)
    (K : S16x25x512x512.Idx → EReal) (I : S16x1x512x512.Idx → EReal) (b : Fin 16) (h : ℕ) (hh : h < 2)
    (hb : (gi 0).val = b.val) (hh' : (gi 1).val = h)
    (hx0 : ∀ (n : Fin 25) (r : Fin 256) (w : Fin 512),
      x0 (ix4 (0 : Fin 1) n r w) = K (ix4 b n (⟨256 * h + r.val, by omega⟩ : Fin 512) w))
    (hx1 : ∀ R C : Fin 512, x1 (ix3 (0 : Fin 1) R C) = I (ix4 b (0 : Fin 1) R C))
    (r : Fin 256) (w : Fin 512) :
    bodyVal (F := Ideal) gi x0 x1 (ix3 (0 : Fin 1) r w)
      = convArr K I (ix3 b (⟨256 * h + r.val, by omega⟩ : Fin 512) w) := by
  rw [bodyVal_at]
  show acc (kBlk x0 r w) (fun kh kw => imgBlk x1 (256 * (gi 1).val + r.val + kh) (w.val + kw)) 25
    = acc (kAt K b (⟨256 * h + r.val, by omega⟩ : Fin 512) w)
        (fun kh kw => imgAt I b (256 * h + r.val + kh) (w.val + kw)) 25
  rw [hh']
  refine acc_congr 25 (fun n hn => ?_) (fun n hn => ?_)
  · unfold kBlk kAt
    rw [dif_pos hn, dif_pos hn]
    exact hx0 ⟨n, hn⟩ r w
  · exact imgBlk_eq x1 I b hx1 _ _

variable (m : (ℓ : Loc nD τ sig) → Buf (Elt Ideal) ℓ) (ρ : Dev nD → PrngReg)

/-- The printed index maps, decided over the thirty-two grid points. -/
theorem index_facts : ∀ t : Fin cfg0.N,
    win0_0.index t (0 : Fin 4) = (grid0.coords t 0).val ∧ win0_0.index t (1 : Fin 4) = 0
    ∧ win0_0.index t (2 : Fin 4) = (grid0.coords t 1).val ∧ win0_0.index t (3 : Fin 4) = 0
    ∧ win0_1.index t (0 : Fin 3) = (grid0.coords t 0).val ∧ win0_1.index t (1 : Fin 3) = 0
    ∧ win0_1.index t (2 : Fin 3) = 0
    ∧ win0_2.index t (0 : Fin 3) = (grid0.coords t 0).val ∧ win0_2.index t (1 : Fin 3) = (grid0.coords t 1).val
    ∧ win0_2.index t (2 : Fin 3) = 0
    ∧ (grid0.coords t 0).val < 16 ∧ (grid0.coords t 1).val < 2 :=
  (by decide +kernel : ∀ t : Fin grid0.N, _)

/-- Every block of the output is some point's. -/
theorem index_onto : ∀ (q0 : Fin 16) (q1 : Fin 2), ∃ t : Fin cfg0.N, win0_2.index t = ![q0.val, q1.val, 0] :=
  (by decide +kernel : ∀ (q0 : Fin 16) (q1 : Fin 2), ∃ t : Fin grid0.N, win0_2.index t = ![q0.val, q1.val, 0])

/-- The image array the region finds is the image argument with its unit axis dropped. -/
theorem image_entry (c : Dev nD) : (V m c main_v0 : S16x512x512.Idx → EReal)
    = shapeCast S16x512x512 (m ((c : Thread nD τ).loc main_arg1)) shapeCasts_S16x1x512x512_S16x512x512 := by
  show StableHlo.after hostOps0 (fun b => m (c, b)) (Proc.devRef .tc main_v0) = _
  after_results
  rfl

theorem image_entry_at (c : Dev nD) (b : Fin 16) (R C : Fin 512) :
    (V m c main_v0 : S16x512x512.Idx → EReal) (ix3 b R C)
      = m ((c : Thread nD τ).loc main_arg1) (ix4 b (0 : Fin 1) R C) := by
  rw [image_entry]
  exact shapeCast_apply _ shapeCasts_S16x1x512x512_S16x512x512 (ix3 b R C) (ix4 b (0 : Fin 1) R C) (by
    rw [Shape.rowMajor_val_four, Shape.rowMajor_val_three]
    show ((b.val * 1 + 0) * 512 + R.val) * 512 + C.val = (b.val * 512 + R.val) * 512 + C.val
    omega)

/-- WHAT POINT `t` WRITES BACK is block `t` of the filter's result of the argument arrays. -/
theorem flushed_eq (c : Dev nD) (t : Fin cfg0.N) :
    (dats m 0 c).flushed 2 t = ((cfg0.win 2).blk t).view.read (Elt Ideal)
      (convArr (m ((c : Thread nD τ).loc main_arg0)) (m ((c : Thread nD τ).loc main_arg1))) := by
  show (cfg0.win 2).cut (grid0.coords t) ((dats m 0 c).after 2 t) = _
  rw [after0_2]
  unfold outsAt0
  rw [out_A]
  obtain ⟨a0, a1, a2, a3, b0, b1, b2, o0, o1, o2, g0, g1⟩ := index_facts t
  funext j
  obtain ⟨u, r, w, rfl⟩ : ∃ (u : Fin 1) (r : Fin 256) (w : Fin 512), j = ix3 u r w := ⟨j 0, j 1, j 2, eq_ix3 j⟩
  obtain rfl : u = 0 := Subsingleton.elim _ _
  refine (point_eq (grid0.coords t) (iblk m c 0 t) (iblk m c 1 t)
    (m ((c : Thread nD τ).loc main_arg0)) (m ((c : Thread nD τ).loc main_arg1))
    ⟨(grid0.coords t 0).val, g0⟩ (grid0.coords t 1).val g1 rfl rfl ?_ ?_ r w).trans ?_
  · intro n r w
    show V m c main_arg0 (((cfg0.win 0).blk t).view.emb (ix4 (0 : Fin 1) n r w)) = _
    rw [V_main_arg0]
    refine congrArg _ (funext fun a => Fin.ext ?_)
    match a with
    | ⟨0, _⟩ => show win0_0.index t (0 : Fin 4) * 1 + 1 * 0 = (grid0.coords t 0).val; omega
    | ⟨1, _⟩ => show win0_0.index t (1 : Fin 4) * 25 + 1 * n.val = n.val; omega
    | ⟨2, _⟩ => show win0_0.index t (2 : Fin 4) * 256 + 1 * r.val = 256 * (grid0.coords t 1).val + r.val; omega
    | ⟨3, _⟩ => show win0_0.index t (3 : Fin 4) * 512 + 1 * w.val = w.val; omega
  · intro R C
    show V m c main_v0 (((cfg0.win 1).blk t).view.emb (ix3 (0 : Fin 1) R C)) = _
    refine Eq.trans (congrArg _ (funext fun a => Fin.ext ?_)) (image_entry_at m c ⟨(grid0.coords t 0).val, g0⟩ R C)
    match a with
    | ⟨0, _⟩ => show win0_1.index t (0 : Fin 3) * 1 + 1 * 0 = (grid0.coords t 0).val; omega
    | ⟨1, _⟩ => show win0_1.index t (1 : Fin 3) * 512 + 1 * R.val = R.val; omega
    | ⟨2, _⟩ => show win0_1.index t (2 : Fin 3) * 512 + 1 * C.val = C.val; omega
  · show convArr _ _ _ = convArr _ _ (((cfg0.win 2).blk t).view.emb (ix3 (0 : Fin 1) r w))
    refine congrArg _ (funext fun a => Fin.ext ?_)
    match a with
    | ⟨0, _⟩ => show (grid0.coords t 0).val = win0_2.index t (0 : Fin 3) * 1 + 1 * 0; omega
    | ⟨1, _⟩ => show 256 * (grid0.coords t 1).val + r.val = win0_2.index t (1 : Fin 3) * 256 + 1 * r.val; omega
    | ⟨2, _⟩ => show w.val = win0_2.index t (2 : Fin 3) * 512 + 1 * w.val; omega

/-- An index of the output is in point `t`'s block iff each coordinate is in the block's range on its axis. -/
theorem mem_blk (t : Fin cfg0.N) (i : S16x512x512.Idx) :
    i ∈ ((cfg0.win 2).blk t).view.set ↔ ∀ a : Fin 3, win0_2.index t a * S1x256x512.size a ≤ (i a).val
      ∧ (i a).val < win0_2.index t a * S1x256x512.size a + S1x256x512.size a := by
  show i ∈ ((View.whole main_v1).slice (win0_2.rect t)).set ↔ _
  rw [View.set_slice_whole, Rect.mem_set_unit]
  exact Iff.rfl

/-- The thirty-two blocks tile the output: image `b`, row `h` lies in the block of point `(b, h / 256)`. -/
theorem covered (i : S16x512x512.Idx) :
    ∃ t : Fin cfg0.N, (cfg0.win 2).flush t = true ∧ i ∈ ((cfg0.win 2).blk t).view.set := by
  have hi0 : (i 0).val < 16 := (i 0).isLt
  have hi1 : (i 1).val < 512 := (i 1).isLt
  have hi2 : (i 2).val < 512 := (i 2).isLt
  obtain ⟨t, ht⟩ := index_onto ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 512 ≤ (i 2).val ∧ (i 2).val < win0_2.index t (2 : Fin 3) * 512 + 512; omega

/-- THE REGION'S OUTPUT after the run: the filter's result of the argument arrays. -/
theorem final (c : Dev nD) : (dats m 0 c).arrAt 2 cfg0.N
    = convArr (m ((c : Thread nD τ).loc main_arg0)) (m ((c : Thread nD τ).loc main_arg1)) :=
  (dats m 0 c).arrAt_eq_of_cover 2 _ (fun t _ => flushed_eq m c t) covered

end Cert.KernelIdeal.Whole

end
-- ==== Proof.KRun.lean ====
/-
  The idealized kernel's run: the region's output array is the filter's result, and the host line after the
  region only adds a leading unit axis, so the program's result at `(0, b, h, w)` is the twenty-five taps' total.
-/
import proofs.«151069_j76373108457968_2_alg».proof.Proof.KArray

noncomputable section

open Idealize.ShloMosaic Idealize.ShloMosaic.ValueIdx Idealize.ShloMosaic.TcCoe Idealize.SL.Sem
open Idealize.ShloMosaic.Pipeline (Dat)

namespace Cert.KernelIdeal.Whole

open Cert.KernelIdeal Cert.KernelIdeal.Gen Cert.KernelIdeal.Body Cert.PerPixel

variable (m : (ℓ : Loc nD τ sig) → Buf (Elt Ideal) ℓ) (ρ : Dev nD → PrngReg)

/-- The region's output with a leading unit axis is the filter's result. -/
theorem lead_axis (K : S16x25x512x512.Idx → EReal) (I : S16x1x512x512.Idx → EReal) :
    broadcastInDim S1x16x512x512 ![1, 2, 3] bcast_S16x512x512_S1x16x512x512_1_2_3 (convArr K I) = conv K I := by
  funext j
  obtain ⟨u, b, h, w, rfl⟩ : ∃ (u : Fin 1) (b : Fin 16) (h w : Fin 512), j = ix4 u b h w :=
    ⟨j 0, j 1, j 2, j 3, eq_ix4 j⟩
  obtain rfl : u = 0 := Subsingleton.elim _ _
  refine (broadcastInDim_apply _ bcast_S16x512x512_S1x16x512x512_1_2_3 (convArr K I) _ (ix3 b h w) (fun a => ?_)).trans rfl
  match a with
  | ⟨0, _⟩ => rfl
  | ⟨1, _⟩ => rfl
  | ⟨2, _⟩ => rfl

/-- What the host line after the region leaves in the program's result. -/
theorem tail_eq (c : Dev nD) :
    Pipeline.afterTail₀ cfgs (dats m) 0 (V0 m) [hostOps1] c main_v2
      = conv (m ((c : Thread nD τ).loc main_arg0)) (m ((c : Thread nD τ).loc main_arg1)) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1)
      = convArr (m ((c : Thread nD τ).loc main_arg0)) (m ((c : Thread nD τ).loc main_arg1))
    from (Pipeline.withArrays_arr spec0 launch0.win.arr_inj c _ _ 2).trans (final m c)]
  exact lead_axis _ _

/-- The idealized kernel runs, ends with the filter's result in its result buffer, and leaves its arguments. -/
theorem run : θ_run defs (onTc (τ := τ) (main (F := Ideal))) ⟨m, fun _ => 0, ρ⟩ fun r => ∀ c : Dev nD,
      r.2.mem ((c.tc : Thread nD τ).loc main_v2)
        = conv (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Whole

end
-- ==== Proof.RefChunks.lean ====
/-
  The reference program's host operations, cut where its mathematics cuts them: six operations that prepare the
  zero-padded image and the zero total, then five operations per tap (a window of the padded image, a plane of the
  weights, its reshape, their product, the new total), then the leading unit axis.
-/
import proofs.«151069_j76373108457968_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The image without its unit axis, padded by two zeros on every side, and the zero total. -/
abbrev pre : List (HloOp τ sig (Elt F)) :=
  [ reshape main_arg1 main_v0 rfl shapeCasts_S16x1x512x512_S16x512x512,
    nullary main_c (constantI S_ 32 0#32),
    TRef.unary (TRef.of (T := ⟨S_, .i32⟩) main_c) (TRef.of (T := ⟨S_, .f32⟩) main_call0_v0) (sitofp .f32),
    TRef.binary (TRef.of (T := ⟨S16x512x512, .f32⟩) main_v0) (TRef.of (T := ⟨S_, .f32⟩) main_call0_v0) (TRef.of (T := ⟨S16x516x516, .f32⟩) main_v1) (fun x v => pad S16x516x516 ![0, 2, 2] ![0, 2, 2] ![0, 0, 0] x v pads_S16x512x512_S16x516x516_000_220_220 h_S_),
    nullary main_cst (constant S_ .f32 0x00000000#32),
    unary main_cst main_v2 (broadcastInDim S16x512x512 ![] bcast_S_S16x512x512 : (⟨S_, .f32⟩ : BufTy).Contents (Elt F) → (⟨S16x512x512, .f32⟩ : BufTy).Contents (Elt F)) ]

/-- Tap 0: the window 0 rows down and 0 columns right, plane 0 of the weights, their product added. -/
abbrev tap0 : List (HloOp τ sig (Elt F)) :=
  [ unary main_v1 main_v3 ((extractStridedSlice S16x512x512 ![0, 0, 0] · slices_S16x516x516_S16x512x512_0_0_0) : (⟨S16x516x516, .f32⟩ : BufTy).Contents (Elt F) → (⟨S16x512x512, .f32⟩ : BufTy).Contents (Elt F)),
    unary main_arg0 main_v4 ((extractStridedSlice S16x1x512x512 ![0, 0, 0, 0] · slices_S16x25x512x512_S16x1x512x512_0_0_0_0) : (⟨S16x25x512x512, .f32⟩ : BufTy).Contents (Elt F) → (⟨S16x1x512x512, .f32⟩ : BufTy).Contents (Elt F)),
    reshape main_v4 main_v5 rfl shapeCasts_S16x1x512x512_S16x512x512,
    binary main_v5 main_v3 main_v6 (mulf : (⟨S16x512x512, .f32⟩ : BufTy).Contents (Elt F) → (⟨S16x512x512, .f32⟩ : BufTy).Contents (Elt F) → (⟨S16x512x512, .f32⟩ : BufTy).Contents (Elt F)),
    binary main_v2 main_v6 main_v7 (addf : (⟨S16x512x512, .f32⟩ : BufTy).Contents (Elt F) → (⟨S16x512x512, .f32⟩ : BufTy).Contents (Elt F) → (⟨S16x512x512, .f32⟩ : BufTy).Contents (Elt F)) ]

/-- Tap 1: the window 1 rows down and 0 columns right, plane 1 of the weights, their product added. -/
abbrev tap1 : List (HloOp τ sig (Elt F)) :=
  [ unary main_v1 main_v8 ((extractStridedSlice S16x512x512 ![0, 1, 0] · slices_S16x516x516_S16x512x512_0_1_0) : (⟨S16x516x516, .f32⟩ : BufTy).Contents (Elt F) → (⟨S16x512x512, .f32⟩ : BufTy).Contents (Elt F)),
    unary main_arg0 main_v9 ((extractStridedSlice S16x1x512x512 ![0, 1, 0, 0] · slices_S16x25x512x512_S16x1x512x512_0_1_0_0) : (⟨S16x25x512x512, .f32⟩ : BufTy).Contents (Elt F) → (⟨S16x1x512x512, .f32⟩ : BufTy).Contents (Elt F)),
    reshape main_v9 main_v10 rfl shapeCasts_S16x1x512x512_S16x512x512,
    binary main_v10 main_v8 main_v11 (mulf : (⟨S16x512x512, .f32⟩ : BufTy).Contents (Elt F) → (⟨S16x512x512, .f32⟩ : BufTy).Contents (Elt F) → (⟨S16x512x512, .f32⟩ : BufTy).Contents (Elt F)),
    binary main_v7 main_v11 main_v12 (addf : (⟨S16x512x512, .f32⟩ : BufTy).Contents (Elt F) → (⟨S16x512x512, .f32⟩ : BufTy).Contents (Elt F) → (⟨S16x512x512, .f32⟩ : BufTy).Contents (Elt F)) ]

/-- Tap 2: the window 2 rows down and 0 columns right, plane 2 of the weights, their product added. -/
abbrev tap2 : List (HloOp τ sig (Elt F)) :=
  [ unary main_v1 main_v13 ((extractStridedSlice S16x512x512 ![0, 2, 0] · slices_S16x516x516_S16x512x512_0_2_0) : (⟨S16x516x516, .f32⟩ : BufTy).Contents (Elt F) → (⟨S16x512x512, .f32⟩ : BufTy).Contents (Elt F)),
    unary main_arg0 main_v14 ((extractStridedSlice S16x1x512x512 ![0, 2, 0, 0] · slices_S16x25x512x512_S16x1x512x512_0_2_0_0) : (⟨S16x25x512x512, .f32⟩ : BufTy).Contents (Elt F) → (⟨S16x1x512x512, .f32⟩ : BufTy).Contents (Elt F)),
    reshape main_v14 main_v15 rfl shapeCasts_S16x1x512x512_S16x512x512,
    binary main_v15 main_v13 main_v16 (mulf : (⟨S16x512x512, .f32⟩ : BufTy).Contents (Elt F) → (⟨S16x512x512, .f32⟩ : BufTy).Contents (Elt F) → (⟨S16x512x512, .f32⟩ : BufTy).Contents (Elt F)),
    binary main_v12 main_v16 main_v17 (addf : (⟨S16x512x512, .f32⟩ : BufTy).Contents (Elt F) → (⟨S16x512x512, .f32⟩ : BufTy).Contents (Elt F) → (⟨S16x512x512, .f32⟩ : BufTy).Contents (Elt F)) ]

/-- Tap 3: the window 3 rows down and 0 columns right, plane 3 of the weights, their product added. -/
abbrev tap3 : List (HloOp τ sig (Elt F)) :=
  [ unary main_v1 main_v18 ((extractStridedSlice S16x512x512 ![0, 3, 0] · slices_S16x516x516_S16x512x512_0_3_0) : (⟨S16x516x516, .f32⟩ : BufTy).Contents (Elt F) → (⟨S16x512x512, .f32⟩ : BufTy).Contents (Elt F)),
    unary main_arg0 main_v19 ((extractStridedSlice S16x1x512x512 ![0, 3, 0, 0] · slices_S16x25x512x512_S16x1x512x512_0_3_0_0) : (⟨S16x25x512x512, .f32⟩ : BufTy).Contents (Elt F) → (⟨S16x1x512x512, .f32⟩ : BufTy).Contents (Elt F)),
    reshape main_v19 main_v20 rfl shapeCasts_S16x1x512x512_S16x512x512,
    binary main_v20 main_v18 main_v21 (mulf : (⟨S16x512x512, .f32⟩ : BufTy).Contents (Elt F) → (⟨S16x512x512, .f32⟩ : BufTy).Contents (Elt F) → (⟨S16x512x512, .f32⟩ : BufTy).Contents (Elt F)),
    binary main_v17 main_v21 main_v22 (addf : (⟨S16x512x512, .f32⟩ : BufTy).Contents (Elt F) → (⟨S16x512x512, .f32⟩ : BufTy).Contents (Elt F) → (⟨S16x512x512, .f32⟩ : BufTy).Contents (Elt F)) ]

/-- Tap 4: the window 4 rows down and 0 columns right, plane 4 of the weights, their product added. -/
abbrev tap4 : List (HloOp τ sig (Elt F)) :=
  [ unary main_v1 main_v23 ((extractStridedSlice S16x512x512 ![0, 4, 0] · slices_S16x516x516_S16x512x512_0_4_0) : (⟨S16x516x516, .f32⟩ : BufTy).Contents (Elt F) → (⟨S16x512x512, .f32⟩ : BufTy).Contents (Elt F)),
    unary main_arg0 main_v24 ((extractStridedSlice S16x1x512x512 ![0, 4, 0, 0] · slices_S16x25x512x512_S16x1x512x512_0_4_0_0) : (⟨S16x25x512x512, .f32⟩ : BufTy).Contents (Elt F) → (⟨S16x1x512x512, .f32⟩ : BufTy).Contents (Elt F)),
    reshape main_v24 main_v25 rfl shapeCasts_S16x1x512x512_S16x512x512,
    binary main_v25 main_v23 main_v26 (mulf : (⟨S16x512x512, .f32⟩ : BufTy).Contents (Elt F) → (⟨S16x512x512, .f32⟩ : BufTy).Contents (Elt F) → (⟨S16x512x512, .f32⟩ : BufTy).Contents (Elt F)),
    binary main_v22 main_v26 main_v27 (addf : (⟨S16x512x512, .f32⟩ : BufTy).Contents (Elt F) → (⟨S16x512x512, .f32⟩ : BufTy).Contents (Elt F) → (⟨S16x512x512, .f32⟩ : BufTy).Contents (Elt F)) ]

/-- Tap 5: the window 0 rows down and 1 columns right, plane 5 of the weights, their product added. -/
abbrev tap5 : List (HloOp τ sig (Elt F)) :=
  [ unary main_v1 main_v28 ((extractStridedSlice S16x512x512 ![0, 0, 1] · slices_S16x516x516_S16x512x512_0_0_1) : (⟨S16x516x516, .f32⟩ : BufTy).Contents (Elt F) → (⟨S16x512x512, .f32⟩ : BufTy).Contents (Elt F)),
    unary main_arg0 main_v29 ((extractStridedSlice S16x1x512x512 ![0, 5, 0, 0] · slices_S16x25x512x512_S16x1x512x512_0_5_0_0) : (⟨S16x25x512x512, .f32⟩ : BufTy).Contents (Elt F) → (⟨S16x1x512x512, .f32⟩ : BufTy).Contents (Elt F)),
    reshape main_v29 main_v30 rfl shapeCasts_S16x1x512x512_S16x512x512,
    binary main_v30 main_v28 main_v31 (mulf : (⟨S16x512x512, .f32⟩ : BufTy).Contents (Elt F) → (⟨S16x512x512, .f32⟩ : BufTy).Contents (Elt F) → (⟨S16x512x512, .f32⟩ : BufTy).Contents (Elt F)),
    binary main_v27 main_v31 main_v32 (addf : (⟨S16x512x512, .f32⟩ : BufTy).Contents (Elt F) → (⟨S16x512x512, .f32⟩ : BufTy).Contents (Elt F) → (⟨S16x512x512, .f32⟩ : BufTy).Contents (Elt F)) ]

/-- Tap 6: the window 1 rows down and 1 columns right, plane 6 of the weights, their product added. -/
abbrev tap6 : List (HloOp τ sig (Elt F)) :=
  [ unary main_v1 main_v33 ((extractStridedSlice S16x512x512 ![0, 1, 1] · slices_S16x516x516_S16x512x512_0_1_1) : (⟨S16x516x516, .f32⟩ : BufTy).Contents (Elt F) → (⟨S16x512x512, .f32⟩ : BufTy).Contents (Elt F)),
    unary main_arg0 main_v34 ((extractStridedSlice S16x1x512x512 ![0, 6, 0, 0] · slices_S16x25x512x512_S16x1x512x512_0_6_0_0) : (⟨S16x25x512x512, .f32⟩ : BufTy).Contents (Elt F) → (⟨S16x1x512x512, .f32⟩ : BufTy).Contents (Elt F)),
    reshape main_v34 main_v35 rfl shapeCasts_S16x1x512x512_S16x512x512,
    binary main_v35 main_v33 main_v36 (mulf : (⟨S16x512x512, .f32⟩ : BufTy).Contents (Elt F) → (⟨S16x512x512, .f32⟩ : BufTy).Contents (Elt F) → (⟨S16x512x512, .f32⟩ : BufTy).Contents (Elt F)),
    binary main_v32 main_v36 main_v37 (addf : (⟨S16x512x512, .f32⟩ : BufTy).Contents (Elt F) → (⟨S16x512x512, .f32⟩ : BufTy).Contents (Elt F) → (⟨S16x512x512, .f32⟩ : BufTy).Contents (Elt F)) ]

/-- Tap 7: the window 2 rows down and 1 columns right, plane 7 of the weights, their product added. -/
abbrev tap7 : List (HloOp τ sig (Elt F)) :=
  [ unary main_v1 main_v38 ((extractStridedSlice S16x512x512 ![0, 2, 1] · slices_S16x516x516_S16x512x512_0_2_1) : (⟨S16x516x516, .f32⟩ : BufTy).Contents (Elt F) → (⟨S16x512x512, .f32⟩ : BufTy).Contents (Elt F)),
    unary main_arg0 main_v39 ((extractStridedSlice S16x1x512x512 ![0, 7, 0, 0] · slices_S16x25x512x512_S16x1x512x512_0_7_0_0) : (⟨S16x25x512x512, .f32⟩ : BufTy).Contents (Elt F) → (⟨S16x1x512x512, .f32⟩ : BufTy).Contents (Elt F)),
    reshape main_v39 main_v40 rfl shapeCasts_S16x1x512x512_S16x512x512,
    binary main_v40 main_v38 main_v41 (mulf : (⟨S16x512x512, .f32⟩ : BufTy).Contents (Elt F) → (⟨S16x512x512, .f32⟩ : BufTy).Contents (Elt F) → (⟨S16x512x512, .f32⟩ : BufTy).Contents (Elt F)),
    binary main_v37 main_v41 main_v42 (addf : (⟨S16x512x512, .f32⟩ : BufTy).Contents (Elt F) → (⟨S16x512x512, .f32⟩ : BufTy).Contents (Elt F) → (⟨S16x512x512, .f32⟩ : BufTy).Contents (Elt F)) ]

/-- Tap 8: the window 3 rows down and 1 columns right, plane 8 of the weights, their product added. -/
abbrev tap8 : List (HloOp τ sig (Elt F)) :=
  [ unary main_v1 main_v43 ((extractStridedSlice S16x512x512 ![0, 3, 1] · slices_S16x516x516_S16x512x512_0_3_1) : (⟨S16x516x516, .f32⟩ : BufTy).Contents (Elt F) → (⟨S16x512x512, .f32⟩ : BufTy).Contents (Elt F)),
    unary main_arg0 main_v44 ((extractStridedSlice S16x1x512x512 ![0, 8, 0, 0] · slices_S16x25x512x512_S16x1x512x512_0_8_0_0) : (⟨S16x25x512x512, .f32⟩ : BufTy).Contents (Elt F) → (⟨S16x1x512x512, .f32⟩ : BufTy).Contents (Elt F)),
    reshape main_v44 main_v45 rfl shapeCasts_S16x1x512x512_S16x512x512,
    binary main_v45 main_v43 main_v46 (mulf : (⟨S16x512x512, .f32⟩ : BufTy).Contents (Elt F) → (⟨S16x512x512, .f32⟩ : BufTy).Contents (Elt F) → (⟨S16x512x512, .f32⟩ : BufTy).Contents (Elt F)),
    binary main_v42 main_v46 main_v47 (addf : (⟨S16x512x512, .f32⟩ : BufTy).Contents (Elt F) → (⟨S16x512x512, .f32⟩ : BufTy).Contents (Elt F) → (⟨S16x512x512, .f32⟩ : BufTy).Contents (Elt F)) ]

/-- Tap 9: the window 4 rows down and 1 columns right, plane 9 of the weights, their product added. -/
abbrev tap9 : List (HloOp τ sig (Elt F)) :=
  [ unary main_v1 main_v48 ((extractStridedSlice S16x512x512 ![0, 4, 1] · slices_S16x516x516_S16x512x512_0_4_1) : (⟨S16x516x516, .f32⟩ : BufTy).Contents (Elt F) → (⟨S16x512x512, .f32⟩ : BufTy).Contents (Elt F)),
    unary main_arg0 main_v49 ((extractStridedSlice S16x1x512x512 ![0, 9, 0, 0] · slices_S16x25x512x512_S16x1x512x512_0_9_0_0) : (⟨S16x25x512x512, .f32⟩ : BufTy).Contents (Elt F) → (⟨S16x1x512x512, .f32⟩ : BufTy).Contents (Elt F)),
    reshape main_v49 main_v50 rfl shapeCasts_S16x1x512x512_S16x512x512,
    binary main_v50 main_v48 main_v51 (mulf : (⟨S16x512x512, .f32⟩ : BufTy).Contents (Elt F) → (⟨S16x512x512, .f32⟩ : BufTy).Contents (Elt F) → (⟨S16x512x512, .f32⟩ : BufTy).Contents (Elt F)),
    binary main_v47 main_v51 main_v52 (addf : (⟨S16x512x512, .f32⟩ : BufTy).Contents (Elt F) → (⟨S16x512x512, .f32⟩ : BufTy).Contents (Elt F) → (⟨S16x512x512, .f32⟩ : BufTy).Contents (Elt F)) ]

/-- Tap 10: the window 0 rows down and 2 columns right, plane 10 of the weights, their product added. -/
abbrev tap10 : List (HloOp τ sig (Elt F)) :=
  [ unary main_v1 main_v53 ((extractStridedSlice S16x512x512 ![0, 0, 2] · slices_S16x516x516_S16x512x512_0_0_2) : (⟨S16x516x516, .f32⟩ : BufTy).Contents (Elt F) → (⟨S16x512x512, .f32⟩ : BufTy).Contents (Elt F)),
    unary main_arg0 main_v54 ((extractStridedSlice S16x1x512x512 ![0, 10, 0, 0] · slices_S16x25x512x512_S16x1x512x512_0_10_0_0) : (⟨S16x25x512x512, .f32⟩ : BufTy).Contents (Elt F) → (⟨S16x1x512x512, .f32⟩ : BufTy).Contents (Elt F)),
    reshape main_v54 main_v55 rfl shapeCasts_S16x1x512x512_S16x512x512,
    binary main_v55 main_v53 main_v56 (mulf : (⟨S16x512x512, .f32⟩ : BufTy).Contents (Elt F) → (⟨S16x512x512, .f32⟩ : BufTy).Contents (Elt F) → (⟨S16x512x512, .f32⟩ : BufTy).Contents (Elt F)),
    binary main_v52 main_v56 main_v57 (addf : (⟨S16x512x512, .f32⟩ : BufTy).Contents (Elt F) → (⟨S16x512x512, .f32⟩ : BufTy).Contents (Elt F) → (⟨S16x512x512, .f32⟩ : BufTy).Contents (Elt F)) ]

/-- Tap 11: the window 1 rows down and 2 columns right, plane 11 of the weights, their product added. -/
abbrev tap11 : List (HloOp τ sig (Elt F)) :=
  [ unary main_v1 main_v58 ((extractStridedSlice S16x512x512 ![0, 1, 2] · slices_S16x516x516_S16x512x512_0_1_2) : (⟨S16x516x516, .f32⟩ : BufTy).Contents (Elt F) → (⟨S16x512x512, .f32⟩ : BufTy).Contents (Elt F)),
    unary main_arg0 main_v59 ((extractStridedSlice S16x1x512x512 ![0, 11, 0, 0] · slices_S16x25x512x512_S16x1x512x512_0_11_0_0) : (⟨S16x25x512x512, .f32⟩ : BufTy).Contents (Elt F) → (⟨S16x1x512x512, .f32⟩ : BufTy).Contents (Elt F)),
    reshape main_v59 main_v60 rfl shapeCasts_S16x1x512x512_S16x512x512,
    binary main_v60 main_v58 main_v61 (mulf : (⟨S16x512x512, .f32⟩ : BufTy).Contents (Elt F) → (⟨S16x512x512, .f32⟩ : BufTy).Contents (Elt F) → (⟨S16x512x512, .f32⟩ : BufTy).Contents (Elt F)),
    binary main_v57 main_v61 main_v62 (addf : (⟨S16x512x512, .f32⟩ : BufTy).Contents (Elt F) → (⟨S16x512x512, .f32⟩ : BufTy).Contents (Elt F) → (⟨S16x512x512, .f32⟩ : BufTy).Contents (Elt F)) ]

/-- Tap 12: the window 2 rows down and 2 columns right, plane 12 of the weights, their product added. -/
abbrev tap12 : List (HloOp τ sig (Elt F)) :=
  [ unary main_v1 main_v63 ((extractStridedSlice S16x512x512 ![0, 2, 2] · slices_S16x516x516_S16x512x512_0_2_2) : (⟨S16x516x516, .f32⟩ : BufTy).Contents (Elt F) → (⟨S16x512x512, .f32⟩ : BufTy).Contents (Elt F)),
    unary main_arg0 main_v64 ((extractStridedSlice S16x1x512x512 ![0, 12, 0, 0] · slices_S16x25x512x512_S16x1x512x512_0_12_0_0) : (⟨S16x25x512x512, .f32⟩ : BufTy).Contents (Elt F) → (⟨S16x1x512x512, .f32⟩ : BufTy).Contents (Elt F)),
    reshape main_v64 main_v65 rfl shapeCasts_S16x1x512x512_S16x512x512,
    binary main_v65 main_v63 main_v66 (mulf : (⟨S16x512x512, .f32⟩ : BufTy).Contents (Elt F) → (⟨S16x512x512, .f32⟩ : BufTy).Contents (Elt F) → (⟨S16x512x512, .f32⟩ : BufTy).Contents (Elt F)),
    binary main_v62 main_v66 main_v67 (addf : (⟨S16x512x512, .f32⟩ : BufTy).Contents (Elt F) → (⟨S16x512x512, .f32⟩ : BufTy).Contents (Elt F) → (⟨S16x512x512, .f32⟩ : BufTy).Contents (Elt F)) ]

/-- Tap 13: the window 3 rows down and 2 columns right, plane 13 of the weights, their product added. -/
abbrev tap13 : List (HloOp τ sig (Elt F)) :=
  [ unary main_v1 main_v68 ((extractStridedSlice S16x512x512 ![0, 3, 2] · slices_S16x516x516_S16x512x512_0_3_2) : (⟨S16x516x516, .f32⟩ : BufTy).Contents (Elt F) → (⟨S16x512x512, .f32⟩ : BufTy).Contents (Elt F)),
    unary main_arg0 main_v69 ((extractStridedSlice S16x1x512x512 ![0, 13, 0, 0] · slices_S16x25x512x512_S16x1x512x512_0_13_0_0) : (⟨S16x25x512x512, .f32⟩ : BufTy).Contents (Elt F) → (⟨S16x1x512x512, .f32⟩ : BufTy).Contents (Elt F)),
    reshape main_v69 main_v70 rfl shapeCasts_S16x1x512x512_S16x512x512,
    binary main_v70 main_v68 main_v71 (mulf : (⟨S16x512x512, .f32⟩ : BufTy).Contents (Elt F) → (⟨S16x512x512, .f32⟩ : BufTy).Contents (Elt F) → (⟨S16x512x512, .f32⟩ : BufTy).Contents (Elt F)),
    binary main_v67 main_v71 main_v72 (addf : (⟨S16x512x512, .f32⟩ : BufTy).Contents (Elt F) → (⟨S16x512x512, .f32⟩ : BufTy).Contents (Elt F) → (⟨S16x512x512, .f32⟩ : BufTy).Contents (Elt F)) ]

/-- Tap 14: the window 4 rows down and 2 columns right, plane 14 of the weights, their product added. -/
abbrev tap14 : List (HloOp τ sig (Elt F)) :=
  [ unary main_v1 main_v73 ((extractStridedSlice S16x512x512 ![0, 4, 2] · slices_S16x516x516_S16x512x512_0_4_2) : (⟨S16x516x516, .f32⟩ : BufTy).Contents (Elt F) → (⟨S16x512x512, .f32⟩ : BufTy).Contents (Elt F)),
    unary main_arg0 main_v74 ((extractStridedSlice S16x1x512x512 ![0, 14, 0, 0] · slices_S16x25x512x512_S16x1x512x512_0_14_0_0) : (⟨S16x25x512x512, .f32⟩ : BufTy).Contents (Elt F) → (⟨S16x1x512x512, .f32⟩ : BufTy).Contents (Elt F)),
    reshape main_v74 main_v75 rfl shapeCasts_S16x1x512x512_S16x512x512,
    binary main_v75 main_v73 main_v76 (mulf : (⟨S16x512x512, .f32⟩ : BufTy).Contents (Elt F) → (⟨S16x512x512, .f32⟩ : BufTy).Contents (Elt F) → (⟨S16x512x512, .f32⟩ : BufTy).Contents (Elt F)),
    binary main_v72 main_v76 main_v77 (addf : (⟨S16x512x512, .f32⟩ : BufTy).Contents (Elt F) → (⟨S16x512x512, .f32⟩ : BufTy).Contents (Elt F) → (⟨S16x512x512, .f32⟩ : BufTy).Contents (Elt F)) ]

/-- Tap 15: the window 0 rows down and 3 columns right, plane 15 of the weights, their product added. -/
abbrev tap15 : List (HloOp τ sig (Elt F)) :=
  [ unary main_v1 main_v78 ((extractStridedSlice S16x512x512 ![0, 0, 3] · slices_S16x516x516_S16x512x512_0_0_3) : (⟨S16x516x516, .f32⟩ : BufTy).Contents (Elt F) → (⟨S16x512x512, .f32⟩ : BufTy).Contents (Elt F)),
    unary main_arg0 main_v79 ((extractStridedSlice S16x1x512x512 ![0, 15, 0, 0] · slices_S16x25x512x512_S16x1x512x512_0_15_0_0) : (⟨S16x25x512x512, .f32⟩ : BufTy).Contents (Elt F) → (⟨S16x1x512x512, .f32⟩ : BufTy).Contents (Elt F)),
    reshape main_v79 main_v80 rfl shapeCasts_S16x1x512x512_S16x512x512,
    binary main_v80 main_v78 main_v81 (mulf : (⟨S16x512x512, .f32⟩ : BufTy).Contents (Elt F) → (⟨S16x512x512, .f32⟩ : BufTy).Contents (Elt F) → (⟨S16x512x512, .f32⟩ : BufTy).Contents (Elt F)),
    binary main_v77 main_v81 main_v82 (addf : (⟨S16x512x512, .f32⟩ : BufTy).Contents (Elt F) → (⟨S16x512x512, .f32⟩ : BufTy).Contents (Elt F) → (⟨S16x512x512, .f32⟩ : BufTy).Contents (Elt F)) ]

/-- Tap 16: the window 1 rows down and 3 columns right, plane 16 of the weights, their product added. -/
abbrev tap16 : List (HloOp τ sig (Elt F)) :=
  [ unary main_v1 main_v83 ((extractStridedSlice S16x512x512 ![0, 1, 3] · slices_S16x516x516_S16x512x512_0_1_3) : (⟨S16x516x516, .f32⟩ : BufTy).Contents (Elt F) → (⟨S16x512x512, .f32⟩ : BufTy).Contents (Elt F)),
    unary main_arg0 main_v84 ((extractStridedSlice S16x1x512x512 ![0, 16, 0, 0] · slices_S16x25x512x512_S16x1x512x512_0_16_0_0) : (⟨S16x25x512x512, .f32⟩ : BufTy).Contents (Elt F) → (⟨S16x1x512x512, .f32⟩ : BufTy).Contents (Elt F)),
    reshape main_v84 main_v85 rfl shapeCasts_S16x1x512x512_S16x512x512,
    binary main_v85 main_v83 main_v86 (mulf : (⟨S16x512x512, .f32⟩ : BufTy).Contents (Elt F) → (⟨S16x512x512, .f32⟩ : BufTy).Contents (Elt F) → (⟨S16x512x512, .f32⟩ : BufTy).Contents (Elt F)),
    binary main_v82 main_v86 main_v87 (addf : (⟨S16x512x512, .f32⟩ : BufTy).Contents (Elt F) → (⟨S16x512x512, .f32⟩ : BufTy).Contents (Elt F) → (⟨S16x512x512, .f32⟩ : BufTy).Contents (Elt F)) ]

/-- Tap 17: the window 2 rows down and 3 columns right, plane 17 of the weights, their product added. -/
abbrev tap17 : List (HloOp τ sig (Elt F)) :=
  [ unary main_v1 main_v88 ((extractStridedSlice S16x512x512 ![0, 2, 3] · slices_S16x516x516_S16x512x512_0_2_3) : (⟨S16x516x516, .f32⟩ : BufTy).Contents (Elt F) → (⟨S16x512x512, .f32⟩ : BufTy).Contents (Elt F)),
    unary main_arg0 main_v89 ((extractStridedSlice S16x1x512x512 ![0, 17, 0, 0] · slices_S16x25x512x512_S16x1x512x512_0_17_0_0) : (⟨S16x25x512x512, .f32⟩ : BufTy).Contents (Elt F) → (⟨S16x1x512x512, .f32⟩ : BufTy).Contents (Elt F)),
    reshape main_v89 main_v90 rfl shapeCasts_S16x1x512x512_S16x512x512,
    binary main_v90 main_v88 main_v91 (mulf : (⟨S16x512x512, .f32⟩ : BufTy).Contents (Elt F) → (⟨S16x512x512, .f32⟩ : BufTy).Contents (Elt F) → (⟨S16x512x512, .f32⟩ : BufTy).Contents (Elt F)),
    binary main_v87 main_v91 main_v92 (addf : (⟨S16x512x512, .f32⟩ : BufTy).Contents (Elt F) → (⟨S16x512x512, .f32⟩ : BufTy).Contents (Elt F) → (⟨S16x512x512, .f32⟩ : BufTy).Contents (Elt F)) ]

/-- Tap 18: the window 3 rows down and 3 columns right, plane 18 of the weights, their product added. -/
abbrev tap18 : List (HloOp τ sig (Elt F)) :=
  [ unary main_v1 main_v93 ((extractStridedSlice S16x512x512 ![0, 3, 3] · slices_S16x516x516_S16x512x512_0_3_3) : (⟨S16x516x516, .f32⟩ : BufTy).Contents (Elt F) → (⟨S16x512x512, .f32⟩ : BufTy).Contents (Elt F)),
    unary main_arg0 main_v94 ((extractStridedSlice S16x1x512x512 ![0, 18, 0, 0] · slices_S16x25x512x512_S16x1x512x512_0_18_0_0) : (⟨S16x25x512x512, .f32⟩ : BufTy).Contents (Elt F) → (⟨S16x1x512x512, .f32⟩ : BufTy).Contents (Elt F)),
    reshape main_v94 main_v95 rfl shapeCasts_S16x1x512x512_S16x512x512,
    binary main_v95 main_v93 main_v96 (mulf : (⟨S16x512x512, .f32⟩ : BufTy).Contents (Elt F) → (⟨S16x512x512, .f32⟩ : BufTy).Contents (Elt F) → (⟨S16x512x512, .f32⟩ : BufTy).Contents (Elt F)),
    binary main_v92 main_v96 main_v97 (addf : (⟨S16x512x512, .f32⟩ : BufTy).Contents (Elt F) → (⟨S16x512x512, .f32⟩ : BufTy).Contents (Elt F) → (⟨S16x512x512, .f32⟩ : BufTy).Contents (Elt F)) ]

/-- Tap 19: the window 4 rows down and 3 columns right, plane 19 of the weights, their product added. -/
abbrev tap19 : List (HloOp τ sig (Elt F)) :=
  [ unary main_v1 main_v98 ((extractStridedSlice S16x512x512 ![0, 4, 3] · slices_S16x516x516_S16x512x512_0_4_3) : (⟨S16x516x516, .f32⟩ : BufTy).Contents (Elt F) → (⟨S16x512x512, .f32⟩ : BufTy).Contents (Elt F)),
    unary main_arg0 main_v99 ((extractStridedSlice S16x1x512x512 ![0, 19, 0, 0] · slices_S16x25x512x512_S16x1x512x512_0_19_0_0) : (⟨S16x25x512x512, .f32⟩ : BufTy).Contents (Elt F) → (⟨S16x1x512x512, .f32⟩ : BufTy).Contents (Elt F)),
    reshape main_v99 main_v100 rfl shapeCasts_S16x1x512x512_S16x512x512,
    binary main_v100 main_v98 main_v101 (mulf : (⟨S16x512x512, .f32⟩ : BufTy).Contents (Elt F) → (⟨S16x512x512, .f32⟩ : BufTy).Contents (Elt F) → (⟨S16x512x512, .f32⟩ : BufTy).Contents (Elt F)),
    binary main_v97 main_v101 main_v102 (addf : (⟨S16x512x512, .f32⟩ : BufTy).Contents (Elt F) → (⟨S16x512x512, .f32⟩ : BufTy).Contents (Elt F) → (⟨S16x512x512, .f32⟩ : BufTy).Contents (Elt F)) ]

/-- Tap 20: the window 0 rows down and 4 columns right, plane 20 of the weights, their product added. -/
abbrev tap20 : List (HloOp τ sig (Elt F)) :=
  [ unary main_v1 main_v103 ((extractStridedSlice S16x512x512 ![0, 0, 4] · slices_S16x516x516_S16x512x512_0_0_4) : (⟨S16x516x516, .f32⟩ : BufTy).Contents (Elt F) → (⟨S16x512x512, .f32⟩ : BufTy).Contents (Elt F)),
    unary main_arg0 main_v104 ((extractStridedSlice S16x1x512x512 ![0, 20, 0, 0] · slices_S16x25x512x512_S16x1x512x512_0_20_0_0) : (⟨S16x25x512x512, .f32⟩ : BufTy).Contents (Elt F) → (⟨S16x1x512x512, .f32⟩ : BufTy).Contents (Elt F)),
    reshape main_v104 main_v105 rfl shapeCasts_S16x1x512x512_S16x512x512,
    binary main_v105 main_v103 main_v106 (mulf : (⟨S16x512x512, .f32⟩ : BufTy).Contents (Elt F) → (⟨S16x512x512, .f32⟩ : BufTy).Contents (Elt F) → (⟨S16x512x512, .f32⟩ : BufTy).Contents (Elt F)),
    binary main_v102 main_v106 main_v107 (addf : (⟨S16x512x512, .f32⟩ : BufTy).Contents (Elt F) → (⟨S16x512x512, .f32⟩ : BufTy).Contents (Elt F) → (⟨S16x512x512, .f32⟩ : BufTy).Contents (Elt F)) ]

/-- Tap 21: the window 1 rows down and 4 columns right, plane 21 of the weights, their product added. -/
abbrev tap21 : List (HloOp τ sig (Elt F)) :=
  [ unary main_v1 main_v108 ((extractStridedSlice S16x512x512 ![0, 1, 4] · slices_S16x516x516_S16x512x512_0_1_4) : (⟨S16x516x516, .f32⟩ : BufTy).Contents (Elt F) → (⟨S16x512x512, .f32⟩ : BufTy).Contents (Elt F)),
    unary main_arg0 main_v109 ((extractStridedSlice S16x1x512x512 ![0, 21, 0, 0] · slices_S16x25x512x512_S16x1x512x512_0_21_0_0) : (⟨S16x25x512x512, .f32⟩ : BufTy).Contents (Elt F) → (⟨S16x1x512x512, .f32⟩ : BufTy).Contents (Elt F)),
    reshape main_v109 main_v110 rfl shapeCasts_S16x1x512x512_S16x512x512,
    binary main_v110 main_v108 main_v111 (mulf : (⟨S16x512x512, .f32⟩ : BufTy).Contents (Elt F) → (⟨S16x512x512, .f32⟩ : BufTy).Contents (Elt F) → (⟨S16x512x512, .f32⟩ : BufTy).Contents (Elt F)),
    binary main_v107 main_v111 main_v112 (addf : (⟨S16x512x512, .f32⟩ : BufTy).Contents (Elt F) → (⟨S16x512x512, .f32⟩ : BufTy).Contents (Elt F) → (⟨S16x512x512, .f32⟩ : BufTy).Contents (Elt F)) ]

/-- Tap 22: the window 2 rows down and 4 columns right, plane 22 of the weights, their product added. -/
abbrev tap22 : List (HloOp τ sig (Elt F)) :=
  [ unary main_v1 main_v113 ((extractStridedSlice S16x512x512 ![0, 2, 4] · slices_S16x516x516_S16x512x512_0_2_4) : (⟨S16x516x516, .f32⟩ : BufTy).Contents (Elt F) → (⟨S16x512x512, .f32⟩ : BufTy).Contents (Elt F)),
    unary main_arg0 main_v114 ((extractStridedSlice S16x1x512x512 ![0, 22, 0, 0] · slices_S16x25x512x512_S16x1x512x512_0_22_0_0) : (⟨S16x25x512x512, .f32⟩ : BufTy).Contents (Elt F) → (⟨S16x1x512x512, .f32⟩ : BufTy).Contents (Elt F)),
    reshape main_v114 main_v115 rfl shapeCasts_S16x1x512x512_S16x512x512,
    binary main_v115 main_v113 main_v116 (mulf : (⟨S16x512x512, .f32⟩ : BufTy).Contents (Elt F) → (⟨S16x512x512, .f32⟩ : BufTy).Contents (Elt F) → (⟨S16x512x512, .f32⟩ : BufTy).Contents (Elt F)),
    binary main_v112 main_v116 main_v117 (addf : (⟨S16x512x512, .f32⟩ : BufTy).Contents (Elt F) → (⟨S16x512x512, .f32⟩ : BufTy).Contents (Elt F) → (⟨S16x512x512, .f32⟩ : BufTy).Contents (Elt F)) ]

/-- Tap 23: the window 3 rows down and 4 columns right, plane 23 of the weights, their product added. -/
abbrev tap23 : List (HloOp τ sig (Elt F)) :=
  [ unary main_v1 main_v118 ((extractStridedSlice S16x512x512 ![0, 3, 4] · slices_S16x516x516_S16x512x512_0_3_4) : (⟨S16x516x516, .f32⟩ : BufTy).Contents (Elt F) → (⟨S16x512x512, .f32⟩ : BufTy).Contents (Elt F)),
    unary main_arg0 main_v119 ((extractStridedSlice S16x1x512x512 ![0, 23, 0, 0] · slices_S16x25x512x512_S16x1x512x512_0_23_0_0) : (⟨S16x25x512x512, .f32⟩ : BufTy).Contents (Elt F) → (⟨S16x1x512x512, .f32⟩ : BufTy).Contents (Elt F)),
    reshape main_v119 main_v120 rfl shapeCasts_S16x1x512x512_S16x512x512,
    binary main_v120 main_v118 main_v121 (mulf : (⟨S16x512x512, .f32⟩ : BufTy).Contents (Elt F) → (⟨S16x512x512, .f32⟩ : BufTy).Contents (Elt F) → (⟨S16x512x512, .f32⟩ : BufTy).Contents (Elt F)),
    binary main_v117 main_v121 main_v122 (addf : (⟨S16x512x512, .f32⟩ : BufTy).Contents (Elt F) → (⟨S16x512x512, .f32⟩ : BufTy).Contents (Elt F) → (⟨S16x512x512, .f32⟩ : BufTy).Contents (Elt F)) ]

/-- Tap 24: the window 4 rows down and 4 columns right, plane 24 of the weights, their product added. -/
abbrev tap24 : List (HloOp τ sig (Elt F)) :=
  [ unary main_v1 main_v123 ((extractStridedSlice S16x512x512 ![0, 4, 4] · slices_S16x516x516_S16x512x512_0_4_4) : (⟨S16x516x516, .f32⟩ : BufTy).Contents (Elt F) → (⟨S16x512x512, .f32⟩ : BufTy).Contents (Elt F)),
    unary main_arg0 main_v124 ((extractStridedSlice S16x1x512x512 ![0, 24, 0, 0] · slices_S16x25x512x512_S16x1x512x512_0_24_0_0) : (⟨S16x25x512x512, .f32⟩ : BufTy).Contents (Elt F) → (⟨S16x1x512x512, .f32⟩ : BufTy).Contents (Elt F)),
    reshape main_v124 main_v125 rfl shapeCasts_S16x1x512x512_S16x512x512,
    binary main_v125 main_v123 main_v126 (mulf : (⟨S16x512x512, .f32⟩ : BufTy).Contents (Elt F) → (⟨S16x512x512, .f32⟩ : BufTy).Contents (Elt F) → (⟨S16x512x512, .f32⟩ : BufTy).Contents (Elt F)),
    binary main_v122 main_v126 main_v127 (addf : (⟨S16x512x512, .f32⟩ : BufTy).Contents (Elt F) → (⟨S16x512x512, .f32⟩ : BufTy).Contents (Elt F) → (⟨S16x512x512, .f32⟩ : BufTy).Contents (Elt F)) ]

/-- The leading unit axis. -/
abbrev fin : List (HloOp τ sig (Elt F)) :=
  [ unary main_v127 main_v128 (broadcastInDim S1x16x512x512 ![1, 2, 3] bcast_S16x512x512_S1x16x512x512_1_2_3 : (⟨S16x512x512, .f32⟩ : BufTy).Contents (Elt F) → (⟨S1x16x512x512, .f32⟩ : BufTy).Contents (Elt F)) ]

/-- The operations up to and including tap `n`. -/
abbrev upto0 : List (HloOp τ sig (Elt F)) := pre ++ tap0
abbrev upto1 : List (HloOp τ sig (Elt F)) := upto0 ++ tap1
abbrev upto2 : List (HloOp τ sig (Elt F)) := upto1 ++ tap2
abbrev upto3 : List (HloOp τ sig (Elt F)) := upto2 ++ tap3
abbrev upto4 : List (HloOp τ sig (Elt F)) := upto3 ++ tap4
abbrev upto5 : List (HloOp τ sig (Elt F)) := upto4 ++ tap5
abbrev upto6 : List (HloOp τ sig (Elt F)) := upto5 ++ tap6
abbrev upto7 : List (HloOp τ sig (Elt F)) := upto6 ++ tap7
abbrev upto8 : List (HloOp τ sig (Elt F)) := upto7 ++ tap8
abbrev upto9 : List (HloOp τ sig (Elt F)) := upto8 ++ tap9
abbrev upto10 : List (HloOp τ sig (Elt F)) := upto9 ++ tap10
abbrev upto11 : List (HloOp τ sig (Elt F)) := upto10 ++ tap11
abbrev upto12 : List (HloOp τ sig (Elt F)) := upto11 ++ tap12
abbrev upto13 : List (HloOp τ sig (Elt F)) := upto12 ++ tap13
abbrev upto14 : List (HloOp τ sig (Elt F)) := upto13 ++ tap14
abbrev upto15 : List (HloOp τ sig (Elt F)) := upto14 ++ tap15
abbrev upto16 : List (HloOp τ sig (Elt F)) := upto15 ++ tap16
abbrev upto17 : List (HloOp τ sig (Elt F)) := upto16 ++ tap17
abbrev upto18 : List (HloOp τ sig (Elt F)) := upto17 ++ tap18
abbrev upto19 : List (HloOp τ sig (Elt F)) := upto18 ++ tap19
abbrev upto20 : List (HloOp τ sig (Elt F)) := upto19 ++ tap20
abbrev upto21 : List (HloOp τ sig (Elt F)) := upto20 ++ tap21
abbrev upto22 : List (HloOp τ sig (Elt F)) := upto21 ++ tap22
abbrev upto23 : List (HloOp τ sig (Elt F)) := upto22 ++ tap23
abbrev upto24 : List (HloOp τ sig (Elt F)) := upto23 ++ tap24

/-- The whole program's operations. -/
abbrev ops : List (HloOp τ sig (Elt F)) := upto24 ++ fin

/-- A line run after another is their concatenation's run. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

end Cert.ReferenceIdeal.Hand

end
-- ==== Proof.RefEval.lean ====
/-
  The reference's fold, evaluated tap by tap.

  After the first six operations the buffers hold the zero-padded image and a zero total; each tap's five
  operations read only the weights, the padded image and the previous total, and leave the next total; the last
  operation adds the leading unit axis.  The arguments are never written.  So the result buffer ends at the last
  stage's value of the launch contents of the two arguments.
-/
import proofs.«151069_j76373108457968_2_alg».proof.Proof.RefChunks
import proofs.«151069_j76373108457968_2_alg».proof.Proof.RefStages

noncomputable section

namespace Cert.ReferenceIdeal.Hand

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- After the preparation: the arguments as launched, the padded image, the zero total. -/
theorem st_pre (V : Valuation τ sig (Elt F)) :
    after pre V (Proc.devRef .tc main_arg0) = V (Proc.devRef .tc main_arg0)
    ∧ after pre V (Proc.devRef .tc main_arg1) = V (Proc.devRef .tc main_arg1)
    ∧ after pre V (Proc.devRef .tc main_v1) = val_main_v1 (F := F) (V (Proc.devRef .tc main_arg1))
    ∧ after pre V (Proc.devRef .tc main_v2) = val_main_v2 (F := F) := by
  refine ⟨?_, ?_, ?_, ?_⟩
  · after_results
  · after_results
  · after_results
    rfl
  · after_results
    rfl

/-- After tap 0: the total of taps 0–0. -/
theorem st_0 (V : Valuation τ sig (Elt F)) :
    after upto0 V (Proc.devRef .tc main_arg0) = V (Proc.devRef .tc main_arg0)
    ∧ after upto0 V (Proc.devRef .tc main_arg1) = V (Proc.devRef .tc main_arg1)
    ∧ after upto0 V (Proc.devRef .tc main_v1) = val_main_v1 (F := F) (V (Proc.devRef .tc main_arg1))
    ∧ after upto0 V (Proc.devRef .tc main_v7) = val_main_v7 (F := F) (V (Proc.devRef .tc main_arg0)) (V (Proc.devRef .tc main_arg1)) := by
  obtain ⟨h0, h1, h2, h3⟩ := st_pre V
  rw [show (upto0 : List (HloOp τ sig (Elt F))) = pre ++ tap0 from rfl, after_append]
  generalize after pre V = W at h0 h1 h2 h3 ⊢
  refine ⟨?_, ?_, ?_, ?_⟩
  · rw [← h0]; after_results
  · rw [← h1]; after_results
  · rw [← h2]; after_results
  · after_results
    rw [h0, h2, h3]
    rfl

/-- After tap 1: the total of taps 0–1. -/
theorem st_1 (V : Valuation τ sig (Elt F)) :
    after upto1 V (Proc.devRef .tc main_arg0) = V (Proc.devRef .tc main_arg0)
    ∧ after upto1 V (Proc.devRef .tc main_arg1) = V (Proc.devRef .tc main_arg1)
    ∧ after upto1 V (Proc.devRef .tc main_v1) = val_main_v1 (F := F) (V (Proc.devRef .tc main_arg1))
    ∧ after upto1 V (Proc.devRef .tc main_v12) = val_main_v12 (F := F) (V (Proc.devRef .tc main_arg0)) (V (Proc.devRef .tc main_arg1)) := by
  obtain ⟨h0, h1, h2, h3⟩ := st_0 V
  rw [show (upto1 : List (HloOp τ sig (Elt F))) = upto0 ++ tap1 from rfl, after_append]
  generalize after upto0 V = W at h0 h1 h2 h3 ⊢
  refine ⟨?_, ?_, ?_, ?_⟩
  · rw [← h0]; after_results
  · rw [← h1]; after_results
  · rw [← h2]; after_results
  · after_results
    rw [h0, h2, h3]
    rfl

/-- After tap 2: the total of taps 0–2. -/
theorem st_2 (V : Valuation τ sig (Elt F)) :
    after upto2 V (Proc.devRef .tc main_arg0) = V (Proc.devRef .tc main_arg0)
    ∧ after upto2 V (Proc.devRef .tc main_arg1) = V (Proc.devRef .tc main_arg1)
    ∧ after upto2 V (Proc.devRef .tc main_v1) = val_main_v1 (F := F) (V (Proc.devRef .tc main_arg1))
    ∧ after upto2 V (Proc.devRef .tc main_v17) = val_main_v17 (F := F) (V (Proc.devRef .tc main_arg0)) (V (Proc.devRef .tc main_arg1)) := by
  obtain ⟨h0, h1, h2, h3⟩ := st_1 V
  rw [show (upto2 : List (HloOp τ sig (Elt F))) = upto1 ++ tap2 from rfl, after_append]
  generalize after upto1 V = W at h0 h1 h2 h3 ⊢
  refine ⟨?_, ?_, ?_, ?_⟩
  · rw [← h0]; after_results
  · rw [← h1]; after_results
  · rw [← h2]; after_results
  · after_results
    rw [h0, h2, h3]
    rfl

/-- After tap 3: the total of taps 0–3. -/
theorem st_3 (V : Valuation τ sig (Elt F)) :
    after upto3 V (Proc.devRef .tc main_arg0) = V (Proc.devRef .tc main_arg0)
    ∧ after upto3 V (Proc.devRef .tc main_arg1) = V (Proc.devRef .tc main_arg1)
    ∧ after upto3 V (Proc.devRef .tc main_v1) = val_main_v1 (F := F) (V (Proc.devRef .tc main_arg1))
    ∧ after upto3 V (Proc.devRef .tc main_v22) = val_main_v22 (F := F) (V (Proc.devRef .tc main_arg0)) (V (Proc.devRef .tc main_arg1)) := by
  obtain ⟨h0, h1, h2, h3⟩ := st_2 V
  rw [show (upto3 : List (HloOp τ sig (Elt F))) = upto2 ++ tap3 from rfl, after_append]
  generalize after upto2 V = W at h0 h1 h2 h3 ⊢
  refine ⟨?_, ?_, ?_, ?_⟩
  · rw [← h0]; after_results
  · rw [← h1]; after_results
  · rw [← h2]; after_results
  · after_results
    rw [h0, h2, h3]
    rfl

/-- After tap 4: the total of taps 0–4. -/
theorem st_4 (V : Valuation τ sig (Elt F)) :
    after upto4 V (Proc.devRef .tc main_arg0) = V (Proc.devRef .tc main_arg0)
    ∧ after upto4 V (Proc.devRef .tc main_arg1) = V (Proc.devRef .tc main_arg1)
    ∧ after upto4 V (Proc.devRef .tc main_v1) = val_main_v1 (F := F) (V (Proc.devRef .tc main_arg1))
    ∧ after upto4 V (Proc.devRef .tc main_v27) = val_main_v27 (F := F) (V (Proc.devRef .tc main_arg0)) (V (Proc.devRef .tc main_arg1)) := by
  obtain ⟨h0, h1, h2, h3⟩ := st_3 V
  rw [show (upto4 : List (HloOp τ sig (Elt F))) = upto3 ++ tap4 from rfl, after_append]
  generalize after upto3 V = W at h0 h1 h2 h3 ⊢
  refine ⟨?_, ?_, ?_, ?_⟩
  · rw [← h0]; after_results
  · rw [← h1]; after_results
  · rw [← h2]; after_results
  · after_results
    rw [h0, h2, h3]
    rfl

/-- After tap 5: the total of taps 0–5. -/
theorem st_5 (V : Valuation τ sig (Elt F)) :
    after upto5 V (Proc.devRef .tc main_arg0) = V (Proc.devRef .tc main_arg0)
    ∧ after upto5 V (Proc.devRef .tc main_arg1) = V (Proc.devRef .tc main_arg1)
    ∧ after upto5 V (Proc.devRef .tc main_v1) = val_main_v1 (F := F) (V (Proc.devRef .tc main_arg1))
    ∧ after upto5 V (Proc.devRef .tc main_v32) = val_main_v32 (F := F) (V (Proc.devRef .tc main_arg0)) (V (Proc.devRef .tc main_arg1)) := by
  obtain ⟨h0, h1, h2, h3⟩ := st_4 V
  rw [show (upto5 : List (HloOp τ sig (Elt F))) = upto4 ++ tap5 from rfl, after_append]
  generalize after upto4 V = W at h0 h1 h2 h3 ⊢
  refine ⟨?_, ?_, ?_, ?_⟩
  · rw [← h0]; after_results
  · rw [← h1]; after_results
  · rw [← h2]; after_results
  · after_results
    rw [h0, h2, h3]
    rfl

/-- After tap 6: the total of taps 0–6. -/
theorem st_6 (V : Valuation τ sig (Elt F)) :
    after upto6 V (Proc.devRef .tc main_arg0) = V (Proc.devRef .tc main_arg0)
    ∧ after upto6 V (Proc.devRef .tc main_arg1) = V (Proc.devRef .tc main_arg1)
    ∧ after upto6 V (Proc.devRef .tc main_v1) = val_main_v1 (F := F) (V (Proc.devRef .tc main_arg1))
    ∧ after upto6 V (Proc.devRef .tc main_v37) = val_main_v37 (F := F) (V (Proc.devRef .tc main_arg0)) (V (Proc.devRef .tc main_arg1)) := by
  obtain ⟨h0, h1, h2, h3⟩ := st_5 V
  rw [show (upto6 : List (HloOp τ sig (Elt F))) = upto5 ++ tap6 from rfl, after_append]
  generalize after upto5 V = W at h0 h1 h2 h3 ⊢
  refine ⟨?_, ?_, ?_, ?_⟩
  · rw [← h0]; after_results
  · rw [← h1]; after_results
  · rw [← h2]; after_results
  · after_results
    rw [h0, h2, h3]
    rfl

/-- After tap 7: the total of taps 0–7. -/
theorem st_7 (V : Valuation τ sig (Elt F)) :
    after upto7 V (Proc.devRef .tc main_arg0) = V (Proc.devRef .tc main_arg0)
    ∧ after upto7 V (Proc.devRef .tc main_arg1) = V (Proc.devRef .tc main_arg1)
    ∧ after upto7 V (Proc.devRef .tc main_v1) = val_main_v1 (F := F) (V (Proc.devRef .tc main_arg1))
    ∧ after upto7 V (Proc.devRef .tc main_v42) = val_main_v42 (F := F) (V (Proc.devRef .tc main_arg0)) (V (Proc.devRef .tc main_arg1)) := by
  obtain ⟨h0, h1, h2, h3⟩ := st_6 V
  rw [show (upto7 : List (HloOp τ sig (Elt F))) = upto6 ++ tap7 from rfl, after_append]
  generalize after upto6 V = W at h0 h1 h2 h3 ⊢
  refine ⟨?_, ?_, ?_, ?_⟩
  · rw [← h0]; after_results
  · rw [← h1]; after_results
  · rw [← h2]; after_results
  · after_results
    rw [h0, h2, h3]
    rfl

/-- After tap 8: the total of taps 0–8. -/
theorem st_8 (V : Valuation τ sig (Elt F)) :
    after upto8 V (Proc.devRef .tc main_arg0) = V (Proc.devRef .tc main_arg0)
    ∧ after upto8 V (Proc.devRef .tc main_arg1) = V (Proc.devRef .tc main_arg1)
    ∧ after upto8 V (Proc.devRef .tc main_v1) = val_main_v1 (F := F) (V (Proc.devRef .tc main_arg1))
    ∧ after upto8 V (Proc.devRef .tc main_v47) = val_main_v47 (F := F) (V (Proc.devRef .tc main_arg0)) (V (Proc.devRef .tc main_arg1)) := by
  obtain ⟨h0, h1, h2, h3⟩ := st_7 V
  rw [show (upto8 : List (HloOp τ sig (Elt F))) = upto7 ++ tap8 from rfl, after_append]
  generalize after upto7 V = W at h0 h1 h2 h3 ⊢
  refine ⟨?_, ?_, ?_, ?_⟩
  · rw [← h0]; after_results
  · rw [← h1]; after_results
  · rw [← h2]; after_results
  · after_results
    rw [h0, h2, h3]
    rfl

/-- After tap 9: the total of taps 0–9. -/
theorem st_9 (V : Valuation τ sig (Elt F)) :
    after upto9 V (Proc.devRef .tc main_arg0) = V (Proc.devRef .tc main_arg0)
    ∧ after upto9 V (Proc.devRef .tc main_arg1) = V (Proc.devRef .tc main_arg1)
    ∧ after upto9 V (Proc.devRef .tc main_v1) = val_main_v1 (F := F) (V (Proc.devRef .tc main_arg1))
    ∧ after upto9 V (Proc.devRef .tc main_v52) = val_main_v52 (F := F) (V (Proc.devRef .tc main_arg0)) (V (Proc.devRef .tc main_arg1)) := by
  obtain ⟨h0, h1, h2, h3⟩ := st_8 V
  rw [show (upto9 : List (HloOp τ sig (Elt F))) = upto8 ++ tap9 from rfl, after_append]
  generalize after upto8 V = W at h0 h1 h2 h3 ⊢
  refine ⟨?_, ?_, ?_, ?_⟩
  · rw [← h0]; after_results
  · rw [← h1]; after_results
  · rw [← h2]; after_results
  · after_results
    rw [h0, h2, h3]
    rfl

/-- After tap 10: the total of taps 0–10. -/
theorem st_10 (V : Valuation τ sig (Elt F)) :
    after upto10 V (Proc.devRef .tc main_arg0) = V (Proc.devRef .tc main_arg0)
    ∧ after upto10 V (Proc.devRef .tc main_arg1) = V (Proc.devRef .tc main_arg1)
    ∧ after upto10 V (Proc.devRef .tc main_v1) = val_main_v1 (F := F) (V (Proc.devRef .tc main_arg1))
    ∧ after upto10 V (Proc.devRef .tc main_v57) = val_main_v57 (F := F) (V (Proc.devRef .tc main_arg0)) (V (Proc.devRef .tc main_arg1)) := by
  obtain ⟨h0, h1, h2, h3⟩ := st_9 V
  rw [show (upto10 : List (HloOp τ sig (Elt F))) = upto9 ++ tap10 from rfl, after_append]
  generalize after upto9 V = W at h0 h1 h2 h3 ⊢
  refine ⟨?_, ?_, ?_, ?_⟩
  · rw [← h0]; after_results
  · rw [← h1]; after_results
  · rw [← h2]; after_results
  · after_results
    rw [h0, h2, h3]
    rfl

/-- After tap 11: the total of taps 0–11. -/
theorem st_11 (V : Valuation τ sig (Elt F)) :
    after upto11 V (Proc.devRef .tc main_arg0) = V (Proc.devRef .tc main_arg0)
    ∧ after upto11 V (Proc.devRef .tc main_arg1) = V (Proc.devRef .tc main_arg1)
    ∧ after upto11 V (Proc.devRef .tc main_v1) = val_main_v1 (F := F) (V (Proc.devRef .tc main_arg1))
    ∧ after upto11 V (Proc.devRef .tc main_v62) = val_main_v62 (F := F) (V (Proc.devRef .tc main_arg0)) (V (Proc.devRef .tc main_arg1)) := by
  obtain ⟨h0, h1, h2, h3⟩ := st_10 V
  rw [show (upto11 : List (HloOp τ sig (Elt F))) = upto10 ++ tap11 from rfl, after_append]
  generalize after upto10 V = W at h0 h1 h2 h3 ⊢
  refine ⟨?_, ?_, ?_, ?_⟩
  · rw [← h0]; after_results
  · rw [← h1]; after_results
  · rw [← h2]; after_results
  · after_results
    rw [h0, h2, h3]
    rfl

/-- After tap 12: the total of taps 0–12. -/
theorem st_12 (V : Valuation τ sig (Elt F)) :
    after upto12 V (Proc.devRef .tc main_arg0) = V (Proc.devRef .tc main_arg0)
    ∧ after upto12 V (Proc.devRef .tc main_arg1) = V (Proc.devRef .tc main_arg1)
    ∧ after upto12 V (Proc.devRef .tc main_v1) = val_main_v1 (F := F) (V (Proc.devRef .tc main_arg1))
    ∧ after upto12 V (Proc.devRef .tc main_v67) = val_main_v67 (F := F) (V (Proc.devRef .tc main_arg0)) (V (Proc.devRef .tc main_arg1)) := by
  obtain ⟨h0, h1, h2, h3⟩ := st_11 V
  rw [show (upto12 : List (HloOp τ sig (Elt F))) = upto11 ++ tap12 from rfl, after_append]
  generalize after upto11 V = W at h0 h1 h2 h3 ⊢
  refine ⟨?_, ?_, ?_, ?_⟩
  · rw [← h0]; after_results
  · rw [← h1]; after_results
  · rw [← h2]; after_results
  · after_results
    rw [h0, h2, h3]
    rfl

/-- After tap 13: the total of taps 0–13. -/
theorem st_13 (V : Valuation τ sig (Elt F)) :
    after upto13 V (Proc.devRef .tc main_arg0) = V (Proc.devRef .tc main_arg0)
    ∧ after upto13 V (Proc.devRef .tc main_arg1) = V (Proc.devRef .tc main_arg1)
    ∧ after upto13 V (Proc.devRef .tc main_v1) = val_main_v1 (F := F) (V (Proc.devRef .tc main_arg1))
    ∧ after upto13 V (Proc.devRef .tc main_v72) = val_main_v72 (F := F) (V (Proc.devRef .tc main_arg0)) (V (Proc.devRef .tc main_arg1)) := by
  obtain ⟨h0, h1, h2, h3⟩ := st_12 V
  rw [show (upto13 : List (HloOp τ sig (Elt F))) = upto12 ++ tap13 from rfl, after_append]
  generalize after upto12 V = W at h0 h1 h2 h3 ⊢
  refine ⟨?_, ?_, ?_, ?_⟩
  · rw [← h0]; after_results
  · rw [← h1]; after_results
  · rw [← h2]; after_results
  · after_results
    rw [h0, h2, h3]
    rfl

/-- After tap 14: the total of taps 0–14. -/
theorem st_14 (V : Valuation τ sig (Elt F)) :
    after upto14 V (Proc.devRef .tc main_arg0) = V (Proc.devRef .tc main_arg0)
    ∧ after upto14 V (Proc.devRef .tc main_arg1) = V (Proc.devRef .tc main_arg1)
    ∧ after upto14 V (Proc.devRef .tc main_v1) = val_main_v1 (F := F) (V (Proc.devRef .tc main_arg1))
    ∧ after upto14 V (Proc.devRef .tc main_v77) = val_main_v77 (F := F) (V (Proc.devRef .tc main_arg0)) (V (Proc.devRef .tc main_arg1)) := by
  obtain ⟨h0, h1, h2, h3⟩ := st_13 V
  rw [show (upto14 : List (HloOp τ sig (Elt F))) = upto13 ++ tap14 from rfl, after_append]
  generalize after upto13 V = W at h0 h1 h2 h3 ⊢
  refine ⟨?_, ?_, ?_, ?_⟩
  · rw [← h0]; after_results
  · rw [← h1]; after_results
  · rw [← h2]; after_results
  · after_results
    rw [h0, h2, h3]
    rfl

/-- After tap 15: the total of taps 0–15. -/
theorem st_15 (V : Valuation τ sig (Elt F)) :
    after upto15 V (Proc.devRef .tc main_arg0) = V (Proc.devRef .tc main_arg0)
    ∧ after upto15 V (Proc.devRef .tc main_arg1) = V (Proc.devRef .tc main_arg1)
    ∧ after upto15 V (Proc.devRef .tc main_v1) = val_main_v1 (F := F) (V (Proc.devRef .tc main_arg1))
    ∧ after upto15 V (Proc.devRef .tc main_v82) = val_main_v82 (F := F) (V (Proc.devRef .tc main_arg0)) (V (Proc.devRef .tc main_arg1)) := by
  obtain ⟨h0, h1, h2, h3⟩ := st_14 V
  rw [show (upto15 : List (HloOp τ sig (Elt F))) = upto14 ++ tap15 from rfl, after_append]
  generalize after upto14 V = W at h0 h1 h2 h3 ⊢
  refine ⟨?_, ?_, ?_, ?_⟩
  · rw [← h0]; after_results
  · rw [← h1]; after_results
  · rw [← h2]; after_results
  · after_results
    rw [h0, h2, h3]
    rfl

/-- After tap 16: the total of taps 0–16. -/
theorem st_16 (V : Valuation τ sig (Elt F)) :
    after upto16 V (Proc.devRef .tc main_arg0) = V (Proc.devRef .tc main_arg0)
    ∧ after upto16 V (Proc.devRef .tc main_arg1) = V (Proc.devRef .tc main_arg1)
    ∧ after upto16 V (Proc.devRef .tc main_v1) = val_main_v1 (F := F) (V (Proc.devRef .tc main_arg1))
    ∧ after upto16 V (Proc.devRef .tc main_v87) = val_main_v87 (F := F) (V (Proc.devRef .tc main_arg0)) (V (Proc.devRef .tc main_arg1)) := by
  obtain ⟨h0, h1, h2, h3⟩ := st_15 V
  rw [show (upto16 : List (HloOp τ sig (Elt F))) = upto15 ++ tap16 from rfl, after_append]
  generalize after upto15 V = W at h0 h1 h2 h3 ⊢
  refine ⟨?_, ?_, ?_, ?_⟩
  · rw [← h0]; after_results
  · rw [← h1]; after_results
  · rw [← h2]; after_results
  · after_results
    rw [h0, h2, h3]
    rfl

/-- After tap 17: the total of taps 0–17. -/
theorem st_17 (V : Valuation τ sig (Elt F)) :
    after upto17 V (Proc.devRef .tc main_arg0) = V (Proc.devRef .tc main_arg0)
    ∧ after upto17 V (Proc.devRef .tc main_arg1) = V (Proc.devRef .tc main_arg1)
    ∧ after upto17 V (Proc.devRef .tc main_v1) = val_main_v1 (F := F) (V (Proc.devRef .tc main_arg1))
    ∧ after upto17 V (Proc.devRef .tc main_v92) = val_main_v92 (F := F) (V (Proc.devRef .tc main_arg0)) (V (Proc.devRef .tc main_arg1)) := by
  obtain ⟨h0, h1, h2, h3⟩ := st_16 V
  rw [show (upto17 : List (HloOp τ sig (Elt F))) = upto16 ++ tap17 from rfl, after_append]
  generalize after upto16 V = W at h0 h1 h2 h3 ⊢
  refine ⟨?_, ?_, ?_, ?_⟩
  · rw [← h0]; after_results
  · rw [← h1]; after_results
  · rw [← h2]; after_results
  · after_results
    rw [h0, h2, h3]
    rfl

/-- After tap 18: the total of taps 0–18. -/
theorem st_18 (V : Valuation τ sig (Elt F)) :
    after upto18 V (Proc.devRef .tc main_arg0) = V (Proc.devRef .tc main_arg0)
    ∧ after upto18 V (Proc.devRef .tc main_arg1) = V (Proc.devRef .tc main_arg1)
    ∧ after upto18 V (Proc.devRef .tc main_v1) = val_main_v1 (F := F) (V (Proc.devRef .tc main_arg1))
    ∧ after upto18 V (Proc.devRef .tc main_v97) = val_main_v97 (F := F) (V (Proc.devRef .tc main_arg0)) (V (Proc.devRef .tc main_arg1)) := by
  obtain ⟨h0, h1, h2, h3⟩ := st_17 V
  rw [show (upto18 : List (HloOp τ sig (Elt F))) = upto17 ++ tap18 from rfl, after_append]
  generalize after upto17 V = W at h0 h1 h2 h3 ⊢
  refine ⟨?_, ?_, ?_, ?_⟩
  · rw [← h0]; after_results
  · rw [← h1]; after_results
  · rw [← h2]; after_results
  · after_results
    rw [h0, h2, h3]
    rfl

/-- After tap 19: the total of taps 0–19. -/
theorem st_19 (V : Valuation τ sig (Elt F)) :
    after upto19 V (Proc.devRef .tc main_arg0) = V (Proc.devRef .tc main_arg0)
    ∧ after upto19 V (Proc.devRef .tc main_arg1) = V (Proc.devRef .tc main_arg1)
    ∧ after upto19 V (Proc.devRef .tc main_v1) = val_main_v1 (F := F) (V (Proc.devRef .tc main_arg1))
    ∧ after upto19 V (Proc.devRef .tc main_v102) = val_main_v102 (F := F) (V (Proc.devRef .tc main_arg0)) (V (Proc.devRef .tc main_arg1)) := by
  obtain ⟨h0, h1, h2, h3⟩ := st_18 V
  rw [show (upto19 : List (HloOp τ sig (Elt F))) = upto18 ++ tap19 from rfl, after_append]
  generalize after upto18 V = W at h0 h1 h2 h3 ⊢
  refine ⟨?_, ?_, ?_, ?_⟩
  · rw [← h0]; after_results
  · rw [← h1]; after_results
  · rw [← h2]; after_results
  · after_results
    rw [h0, h2, h3]
    rfl

/-- After tap 20: the total of taps 0–20. -/
theorem st_20 (V : Valuation τ sig (Elt F)) :
    after upto20 V (Proc.devRef .tc main_arg0) = V (Proc.devRef .tc main_arg0)
    ∧ after upto20 V (Proc.devRef .tc main_arg1) = V (Proc.devRef .tc main_arg1)
    ∧ after upto20 V (Proc.devRef .tc main_v1) = val_main_v1 (F := F) (V (Proc.devRef .tc main_arg1))
    ∧ after upto20 V (Proc.devRef .tc main_v107) = val_main_v107 (F := F) (V (Proc.devRef .tc main_arg0)) (V (Proc.devRef .tc main_arg1)) := by
  obtain ⟨h0, h1, h2, h3⟩ := st_19 V
  rw [show (upto20 : List (HloOp τ sig (Elt F))) = upto19 ++ tap20 from rfl, after_append]
  generalize after upto19 V = W at h0 h1 h2 h3 ⊢
  refine ⟨?_, ?_, ?_, ?_⟩
  · rw [← h0]; after_results
  · rw [← h1]; after_results
  · rw [← h2]; after_results
  · after_results
    rw [h0, h2, h3]
    rfl

/-- After tap 21: the total of taps 0–21. -/
theorem st_21 (V : Valuation τ sig (Elt F)) :
    after upto21 V (Proc.devRef .tc main_arg0) = V (Proc.devRef .tc main_arg0)
    ∧ after upto21 V (Proc.devRef .tc main_arg1) = V (Proc.devRef .tc main_arg1)
    ∧ after upto21 V (Proc.devRef .tc main_v1) = val_main_v1 (F := F) (V (Proc.devRef .tc main_arg1))
    ∧ after upto21 V (Proc.devRef .tc main_v112) = val_main_v112 (F := F) (V (Proc.devRef .tc main_arg0)) (V (Proc.devRef .tc main_arg1)) := by
  obtain ⟨h0, h1, h2, h3⟩ := st_20 V
  rw [show (upto21 : List (HloOp τ sig (Elt F))) = upto20 ++ tap21 from rfl, after_append]
  generalize after upto20 V = W at h0 h1 h2 h3 ⊢
  refine ⟨?_, ?_, ?_, ?_⟩
  · rw [← h0]; after_results
  · rw [← h1]; after_results
  · rw [← h2]; after_results
  · after_results
    rw [h0, h2, h3]
    rfl

/-- After tap 22: the total of taps 0–22. -/
theorem st_22 (V : Valuation τ sig (Elt F)) :
    after upto22 V (Proc.devRef .tc main_arg0) = V (Proc.devRef .tc main_arg0)
    ∧ after upto22 V (Proc.devRef .tc main_arg1) = V (Proc.devRef .tc main_arg1)
    ∧ after upto22 V (Proc.devRef .tc main_v1) = val_main_v1 (F := F) (V (Proc.devRef .tc main_arg1))
    ∧ after upto22 V (Proc.devRef .tc main_v117) = val_main_v117 (F := F) (V (Proc.devRef .tc main_arg0)) (V (Proc.devRef .tc main_arg1)) := by
  obtain ⟨h0, h1, h2, h3⟩ := st_21 V
  rw [show (upto22 : List (HloOp τ sig (Elt F))) = upto21 ++ tap22 from rfl, after_append]
  generalize after upto21 V = W at h0 h1 h2 h3 ⊢
  refine ⟨?_, ?_, ?_, ?_⟩
  · rw [← h0]; after_results
  · rw [← h1]; after_results
  · rw [← h2]; after_results
  · after_results
    rw [h0, h2, h3]
    rfl

/-- After tap 23: the total of taps 0–23. -/
theorem st_23 (V : Valuation τ sig (Elt F)) :
    after upto23 V (Proc.devRef .tc main_arg0) = V (Proc.devRef .tc main_arg0)
    ∧ after upto23 V (Proc.devRef .tc main_arg1) = V (Proc.devRef .tc main_arg1)
    ∧ after upto23 V (Proc.devRef .tc main_v1) = val_main_v1 (F := F) (V (Proc.devRef .tc main_arg1))
    ∧ after upto23 V (Proc.devRef .tc main_v122) = val_main_v122 (F := F) (V (Proc.devRef .tc main_arg0)) (V (Proc.devRef .tc main_arg1)) := by
  obtain ⟨h0, h1, h2, h3⟩ := st_22 V
  rw [show (upto23 : List (HloOp τ sig (Elt F))) = upto22 ++ tap23 from rfl, after_append]
  generalize after upto22 V = W at h0 h1 h2 h3 ⊢
  refine ⟨?_, ?_, ?_, ?_⟩
  · rw [← h0]; after_results
  · rw [← h1]; after_results
  · rw [← h2]; after_results
  · after_results
    rw [h0, h2, h3]
    rfl

/-- After tap 24: the total of taps 0–24. -/
theorem st_24 (V : Valuation τ sig (Elt F)) :
    after upto24 V (Proc.devRef .tc main_arg0) = V (Proc.devRef .tc main_arg0)
    ∧ after upto24 V (Proc.devRef .tc main_arg1) = V (Proc.devRef .tc main_arg1)
    ∧ after upto24 V (Proc.devRef .tc main_v1) = val_main_v1 (F := F) (V (Proc.devRef .tc main_arg1))
    ∧ after upto24 V (Proc.devRef .tc main_v127) = val_main_v127 (F := F) (V (Proc.devRef .tc main_arg0)) (V (Proc.devRef .tc main_arg1)) := by
  obtain ⟨h0, h1, h2, h3⟩ := st_23 V
  rw [show (upto24 : List (HloOp τ sig (Elt F))) = upto23 ++ tap24 from rfl, after_append]
  generalize after upto23 V = W at h0 h1 h2 h3 ⊢
  refine ⟨?_, ?_, ?_, ?_⟩
  · rw [← h0]; after_results
  · rw [← h1]; after_results
  · rw [← h2]; after_results
  · after_results
    rw [h0, h2, h3]
    rfl

/-- The program's result buffer ends at the last stage's value of the two arguments' launch contents. -/
theorem result_eq (V : Valuation τ sig (Elt F)) :
    after ops V (Proc.devRef .tc main_v128) = val_main_v128 (F := F) (V (Proc.devRef .tc main_arg0)) (V (Proc.devRef .tc main_arg1)) := by
  obtain ⟨h0, h1, h2, h3⟩ := st_24 V
  rw [show (ops : List (HloOp τ sig (Elt F))) = upto24 ++ fin from rfl, after_append]
  generalize after upto24 V = W at h0 h1 h2 h3 ⊢
  after_results
  rw [h3]
  rfl

/-- The arguments end as launched. -/
theorem arg0_kept (V : Valuation τ sig (Elt F)) : after ops V (Proc.devRef .tc main_arg0) = V (Proc.devRef .tc main_arg0) := by
  obtain ⟨h0, h1, h2, h3⟩ := st_24 V
  rw [show (ops : List (HloOp τ sig (Elt F))) = upto24 ++ fin from rfl, after_append]
  generalize after upto24 V = W at h0 h1 h2 h3 ⊢
  rw [← h0]; after_results

theorem arg1_kept (V : Valuation τ sig (Elt F)) : after ops V (Proc.devRef .tc main_arg1) = V (Proc.devRef .tc main_arg1) := by
  obtain ⟨h0, h1, h2, h3⟩ := st_24 V
  rw [show (ops : List (HloOp τ sig (Elt F))) = upto24 ++ fin from rfl, after_append]
  generalize after upto24 V = W at h0 h1 h2 h3 ⊢
  rw [← h1]; after_results

end Cert.ReferenceIdeal.Hand

end
-- ==== Proof.RefOps.lean ====
/-
  The reference program is the sequence of its host operations: stated stretch by stretch of the printed text, each
  stretch the concatenation of the taps it holds.  Each operation touches only the program's own buffers and
  allocates nothing, so every execution ends with each buffer at the operations' fold over the launch contents.
-/
import proofs.«151069_j76373108457968_2_alg».proof.Proof.RefChunks
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations as the printed program groups them: three stretches of its text. -/
def stretch0 : List (HloOp τ sig (Elt F)) := pre ++ (tap0 ++ (tap1 ++ (tap2 ++ (tap3 ++ (tap4 ++ (tap5 ++ (tap6 ++ (tap7 ++ (tap8 ++ (tap9 ++ (tap10)))))))))))
def stretch1 : List (HloOp τ sig (Elt F)) := tap11 ++ (tap12 ++ (tap13 ++ (tap14 ++ (tap15 ++ (tap16 ++ (tap17 ++ (tap18 ++ (tap19 ++ (tap20 ++ (tap21 ++ (tap22)))))))))))
def stretch2 : List (HloOp τ sig (Elt F)) := tap23 ++ (tap24 ++ (fin))

/-- The whole program's operations, grouped as printed. -/
def prog : List (HloOp τ sig (Elt F)) := stretch0 ++ (stretch1 ++ stretch2)

set_option maxRecDepth 8192 in
set_option maxHeartbeats 4000000 in
theorem stretch0_eq (d : Dev nD) : main_part0 (F := F) d = seq stretch0 := rfl
set_option maxRecDepth 8192 in
set_option maxHeartbeats 4000000 in
theorem stretch1_eq (d : Dev nD) : main_part1 (F := F) d = seq stretch1 := rfl
set_option maxRecDepth 8192 in
set_option maxHeartbeats 4000000 in
theorem stretch2_eq (d : Dev nD) : main_part2 (F := F) d = seq stretch2 := rfl

/-- The printed program is the sequence of these operations. -/
theorem main_eq (d : Dev nD) : main (F := F) d = seq prog := by
  unfold prog
  rw [seq_append, seq_append, ← stretch0_eq d, ← stretch1_eq d, ← stretch2_eq d]
  rfl

/-- Grouped by stretches or tap by tap, the operations are the same list. -/
theorem prog_eq : (prog : List (HloOp τ sig (Elt F))) = ops := by
  unfold prog stretch0 stretch1 stretch2
  simp only [List.append_assoc]

theorem scopedRefs_eq : (Finset.univ.filter fun b : Ref sig .tc => b.isScoped) = ∅ := by decide
theorem scopedSems_eq : (Finset.univ.filter fun sm : SemLoc sig => sm.isScoped .tc) = ∅ := by decide

/-- An operation that touches only the program's TensorCore buffers and allocates nothing. -/
def Good (op : HloOp τ sig (Elt F)) : Prop := op.bufs ⊆ tcRefs τ sig ∧ op.fresh = ∅

theorem good_pre : ∀ op ∈ (pre : List (HloOp τ sig (Elt F))), Good op :=
  List.forall_iff_forall_mem.mp ⟨⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩⟩
theorem good_tap0 : ∀ op ∈ (tap0 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap1 : ∀ op ∈ (tap1 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap2 : ∀ op ∈ (tap2 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap3 : ∀ op ∈ (tap3 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap4 : ∀ op ∈ (tap4 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap5 : ∀ op ∈ (tap5 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap6 : ∀ op ∈ (tap6 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap7 : ∀ op ∈ (tap7 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap8 : ∀ op ∈ (tap8 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap9 : ∀ op ∈ (tap9 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap10 : ∀ op ∈ (tap10 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap11 : ∀ op ∈ (tap11 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap12 : ∀ op ∈ (tap12 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap13 : ∀ op ∈ (tap13 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap14 : ∀ op ∈ (tap14 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap15 : ∀ op ∈ (tap15 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap16 : ∀ op ∈ (tap16 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap17 : ∀ op ∈ (tap17 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap18 : ∀ op ∈ (tap18 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap19 : ∀ op ∈ (tap19 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap20 : ∀ op ∈ (tap20 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap21 : ∀ op ∈ (tap21 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap22 : ∀ op ∈ (tap22 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap23 : ∀ op ∈ (tap23 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_tap24 : ∀ op ∈ (tap24 : List (HloOp τ sig (Elt F))), Good op :=
  List.forall_iff_forall_mem.mp ⟨⟨unary_bufs_sub .., rfl⟩, ⟨unary_bufs_sub .., rfl⟩, ⟨reshape_bufs_sub .., rfl⟩, ⟨binary_bufs_sub .., rfl⟩, ⟨binary_bufs_sub .., rfl⟩⟩
theorem good_fin : ∀ op ∈ (fin : List (HloOp τ sig (Elt F))), Good op :=
  List.forall_iff_forall_mem.mp ⟨unary_bufs_sub .., rfl⟩

theorem good_stretch0 : ∀ op ∈ (stretch0 : List (HloOp τ sig (Elt F))), Good op :=
  List.forall_mem_append.mpr ⟨good_pre, List.forall_mem_append.mpr ⟨good_tap0, List.forall_mem_append.mpr ⟨good_tap1, List.forall_mem_append.mpr ⟨good_tap2, List.forall_mem_append.mpr ⟨good_tap3, List.forall_mem_append.mpr ⟨good_tap4, List.forall_mem_append.mpr ⟨good_tap5, List.forall_mem_append.mpr ⟨good_tap6, List.forall_mem_append.mpr ⟨good_tap7, List.forall_mem_append.mpr ⟨good_tap8, List.forall_mem_append.mpr ⟨good_tap9, good_tap10⟩⟩⟩⟩⟩⟩⟩⟩⟩⟩⟩
theorem good_stretch1 : ∀ op ∈ (stretch1 : List (HloOp τ sig (Elt F))), Good op :=
  List.forall_mem_append.mpr ⟨good_tap11, List.forall_mem_append.mpr ⟨good_tap12, List.forall_mem_append.mpr ⟨good_tap13, List.forall_mem_append.mpr ⟨good_tap14, List.forall_mem_append.mpr ⟨good_tap15, List.forall_mem_append.mpr ⟨good_tap16, List.forall_mem_append.mpr ⟨good_tap17, List.forall_mem_append.mpr ⟨good_tap18, List.forall_mem_append.mpr ⟨good_tap19, List.forall_mem_append.mpr ⟨good_tap20, List.forall_mem_append.mpr ⟨good_tap21, good_tap22⟩⟩⟩⟩⟩⟩⟩⟩⟩⟩⟩
theorem good_stretch2 : ∀ op ∈ (stretch2 : List (HloOp τ sig (Elt F))), Good op :=
  List.forall_mem_append.mpr ⟨good_tap23, List.forall_mem_append.mpr ⟨good_tap24, good_fin⟩⟩
theorem good_prog : ∀ op ∈ (prog : List (HloOp τ sig (Elt F))), Good op :=
  List.forall_mem_append.mpr ⟨good_stretch0, List.forall_mem_append.mpr ⟨good_stretch1, good_stretch2⟩⟩

set_option maxHeartbeats 4000000 in
/-- Every weakly fair execution of the reference terminates with each buffer at the operations' fold over the
    launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after prog (launchContents m d) (Proc.devRef .tc b) := by
  have hS : ∀ _ : Dev nD, (prog : List (HloOp τ sig (Elt F))).Forall fun op => op.bufs ⊆ tcRefs τ sig :=
    fun _ => List.forall_iff_forall_mem.mpr fun op h => (good_prog op h).1
  have hF : ∀ _ : Dev nD, ∀ op ∈ (prog : List (HloOp τ sig (Elt F))), op.fresh = ∅ := fun _ op h => (good_prog op h).2
  exact run_seq scopedRefs_eq scopedSems_eq defs main (fun _ => prog) main_eq hS m ρ hF

end Cert.ReferenceIdeal.Hand

end
-- ==== Proof.RefRun.lean ====
/-
  The idealized reference's run: every execution terminates, the result buffer ends at the last stage's value
  of the two arguments, and the arguments end as launched.
-/
import proofs.«151069_j76373108457968_2_alg».proof.Proof.RefEval
import proofs.«151069_j76373108457968_2_alg».proof.Proof.RefOps

noncomputable section

namespace Cert.ReferenceIdeal.Hand

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v128)
        = val_main_v128 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v128).trans ((congrArg (fun l => after l (launchContents m c) (Proc.devRef .tc main_v128)) prog_eq).trans
        (result_eq (launchContents m c))),
      (h c main_arg0).trans ((congrArg (fun l => after l (launchContents m c) (Proc.devRef .tc main_arg0)) prog_eq).trans
        (arg0_kept (launchContents m c))),
      (h c main_arg1).trans ((congrArg (fun l => after l (launchContents m c) (Proc.devRef .tc main_arg1)) prog_eq).trans
        (arg1_kept (launchContents m c)))⟩)
    (run_after m ρ)

end Cert.ReferenceIdeal.Hand

end
-- ==== Proof.RefSide.lean ====
/-
  The reference program read at an index: its run composes twenty-five multiply-adds over windows of the
  zero-padded image; this module states what that composition is, entry by entry.

  Tap `n` (`n = 0 … 24`) is five consecutive stages: the window of the padded image starting `n % 5` rows down and
  `n / 5` columns right, plane `n` of the weights, that plane with its unit axis dropped, their product, and the
  running total plus the product.  One lemma over variables (`stage_step`) reads such a multiply-add at a pixel and
  finds the filter's running total one tap further on; it is applied twenty-five times, once per tap, to the stages'
  own shape witnesses.  Both sides are the same left-to-right sum of extended reals, so no law of their arithmetic is
  used.
-/
import proofs.«151069_j76373108457968_2_alg».proof.Defs
import proofs.«151069_j76373108457968_2_alg».proof.Proof.RefStages
import proofs.«151069_j76373108457968_2_alg».proof.Proof.Spec
import Idealize.ShloMosaic.Lib.Pipeline.Value
import Idealize.ShloMosaic.Lib.KernelVsHost
import Idealize.ShloMosaic.Lib.ValueIdx
import Idealize.ShloMosaic.PureOps.Ideal

noncomputable section

namespace Cert.ReferenceIdeal.RefSide

open Cert.ReferenceIdeal Cert.ReferenceIdeal.Gen Cert.ReferenceIdeal.Stages Cert.PerPixel
open Idealize.ShloMosaic Idealize.ShloMosaic.ValueIdx

/-! ## One tap, read at a pixel -/

/-- Plane `n` of the weights, cut out and its unit axis dropped, read at pixel `(h, w)` of image `b`: the weight
    there. -/
theorem plane_apply (n : ℕ) (hn : n < 25) (K : FVec Ideal S16x25x512x512 .f32)
    (hs : S16x25x512x512.Slices ![0, n, 0, 0] S16x1x512x512) (hc : S16x1x512x512.ShapeCasts S16x512x512)
    (b : Fin 16) (h w : Fin 512) :
    shapeCast S16x512x512 (extractStridedSlice S16x1x512x512 ![0, n, 0, 0] K hs) hc (ix3 b h w)
      = K (ix4 b ⟨n, hn⟩ h w) := by
  refine (shapeCast_apply _ hc (ix3 b h w) (ix4 b (0 : Fin 1) h w) ?_).trans ?_
  · rw [Shape.rowMajor_val_four, Shape.rowMajor_val_three]
    show ((b.val * 1 + 0) * 512 + h.val) * 512 + w.val = (b.val * 512 + h.val) * 512 + w.val
    omega
  · exact extractStridedSlice_apply _ K hs _ _ (fun a => match a with
      | ⟨0, _⟩ => by show b.val = 0 + b.val; omega
      | ⟨1, _⟩ => by show n = n + 0; omega
      | ⟨2, _⟩ => by show h.val = 0 + h.val; omega
      | ⟨3, _⟩ => by show w.val = 0 + w.val; omega)

/-- The window of the padded image that starts `kh` rows down and `kw` columns right, read at pixel `(h, w)`:
    the padded image at `(h + kh, w + kw)`. -/
theorem window_apply (kh kw : ℕ) (hkh : kh < 5) (hkw : kw < 5) (P : FVec Ideal S16x516x516 .f32)
    (hs : S16x516x516.Slices ![0, kh, kw] S16x512x512) (b : Fin 16) (h w : Fin 512) :
    extractStridedSlice S16x512x512 ![0, kh, kw] P hs (ix3 b h w)
      = P (ix3 b (⟨h.val + kh, by omega⟩ : Fin 516) (⟨w.val + kw, by omega⟩ : Fin 516)) :=
  extractStridedSlice_apply _ P hs _ _ (fun a => match a with
    | ⟨0, _⟩ => by show b.val = 0 + b.val; omega
    | ⟨1, _⟩ => by show h.val + kh = kh + h.val; omega
    | ⟨2, _⟩ => by show w.val + kw = kw + w.val; omega)

/-- One tap's multiply-add at a pixel: the running total there, plus the weight of plane `n` times the padded image
    `kh` rows down and `kw` columns right. -/
theorem tap_apply (n kh kw : ℕ) (hn : n < 25) (hkh : kh < 5) (hkw : kw < 5)
    (A : FVec Ideal S16x512x512 .f32) (K : FVec Ideal S16x25x512x512 .f32) (P : FVec Ideal S16x516x516 .f32)
    (hs4 : S16x25x512x512.Slices ![0, n, 0, 0] S16x1x512x512) (hc : S16x1x512x512.ShapeCasts S16x512x512)
    (hs3 : S16x516x516.Slices ![0, kh, kw] S16x512x512) (b : Fin 16) (h w : Fin 512) :
    (addf A (mulf (shapeCast S16x512x512 (extractStridedSlice S16x1x512x512 ![0, n, 0, 0] K hs4) hc)
        (extractStridedSlice S16x512x512 ![0, kh, kw] P hs3)) : FVec Ideal S16x512x512 .f32) (ix3 b h w)
      = A (ix3 b h w) + K (ix4 b ⟨n, hn⟩ h w)
          * P (ix3 b (⟨h.val + kh, by omega⟩ : Fin 516) (⟨w.val + kw, by omega⟩ : Fin 516)) := by
  rw [addf_apply, mulf_apply, plane_apply n hn K hs4 hc b h w, window_apply kh kw hkh hkw P hs3 b h w]

/-! ## The padded image, read at an index -/

/-- The image with its unit axis dropped and two rows and columns of the padding value `v` (a zero) added on every
    side, read at padded coordinates `(R, C)`: the image two rows up and two columns left where that is inside it, and
    zero on the border. -/
theorem padded_apply (I : FVec Ideal S16x1x512x512 .f32) (hc : S16x1x512x512.ShapeCasts S16x512x512)
    (v : FVec Ideal S_ .f32) (hp : S16x512x512.Pads (![0, 2, 2] : Fin 3 → Nat) ![0, 2, 2] ![0, 0, 0] S16x516x516)
    (hu : 0 < S_.numel) (hv : v (Shape.Idx.first hu) = 0) (b : Fin 16) (R C : Fin 516) :
    pad S16x516x516 ![0, 2, 2] ![0, 2, 2] ![0, 0, 0] (shapeCast S16x512x512 I hc) v hp hu (ix3 b R C)
      = imgAt I b R.val C.val := by
  unfold imgAt
  by_cases hin : 2 ≤ R.val ∧ R.val < 514 ∧ 2 ≤ C.val ∧ C.val < 514
  · rw [dif_pos hin]
    refine (pad_apply_of_inside _ _ _ _ v hp hu _
      (ix3 b (⟨R.val - 2, by omega⟩ : Fin 512) (⟨C.val - 2, by omega⟩ : Fin 512)) (fun a => match a with
      | ⟨0, _⟩ => by show b.val = 0 + b.val * (0 + 1); omega
      | ⟨1, _⟩ => by show R.val = 2 + (R.val - 2) * (0 + 1); omega
      | ⟨2, _⟩ => by show C.val = 2 + (C.val - 2) * (0 + 1); omega)).trans ?_
    exact shapeCast_apply I hc _ _ (by
      rw [Shape.rowMajor_val_four, Shape.rowMajor_val_three]
      show ((b.val * 1 + 0) * 512 + (R.val - 2)) * 512 + (C.val - 2)
        = (b.val * 512 + (R.val - 2)) * 512 + (C.val - 2)
      omega)
  · rw [dif_neg hin]
    by_cases hR : 2 ≤ R.val ∧ R.val < 514
    · refine (pad_apply_of_not_inside _ _ _ _ v hp hu _ (2 : Fin 3) ?_).trans hv
      show ¬(2 ≤ C.val ∧ (C.val - 2) % (0 + 1) = 0 ∧ (C.val - 2) / (0 + 1) < 512)
      omega
    · refine (pad_apply_of_not_inside _ _ _ _ v hp hu _ (1 : Fin 3) ?_).trans hv
      show ¬(2 ≤ R.val ∧ (R.val - 2) % (0 + 1) = 0 ∧ (R.val - 2) / (0 + 1) < 512)
      omega

/-! ## One tap carries the running total one step on -/

/-- The weight of a tap below twenty-five is the weight plane's entry. -/
theorem kAt_of_lt (K : FVec Ideal S16x25x512x512 .f32) (b : Fin 16) (h w : Fin 512) (n : ℕ) (hn : n < 25) :
    kAt K b h w n = K (ix4 b ⟨n, hn⟩ h w) := by
  unfold kAt
  rw [dif_pos hn]

/-- If the array `A` holds the total of the first `n` taps at a pixel, and `P` is the padded image, then `A` plus
    tap `n`'s product — weight plane `n` times the window of `P` starting `n % 5` rows down and `n / 5` columns
    right — holds the total of the first `n + 1` taps there. -/
theorem stage_step (n kh kw : ℕ) (hn : n < 25) (hkh : kh = n % 5) (hkw : kw = n / 5)
    (A : FVec Ideal S16x512x512 .f32) (K : FVec Ideal S16x25x512x512 .f32) (I : FVec Ideal S16x1x512x512 .f32)
    (P : FVec Ideal S16x516x516 .f32)
    (hs4 : S16x25x512x512.Slices ![0, n, 0, 0] S16x1x512x512) (hc : S16x1x512x512.ShapeCasts S16x512x512)
    (hs3 : S16x516x516.Slices ![0, kh, kw] S16x512x512) (b : Fin 16) (h w : Fin 512)
    (hP : ∀ R C : Fin 516, P (ix3 b R C) = imgAt I b R.val C.val)
    (hA : A (ix3 b h w) = acc (kAt K b h w) (fun kh kw => imgAt I b (h.val + kh) (w.val + kw)) n) :
    (addf A (mulf (shapeCast S16x512x512 (extractStridedSlice S16x1x512x512 ![0, n, 0, 0] K hs4) hc)
        (extractStridedSlice S16x512x512 ![0, kh, kw] P hs3)) : FVec Ideal S16x512x512 .f32) (ix3 b h w)
      = acc (kAt K b h w) (fun kh kw => imgAt I b (h.val + kh) (w.val + kw)) (n + 1) := by
  subst hkh hkw
  rw [tap_apply n (n % 5) (n / 5) hn (Nat.mod_lt _ (by norm_num)) (by omega) A K P hs4 hc hs3 b h w, hA, hP,
    acc_succ, kAt_of_lt K b h w n hn]

/-! ## The reference's own stages -/

/-- The padding value is the integer zero converted: the float zero. -/
theorem pad_value_zero : val_main_call0_v0 (F := Ideal) (Shape.Idx.first h_S_) = 0 :=
  sitofp_zero (φ := .f32)

/-- The reference's padded image at padded coordinates `(R, C)` of image `b`. -/
theorem padded (I : FVec Ideal S16x1x512x512 .f32) (b : Fin 16) (R C : Fin 516) :
    val_main_v1 (F := Ideal) I (ix3 b R C) = imgAt I b R.val C.val :=
  padded_apply I shapeCasts_S16x1x512x512_S16x512x512 (val_main_call0_v0 (F := Ideal))
    pads_S16x512x512_S16x516x516_000_220_220 h_S_ pad_value_zero b R C

/-- Before any tap the total is the zero word broadcast: zero everywhere. -/
theorem total_zero (K : FVec Ideal S16x25x512x512 .f32) (I : FVec Ideal S16x1x512x512 .f32) (b : Fin 16) (h w : Fin 512) :
    val_main_v2 (F := Ideal) (ix3 b h w)
      = acc (kAt K b h w) (fun kh kw => imgAt I b (h.val + kh) (w.val + kw)) 0 := by
  rw [val_main_v2_apply, val_main_cst_apply, acc_zero]
  exact Ideal.ofBits_zero_f32

/-! ## The twenty-five taps, in program order

Tap `n`'s total is the stage numbered `7 + 5 n`; each statement is `stage_step` at the tap's number, its window's
offsets `n % 5` and `n / 5`, and the previous tap's total. -/

/-- The total after tap 0 (weight plane 0, window 0 down and 0 right). -/
theorem total_0 (K : FVec Ideal S16x25x512x512 .f32) (I : FVec Ideal S16x1x512x512 .f32) (b : Fin 16) (h w : Fin 512) :
    val_main_v7 (F := Ideal) K I (ix3 b h w)
      = acc (kAt K b h w) (fun kh kw => imgAt I b (h.val + kh) (w.val + kw)) 1 :=
  stage_step 0 0 0 (by norm_num) rfl rfl (val_main_v2 (F := Ideal)) K I (val_main_v1 (F := Ideal) I)
    slices_S16x25x512x512_S16x1x512x512_0_0_0_0 shapeCasts_S16x1x512x512_S16x512x512
    slices_S16x516x516_S16x512x512_0_0_0 b h w (padded I b) (total_zero K I b h w)

/-- The total after tap 1 (weight plane 1, window 1 down and 0 right). -/
theorem total_1 (K : FVec Ideal S16x25x512x512 .f32) (I : FVec Ideal S16x1x512x512 .f32) (b : Fin 16) (h w : Fin 512) :
    val_main_v12 (F := Ideal) K I (ix3 b h w)
      = acc (kAt K b h w) (fun kh kw => imgAt I b (h.val + kh) (w.val + kw)) 2 :=
  stage_step 1 1 0 (by norm_num) rfl rfl (val_main_v7 (F := Ideal) K I) K I (val_main_v1 (F := Ideal) I)
    slices_S16x25x512x512_S16x1x512x512_0_1_0_0 shapeCasts_S16x1x512x512_S16x512x512
    slices_S16x516x516_S16x512x512_0_1_0 b h w (padded I b) (total_0 K I b h w)

/-- The total after tap 2 (weight plane 2, window 2 down and 0 right). -/
theorem total_2 (K : FVec Ideal S16x25x512x512 .f32) (I : FVec Ideal S16x1x512x512 .f32) (b : Fin 16) (h w : Fin 512) :
    val_main_v17 (F := Ideal) K I (ix3 b h w)
      = acc (kAt K b h w) (fun kh kw => imgAt I b (h.val + kh) (w.val + kw)) 3 :=
  stage_step 2 2 0 (by norm_num) rfl rfl (val_main_v12 (F := Ideal) K I) K I (val_main_v1 (F := Ideal) I)
    slices_S16x25x512x512_S16x1x512x512_0_2_0_0 shapeCasts_S16x1x512x512_S16x512x512
    slices_S16x516x516_S16x512x512_0_2_0 b h w (padded I b) (total_1 K I b h w)

/-- The total after tap 3 (weight plane 3, window 3 down and 0 right). -/
theorem total_3 (K : FVec Ideal S16x25x512x512 .f32) (I : FVec Ideal S16x1x512x512 .f32) (b : Fin 16) (h w : Fin 512) :
    val_main_v22 (F := Ideal) K I (ix3 b h w)
      = acc (kAt K b h w) (fun kh kw => imgAt I b (h.val + kh) (w.val + kw)) 4 :=
  stage_step 3 3 0 (by norm_num) rfl rfl (val_main_v17 (F := Ideal) K I) K I (val_main_v1 (F := Ideal) I)
    slices_S16x25x512x512_S16x1x512x512_0_3_0_0 shapeCasts_S16x1x512x512_S16x512x512
    slices_S16x516x516_S16x512x512_0_3_0 b h w (padded I b) (total_2 K I b h w)

/-- The total after tap 4 (weight plane 4, window 4 down and 0 right). -/
theorem total_4 (K : FVec Ideal S16x25x512x512 .f32) (I : FVec Ideal S16x1x512x512 .f32) (b : Fin 16) (h w : Fin 512) :
    val_main_v27 (F := Ideal) K I (ix3 b h w)
      = acc (kAt K b h w) (fun kh kw => imgAt I b (h.val + kh) (w.val + kw)) 5 :=
  stage_step 4 4 0 (by norm_num) rfl rfl (val_main_v22 (F := Ideal) K I) K I (val_main_v1 (F := Ideal) I)
    slices_S16x25x512x512_S16x1x512x512_0_4_0_0 shapeCasts_S16x1x512x512_S16x512x512
    slices_S16x516x516_S16x512x512_0_4_0 b h w (padded I b) (total_3 K I b h w)

/-- The total after tap 5 (weight plane 5, window 0 down and 1 right). -/
theorem total_5 (K : FVec Ideal S16x25x512x512 .f32) (I : FVec Ideal S16x1x512x512 .f32) (b : Fin 16) (h w : Fin 512) :
    val_main_v32 (F := Ideal) K I (ix3 b h w)
      = acc (kAt K b h w) (fun kh kw => imgAt I b (h.val + kh) (w.val + kw)) 6 :=
  stage_step 5 0 1 (by norm_num) rfl rfl (val_main_v27 (F := Ideal) K I) K I (val_main_v1 (F := Ideal) I)
    slices_S16x25x512x512_S16x1x512x512_0_5_0_0 shapeCasts_S16x1x512x512_S16x512x512
    slices_S16x516x516_S16x512x512_0_0_1 b h w (padded I b) (total_4 K I b h w)

/-- The total after tap 6 (weight plane 6, window 1 down and 1 right). -/
theorem total_6 (K : FVec Ideal S16x25x512x512 .f32) (I : FVec Ideal S16x1x512x512 .f32) (b : Fin 16) (h w : Fin 512) :
    val_main_v37 (F := Ideal) K I (ix3 b h w)
      = acc (kAt K b h w) (fun kh kw => imgAt I b (h.val + kh) (w.val + kw)) 7 :=
  stage_step 6 1 1 (by norm_num) rfl rfl (val_main_v32 (F := Ideal) K I) K I (val_main_v1 (F := Ideal) I)
    slices_S16x25x512x512_S16x1x512x512_0_6_0_0 shapeCasts_S16x1x512x512_S16x512x512
    slices_S16x516x516_S16x512x512_0_1_1 b h w (padded I b) (total_5 K I b h w)

/-- The total after tap 7 (weight plane 7, window 2 down and 1 right). -/
theorem total_7 (K : FVec Ideal S16x25x512x512 .f32) (I : FVec Ideal S16x1x512x512 .f32) (b : Fin 16) (h w : Fin 512) :
    val_main_v42 (F := Ideal) K I (ix3 b h w)
      = acc (kAt K b h w) (fun kh kw => imgAt I b (h.val + kh) (w.val + kw)) 8 :=
  stage_step 7 2 1 (by norm_num) rfl rfl (val_main_v37 (F := Ideal) K I) K I (val_main_v1 (F := Ideal) I)
    slices_S16x25x512x512_S16x1x512x512_0_7_0_0 shapeCasts_S16x1x512x512_S16x512x512
    slices_S16x516x516_S16x512x512_0_2_1 b h w (padded I b) (total_6 K I b h w)

/-- The total after tap 8 (weight plane 8, window 3 down and 1 right). -/
theorem total_8 (K : FVec Ideal S16x25x512x512 .f32) (I : FVec Ideal S16x1x512x512 .f32) (b : Fin 16) (h w : Fin 512) :
    val_main_v47 (F := Ideal) K I (ix3 b h w)
      = acc (kAt K b h w) (fun kh kw => imgAt I b (h.val + kh) (w.val + kw)) 9 :=
  stage_step 8 3 1 (by norm_num) rfl rfl (val_main_v42 (F := Ideal) K I) K I (val_main_v1 (F := Ideal) I)
    slices_S16x25x512x512_S16x1x512x512_0_8_0_0 shapeCasts_S16x1x512x512_S16x512x512
    slices_S16x516x516_S16x512x512_0_3_1 b h w (padded I b) (total_7 K I b h w)

/-- The total after tap 9 (weight plane 9, window 4 down and 1 right). -/
theorem total_9 (K : FVec Ideal S16x25x512x512 .f32) (I : FVec Ideal S16x1x512x512 .f32) (b : Fin 16) (h w : Fin 512) :
    val_main_v52 (F := Ideal) K I (ix3 b h w)
      = acc (kAt K b h w) (fun kh kw => imgAt I b (h.val + kh) (w.val + kw)) 10 :=
  stage_step 9 4 1 (by norm_num) rfl rfl (val_main_v47 (F := Ideal) K I) K I (val_main_v1 (F := Ideal) I)
    slices_S16x25x512x512_S16x1x512x512_0_9_0_0 shapeCasts_S16x1x512x512_S16x512x512
    slices_S16x516x516_S16x512x512_0_4_1 b h w (padded I b) (total_8 K I b h w)

/-- The total after tap 10 (weight plane 10, window 0 down and 2 right). -/
theorem total_10 (K : FVec Ideal S16x25x512x512 .f32) (I : FVec Ideal S16x1x512x512 .f32) (b : Fin 16) (h w : Fin 512) :
    val_main_v57 (F := Ideal) K I (ix3 b h w)
      = acc (kAt K b h w) (fun kh kw => imgAt I b (h.val + kh) (w.val + kw)) 11 :=
  stage_step 10 0 2 (by norm_num) rfl rfl (val_main_v52 (F := Ideal) K I) K I (val_main_v1 (F := Ideal) I)
    slices_S16x25x512x512_S16x1x512x512_0_10_0_0 shapeCasts_S16x1x512x512_S16x512x512
    slices_S16x516x516_S16x512x512_0_0_2 b h w (padded I b) (total_9 K I b h w)

/-- The total after tap 11 (weight plane 11, window 1 down and 2 right). -/
theorem total_11 (K : FVec Ideal S16x25x512x512 .f32) (I : FVec Ideal S16x1x512x512 .f32) (b : Fin 16) (h w : Fin 512) :
    val_main_v62 (F := Ideal) K I (ix3 b h w)
      = acc (kAt K b h w) (fun kh kw => imgAt I b (h.val + kh) (w.val + kw)) 12 :=
  stage_step 11 1 2 (by norm_num) rfl rfl (val_main_v57 (F := Ideal) K I) K I (val_main_v1 (F := Ideal) I)
    slices_S16x25x512x512_S16x1x512x512_0_11_0_0 shapeCasts_S16x1x512x512_S16x512x512
    slices_S16x516x516_S16x512x512_0_1_2 b h w (padded I b) (total_10 K I b h w)

/-- The total after tap 12 (weight plane 12, window 2 down and 2 right). -/
theorem total_12 (K : FVec Ideal S16x25x512x512 .f32) (I : FVec Ideal S16x1x512x512 .f32) (b : Fin 16) (h w : Fin 512) :
    val_main_v67 (F := Ideal) K I (ix3 b h w)
      = acc (kAt K b h w) (fun kh kw => imgAt I b (h.val + kh) (w.val + kw)) 13 :=
  stage_step 12 2 2 (by norm_num) rfl rfl (val_main_v62 (F := Ideal) K I) K I (val_main_v1 (F := Ideal) I)
    slices_S16x25x512x512_S16x1x512x512_0_12_0_0 shapeCasts_S16x1x512x512_S16x512x512
    slices_S16x516x516_S16x512x512_0_2_2 b h w (padded I b) (total_11 K I b h w)

/-- The total after tap 13 (weight plane 13, window 3 down and 2 right). -/
theorem total_13 (K : FVec Ideal S16x25x512x512 .f32) (I : FVec Ideal S16x1x512x512 .f32) (b : Fin 16) (h w : Fin 512) :
    val_main_v72 (F := Ideal) K I (ix3 b h w)
      = acc (kAt K b h w) (fun kh kw => imgAt I b (h.val + kh) (w.val + kw)) 14 :=
  stage_step 13 3 2 (by norm_num) rfl rfl (val_main_v67 (F := Ideal) K I) K I (val_main_v1 (F := Ideal) I)
    slices_S16x25x512x512_S16x1x512x512_0_13_0_0 shapeCasts_S16x1x512x512_S16x512x512
    slices_S16x516x516_S16x512x512_0_3_2 b h w (padded I b) (total_12 K I b h w)

/-- The total after tap 14 (weight plane 14, window 4 down and 2 right). -/
theorem total_14 (K : FVec Ideal S16x25x512x512 .f32) (I : FVec Ideal S16x1x512x512 .f32) (b : Fin 16) (h w : Fin 512) :
    val_main_v77 (F := Ideal) K I (ix3 b h w)
      = acc (kAt K b h w) (fun kh kw => imgAt I b (h.val + kh) (w.val + kw)) 15 :=
  stage_step 14 4 2 (by norm_num) rfl rfl (val_main_v72 (F := Ideal) K I) K I (val_main_v1 (F := Ideal) I)
    slices_S16x25x512x512_S16x1x512x512_0_14_0_0 shapeCasts_S16x1x512x512_S16x512x512
    slices_S16x516x516_S16x512x512_0_4_2 b h w (padded I b) (total_13 K I b h w)

/-- The total after tap 15 (weight plane 15, window 0 down and 3 right). -/
theorem total_15 (K : FVec Ideal S16x25x512x512 .f32) (I : FVec Ideal S16x1x512x512 .f32) (b : Fin 16) (h w : Fin 512) :
    val_main_v82 (F := Ideal) K I (ix3 b h w)
      = acc (kAt K b h w) (fun kh kw => imgAt I b (h.val + kh) (w.val + kw)) 16 :=
  stage_step 15 0 3 (by norm_num) rfl rfl (val_main_v77 (F := Ideal) K I) K I (val_main_v1 (F := Ideal) I)
    slices_S16x25x512x512_S16x1x512x512_0_15_0_0 shapeCasts_S16x1x512x512_S16x512x512
    slices_S16x516x516_S16x512x512_0_0_3 b h w (padded I b) (total_14 K I b h w)

/-- The total after tap 16 (weight plane 16, window 1 down and 3 right). -/
theorem total_16 (K : FVec Ideal S16x25x512x512 .f32) (I : FVec Ideal S16x1x512x512 .f32) (b : Fin 16) (h w : Fin 512) :
    val_main_v87 (F := Ideal) K I (ix3 b h w)
      = acc (kAt K b h w) (fun kh kw => imgAt I b (h.val + kh) (w.val + kw)) 17 :=
  stage_step 16 1 3 (by norm_num) rfl rfl (val_main_v82 (F := Ideal) K I) K I (val_main_v1 (F := Ideal) I)
    slices_S16x25x512x512_S16x1x512x512_0_16_0_0 shapeCasts_S16x1x512x512_S16x512x512
    slices_S16x516x516_S16x512x512_0_1_3 b h w (padded I b) (total_15 K I b h w)

/-- The total after tap 17 (weight plane 17, window 2 down and 3 right). -/
theorem total_17 (K : FVec Ideal S16x25x512x512 .f32) (I : FVec Ideal S16x1x512x512 .f32) (b : Fin 16) (h w : Fin 512) :
    val_main_v92 (F := Ideal) K I (ix3 b h w)
      = acc (kAt K b h w) (fun kh kw => imgAt I b (h.val + kh) (w.val + kw)) 18 :=
  stage_step 17 2 3 (by norm_num) rfl rfl (val_main_v87 (F := Ideal) K I) K I (val_main_v1 (F := Ideal) I)
    slices_S16x25x512x512_S16x1x512x512_0_17_0_0 shapeCasts_S16x1x512x512_S16x512x512
    slices_S16x516x516_S16x512x512_0_2_3 b h w (padded I b) (total_16 K I b h w)

/-- The total after tap 18 (weight plane 18, window 3 down and 3 right). -/
theorem total_18 (K : FVec Ideal S16x25x512x512 .f32) (I : FVec Ideal S16x1x512x512 .f32) (b : Fin 16) (h w : Fin 512) :
    val_main_v97 (F := Ideal) K I (ix3 b h w)
      = acc (kAt K b h w) (fun kh kw => imgAt I b (h.val + kh) (w.val + kw)) 19 :=
  stage_step 18 3 3 (by norm_num) rfl rfl (val_main_v92 (F := Ideal) K I) K I (val_main_v1 (F := Ideal) I)
    slices_S16x25x512x512_S16x1x512x512_0_18_0_0 shapeCasts_S16x1x512x512_S16x512x512
    slices_S16x516x516_S16x512x512_0_3_3 b h w (padded I b) (total_17 K I b h w)

/-- The total after tap 19 (weight plane 19, window 4 down and 3 right). -/
theorem total_19 (K : FVec Ideal S16x25x512x512 .f32) (I : FVec Ideal S16x1x512x512 .f32) (b : Fin 16) (h w : Fin 512) :
    val_main_v102 (F := Ideal) K I (ix3 b h w)
      = acc (kAt K b h w) (fun kh kw => imgAt I b (h.val + kh) (w.val + kw)) 20 :=
  stage_step 19 4 3 (by norm_num) rfl rfl (val_main_v97 (F := Ideal) K I) K I (val_main_v1 (F := Ideal) I)
    slices_S16x25x512x512_S16x1x512x512_0_19_0_0 shapeCasts_S16x1x512x512_S16x512x512
    slices_S16x516x516_S16x512x512_0_4_3 b h w (padded I b) (total_18 K I b h w)

/-- The total after tap 20 (weight plane 20, window 0 down and 4 right). -/
theorem total_20 (K : FVec Ideal S16x25x512x512 .f32) (I : FVec Ideal S16x1x512x512 .f32) (b : Fin 16) (h w : Fin 512) :
    val_main_v107 (F := Ideal) K I (ix3 b h w)
      = acc (kAt K b h w) (fun kh kw => imgAt I b (h.val + kh) (w.val + kw)) 21 :=
  stage_step 20 0 4 (by norm_num) rfl rfl (val_main_v102 (F := Ideal) K I) K I (val_main_v1 (F := Ideal) I)
    slices_S16x25x512x512_S16x1x512x512_0_20_0_0 shapeCasts_S16x1x512x512_S16x512x512
    slices_S16x516x516_S16x512x512_0_0_4 b h w (padded I b) (total_19 K I b h w)

/-- The total after tap 21 (weight plane 21, window 1 down and 4 right). -/
theorem total_21 (K : FVec Ideal S16x25x512x512 .f32) (I : FVec Ideal S16x1x512x512 .f32) (b : Fin 16) (h w : Fin 512) :
    val_main_v112 (F := Ideal) K I (ix3 b h w)
      = acc (kAt K b h w) (fun kh kw => imgAt I b (h.val + kh) (w.val + kw)) 22 :=
  stage_step 21 1 4 (by norm_num) rfl rfl (val_main_v107 (F := Ideal) K I) K I (val_main_v1 (F := Ideal) I)
    slices_S16x25x512x512_S16x1x512x512_0_21_0_0 shapeCasts_S16x1x512x512_S16x512x512
    slices_S16x516x516_S16x512x512_0_1_4 b h w (padded I b) (total_20 K I b h w)

/-- The total after tap 22 (weight plane 22, window 2 down and 4 right). -/
theorem total_22 (K : FVec Ideal S16x25x512x512 .f32) (I : FVec Ideal S16x1x512x512 .f32) (b : Fin 16) (h w : Fin 512) :
    val_main_v117 (F := Ideal) K I (ix3 b h w)
      = acc (kAt K b h w) (fun kh kw => imgAt I b (h.val + kh) (w.val + kw)) 23 :=
  stage_step 22 2 4 (by norm_num) rfl rfl (val_main_v112 (F := Ideal) K I) K I (val_main_v1 (F := Ideal) I)
    slices_S16x25x512x512_S16x1x512x512_0_22_0_0 shapeCasts_S16x1x512x512_S16x512x512
    slices_S16x516x516_S16x512x512_0_2_4 b h w (padded I b) (total_21 K I b h w)

/-- The total after tap 23 (weight plane 23, window 3 down and 4 right). -/
theorem total_23 (K : FVec Ideal S16x25x512x512 .f32) (I : FVec Ideal S16x1x512x512 .f32) (b : Fin 16) (h w : Fin 512) :
    val_main_v122 (F := Ideal) K I (ix3 b h w)
      = acc (kAt K b h w) (fun kh kw => imgAt I b (h.val + kh) (w.val + kw)) 24 :=
  stage_step 23 3 4 (by norm_num) rfl rfl (val_main_v117 (F := Ideal) K I) K I (val_main_v1 (F := Ideal) I)
    slices_S16x25x512x512_S16x1x512x512_0_23_0_0 shapeCasts_S16x1x512x512_S16x512x512
    slices_S16x516x516_S16x512x512_0_3_4 b h w (padded I b) (total_22 K I b h w)

/-- The total after tap 24 (weight plane 24, window 4 down and 4 right). -/
theorem total_24 (K : FVec Ideal S16x25x512x512 .f32) (I : FVec Ideal S16x1x512x512 .f32) (b : Fin 16) (h w : Fin 512) :
    val_main_v127 (F := Ideal) K I (ix3 b h w)
      = acc (kAt K b h w) (fun kh kw => imgAt I b (h.val + kh) (w.val + kw)) 25 :=
  stage_step 24 4 4 (by norm_num) rfl rfl (val_main_v122 (F := Ideal) K I) K I (val_main_v1 (F := Ideal) I)
    slices_S16x25x512x512_S16x1x512x512_0_24_0_0 shapeCasts_S16x1x512x512_S16x512x512
    slices_S16x516x516_S16x512x512_0_4_4 b h w (padded I b) (total_23 K I b h w)

/-! ## The result -/

/-- The reference's result is the per-pixel filter: at `(0, b, h, w)` the total after all twenty-five taps. -/
theorem ref_eq (K : (⟨Cert.ReferenceIdeal.S16x25x512x512, .f32⟩ : BufTy).Contents (Elt Ideal))
    (I : (⟨Cert.ReferenceIdeal.S16x1x512x512, .f32⟩ : BufTy).Contents (Elt Ideal)) :
    Cert.ReferenceIdeal.Stages.val_main_v128 (F := Ideal) K I = Cert.PerPixel.conv K I := by
  funext j
  have e : idx_main_v128 j = ix3 (j 1) (j 2) (j 3) := by
    funext a
    match a with
    | ⟨0, _⟩ => rfl
    | ⟨1, _⟩ => rfl
    | ⟨2, _⟩ => rfl
  rw [val_main_v128_apply, e]
  exact total_24 K I (j 1) (j 2) (j 3)

end Cert.ReferenceIdeal.RefSide

end
-- ==== Proof.lean ====
/-
  A per-pixel 5×5 filter: `out[b, h, w] = Σ_{kw, kh} kernel[b, 5·kw + kh, h, w] · pad(image)[b, h + kh, w + kw]`, the
  image padded by two zeros on every side, the twenty-five products added left to right from zero in the order
  `kw` outer, `kh` inner.

  The kernel computes it block by block: grid point `(b, h)` frames image `b` with zeros in a scratch buffer, reads
  back rows `256·h … 256·h + 259`, and folds the twenty-five multiply-adds over 256 rows of the weights
  (Proof/KBody, KFold, KPoint); its thirty-two blocks tile the output and the host adds a leading unit axis
  (Proof/KArray, KRun).  The reference pads the whole image once and folds the same twenty-five multiply-adds over
  whole arrays (Proof/RefOps, RefEval, RefRun: its run, evaluated five operations at a time; Proof/RefSide: its
  last stage read at an index).  Both are the same left-to-right total `Cert.PerPixel.acc` (Proof/Spec), term by
  term, so the two results are equal as extended reals with no appeal to finiteness.  The ideal pass rewrote
  nothing, so `preserves` is trivial; the kernel's two frames are the generated ones, the reference's is its run
  with the result dropped.
-/
import proofs.«151069_j76373108457968_2_alg».proof.Defs
import proofs.«151069_j76373108457968_2_alg».proof.Proof.Gen.Kernel
import proofs.«151069_j76373108457968_2_alg».proof.Proof.Gen.Kernel.Frame
import proofs.«151069_j76373108457968_2_alg».proof.Proof.Gen.KernelIdeal
import proofs.«151069_j76373108457968_2_alg».proof.Proof.Gen.KernelIdeal.Frame
import proofs.«151069_j76373108457968_2_alg».proof.Proof.Gen.ReferenceIdeal
import proofs.«151069_j76373108457968_2_alg».proof.Proof.Gen.Pre_finite_inputs
import proofs.«151069_j76373108457968_2_alg».proof.Proof.KRun
import proofs.«151069_j76373108457968_2_alg».proof.Proof.RefRun
import proofs.«151069_j76373108457968_2_alg».proof.Proof.RefSide
import Idealize.ShloMosaic.Adequacy
import Idealize.ShloMosaic.Init

noncomputable section

namespace Cert.Proof

open Idealize.ShloMosaic Idealize.SL.Sem

/-- The two idealized programs, from memories agreeing on the arguments, both end with the filter's result. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  exact Cert.ReferenceIdeal.RefSide.ref_eq _ _

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Hand.run (F := Ideal) m ρ),
    trivial,
    algebraic⟩

end Cert.Proof

end
